-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8192x8192 .f32) (main_arg1 : FVec F S8192x512 .f32) (main_arg2 : FVec F S512x256 .f32) (main_arg3 : FVec F S256 .f32) (main_arg4 : FVec F S256x128 .f32) (main_arg5 : FVec F S128 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S8192x8192 : Shape := ⟨2, ![8192, 8192]⟩
abbrev S8192x512 : Shape := ⟨2, ![8192, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S8192x256 : Shape := ⟨2, ![8192, 256]⟩
abbrev S1x256 : Shape := ⟨2, ![1, 256]⟩
abbrev S1024x2048 : Shape := ⟨2, ![1024, 2048]⟩
abbrev S1024x256 : Shape := ⟨2, ![1024, 256]⟩
abbrev S2048x256 : Shape := ⟨2, ![2048, 256]⟩
abbrev S8192x128 : Shape := ⟨2, ![8192, 128]⟩
abbrev S1x128 : Shape := ⟨2, ![1, 128]⟩
abbrev S1024x128 : Shape := ⟨2, ![1024, 128]⟩
abbrev S2048x128 : Shape := ⟨2, ![2048, 128]⟩
abbrev S1024x1024 : Shape := ⟨2, ![1024, 1024]⟩
abbrev S67108864 : Shape := ⟨1, ![67108864]⟩

abbrev nBuf : Space → Nat
  | .hbm => 14
  | .vmem => 16
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S8192x256, .f32⟩
  | .hbm, ⟨7, _⟩ => ⟨S1x256, .f32⟩
  | .hbm, ⟨8, _⟩ => ⟨S8192x256, .f32⟩
  | .hbm, ⟨9, _⟩ => ⟨S8192x128, .f32⟩
  | .hbm, ⟨10, _⟩ => ⟨S1x128, .f32⟩
  | .hbm, ⟨11, _⟩ => ⟨S8192x128, .f32⟩
  | .hbm, ⟨12, _⟩ => ⟨S8192x8192, .f32⟩
  | .hbm, ⟨13, _⟩ => ⟨S67108864, .f32⟩
  | .local _ .vmem, ⟨0, _⟩ => ⟨S1024x2048, .f32⟩
  | .local _ .vmem, ⟨1, _⟩ => ⟨S1024x2048, .f32⟩
  | .local _ .vmem, ⟨2, _⟩ => ⟨S8192x256, .f32⟩
  | .local _ .vmem, ⟨3, _⟩ => ⟨S1x256, .f32⟩
  | .local _ .vmem, ⟨4, _⟩ => ⟨S1024x256, .f32⟩
  | .local _ .vmem, ⟨5, _⟩ => ⟨S1024x256, .f32⟩
  | .local _ .vmem, ⟨6, _⟩ => ⟨S1024x2048, .f32⟩
  | .local _ .vmem, ⟨7, _⟩ => ⟨S1024x2048, .f32⟩
  | .local _ .vmem, ⟨8, _⟩ => ⟨S8192x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S8192x128, .f32⟩
  | .local _ .vmem, ⟨13, _⟩ => ⟨S8192x128, .f32⟩
  | .local _ .vmem, ⟨14, _⟩ => ⟨S1024x1024, .f32⟩
  | .local _ .vmem, ⟨15, _⟩ => ⟨S1024x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_mult1 (i : grid2.Coords) : BitVec 32 :=
  let arg0 : BitVec 32 := BitVec.ofNat 32 (i 0).val
  let c1024_i32 : BitVec 32 := 1024#32
  let v0 : BitVec 32 := Scalar.muli arg0 c1024_i32
  v0
def k2_mult2 (i : grid2.Coords) : BitVec 32 :=
  let arg1 : BitVec 32 := BitVec.ofNat 32 (i 1).val
  let c1024_i32_0 : BitVec 32 := 1024#32
  let v2 : BitVec 32 := Scalar.muli arg1 c1024_i32_0
  v2
def k2_off1 (i : grid2.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k2_off2 (i : grid2.Coords) : Fin 2 → Nat :=
  let arg1 : BitVec 32 := BitVec.ofNat 32 (i 1).val
  let c1024_i32_0 : BitVec 32 := 1024#32
  let v2 : BitVec 32 := Scalar.muli arg1 c1024_i32_0
  let v3 : BitVec 32 := v2
  let v8 : Index := Scalar.indexCast v3
  let c0_1 : Index := 0#32
  ![v8.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S8192x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S8192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S2048x256 : 0 < S2048x256.numel
  shapeCasts_S2048x256_S2048x256 : S2048x256.ShapeCasts S2048x256
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  h_S2048x128 : 0 < S2048x128.numel
  shapeCasts_S2048x128_S2048x128 : S2048x128.ShapeCasts S2048x128
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x1024_S1024x1024_0_0 : ∀ a, (![0, 0] : Fin 2 → Nat) a + S1024x1024.size a ≤ S1024x1024.size a
  h_S1024x1024 : 0 < S1024x1024.numel
  shapeCasts_S8192x8192_S67108864 : S8192x8192.ShapeCasts S67108864
  dot_S8192x512_S512x256_S8192x256_1_0_0_1_n_n_wf : DotDims.WF S8192x512 S512x256 S8192x256 [1] [0] [0] [1] [] []
  dot_S1024x2048_S2048x256_S1024x256_1_0_0_1_n_n_wf : DotDims.WF S1024x2048 S2048x256 S1024x256 [1] [0] [0] [1] [] []
  dot_S8192x256_S256x128_S8192x128_1_0_0_1_n_n_wf : DotDims.WF S8192x256 S256x128 S8192x128 [1] [0] [0] [1] [] []
  dot_S1024x2048_S2048x128_S1024x128_1_0_0_1_n_n_wf : DotDims.WF S1024x2048 S2048x128 S1024x128 [1] [0] [0] [1] [] []
  dot_S1024x128_S1024x128_S1024x1024_1_1_0_0_n_n_wf : DotDims.WF S1024x128 S1024x128 S1024x1024 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .f32 = 32 ∨ (Rect.block (s := S8192x256) S1024x256.size (cc0_transform_3 i) (hinb0_3 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hrank2 : 0 < grid2.rank
  k2_mult1_dvd : ∀ i : grid2.Coords, 1024 ∣ (k2_mult1 i).toNat
  k2_mult2_dvd : ∀ i : grid2.Coords, 1024 ∣ (k2_mult2 i).toNat
  k2_off1_inb : ∀ i : grid2.Coords, ∀ a, (k2_off1 i) a + S1024x128.size a ≤ S8192x128.size a
  k2_off2_inb : ∀ i : grid2.Coords, ∀ a, (k2_off2 i) a + S1024x128.size a ≤ S8192x128.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S8192x128.size a
  hwx2_0 : ∀ i : grid2.Coords, EltTy.bits .f32 = 32 ∨ (Rect.block (s := S8192x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .f32 = 32 ∨ (Rect.block (s := S8192x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S8192x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v5) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x8192 : Shape := ⟨2, ![8192, 8192]⟩
abbrev S8192x512 : Shape := ⟨2, ![8192, 512]⟩
abbrev S512x256 : Shape := ⟨2, ![512, 256]⟩
abbrev S256 : Shape := ⟨1, ![256]⟩
abbrev S256x128 : Shape := ⟨2, ![256, 128]⟩
abbrev S128 : Shape := ⟨1, ![128]⟩
abbrev S8192x256 : Shape := ⟨2, ![8192, 256]⟩
abbrev S1x256 : Shape := ⟨2, ![1, 256]⟩
abbrev S_ : Shape := ⟨0, ![]⟩
abbrev S8192x128 : Shape := ⟨2, ![8192, 128]⟩
abbrev S1x128 : Shape := ⟨2, ![1, 128]⟩
abbrev S128x8192 : Shape := ⟨2, ![128, 8192]⟩
abbrev S67108864 : Shape := ⟨1, ![67108864]⟩

abbrev nBuf : Space → Nat
  | .hbm => 30
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S8192x256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S8192x128, .f32⟩
  | .hbm, ⟨15, _⟩ => ⟨S8192x128, .f32⟩
  | .hbm, ⟨16, _⟩ => ⟨S1x128, .f32⟩
  | .hbm, ⟨17, _⟩ => ⟨S8192x128, .f32⟩
  | .hbm, ⟨18, _⟩ => ⟨S8192x128, .f32⟩
  | .hbm, ⟨19, _⟩ => ⟨S128x8192, .f32⟩
  | .hbm, ⟨20, _⟩ => ⟨S8192x8192, .f32⟩
  | .hbm, ⟨21, _⟩ => ⟨S67108864, .f32⟩
  | .hbm, ⟨22, _⟩ => ⟨S67108864, .f32⟩
  | .hbm, ⟨23, _⟩ => ⟨S67108864, .f32⟩
  | .hbm, ⟨24, _⟩ => ⟨S_, .f32⟩
  | .hbm, ⟨25, _⟩ => ⟨S67108864, .f32⟩
  | .hbm, ⟨26, _⟩ => ⟨S67108864, .f32⟩
  | .hbm, ⟨27, _⟩ => ⟨S_, .f32⟩
  | .hbm, ⟨28, _⟩ => ⟨S67108864, .f32⟩
  | .hbm, ⟨29, _⟩ => ⟨S67108864, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  shapeCasts_S8192x8192_S67108864 : S8192x8192.ShapeCasts S67108864
  bcast_S_S67108864 : S_.BroadcastsInDim S67108864 (![] : Fin 0 → Fin S67108864.rank)
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x8192_S8192x8192_1_0_0_1_n_n_wf : DotDims.WF S8192x128 S128x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsAdjBody0.lean ====
/-
  The body of the adjacency layer at one grid point (i, k): the 1024 × 2048 block (i, k) of the adjacency matrix times
  rows 2048·k … 2048·k+2047 of the dense operand (staged whole), added into the 1024-row output block, which stays in
  its buffer while k runs over the four column blocks: reset to zero at k = 0 before the product is added, and at
  k = 3 finished by adding the bias row and clamping below at zero.
  Three control cases, by the column block: first (k = 0), middle (k = 1, 2), last (k = 3).
-/
import proofs.«158142_j13039520711025_2_alg».proof.Proof.Gen.Kernel.Launch
import proofs.«158142_j13039520711025_2_alg».proof.Proof.Gen.Kernel.Skeleton
import proofs.«158142_j13039520711025_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of the adjacency operand, -/
abbrev whA0 : Rect S1024x2048 := Rect.unit (s := S1024x2048) ![0, 0] S1024x2048.size inb_S1024x2048_S1024x2048_0_0
/-- the 2048 rows of the dense operand that the point's column block of the adjacency meets, -/
abbrev rdX0 (i : grid0.Coords) : Rect S8192x256 := Rect.unit (s := S8192x256) (k0_off1 i) S2048x256.size (k0_off1_inb i)
/-- the bias row, -/
abbrev whB0 : Rect S1x256 := Rect.unit (s := S1x256) ![0, 0] S1x256.size inb_S1x256_S1x256_0_0
/-- and the whole output block. -/
abbrev whO0 : Rect S1024x256 := Rect.unit (s := S1024x256) ![0, 0] S1024x256.size inb_S1024x256_S1024x256_0_0

/-- The point is the first of its row of the grid (column block 0): the accumulator is reset. -/
abbrev isFirst0 (i : grid0.Coords) : Prop := (Scalar.cmpi .ne (Scalar.extui (Scalar.cmpi .eq (BitVec.ofNat 32 (i 1).val) 0#32)) 0#32) = 1#1
/-- The point is the last of its row of the grid (column block 3): the bias is added and the block finished. -/
abbrev isLast0 (i : grid0.Coords) : Prop := (Scalar.cmpi .ne (Scalar.extui (Scalar.cmpi .eq (BitVec.ofNat 32 (i 1).val) 3#32)) 0#32) = 1#1

theorem zeroOff0 : (![0, 0] : Fin 2 → Nat) = fun _ => 0 := by funext a; fin_cases a <;> rfl

set_option maxHeartbeats 1000000 in
/-- At a first point the block is reset to zero and the point's product added: whatever the buffer held before. -/
theorem adjFirst0 (c : Dev nD) (E : Set ℕ) (i : grid0.Coords)
    (arg2 : Memref sig .tc .vmem S1024x2048 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S1024x256 .f32) (harg5 : arg5.IsWhole)
    (hf : isFirst0 i) (hl : ¬isLast0 i)
    (x0 : Vec F S1024x2048 .f32) (x1 : Vec F S8192x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 (View.ld x1 (rdX0 i)) (k0_pay1 (F := F)))) -∗ K ⟨⟩))
      ⊢ wp frame (wpE (defs₀ (F := F)) Variants.none c none) E (cc0__adj_linear_kernel i arg2 harg2 arg3 harg3 arg4 harg4 arg5 harg5) K := by
  simp only [cc0__adj_linear_kernel_eq_skeleton]; unfold cc0__adj_linear_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0
  obtain rfl := harg3.eq_unread hf1
  obtain rfl := harg4.eq_unread hf2

  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff0 inb_S1024x256_S1024x256_0_0 y⟩),
    View.canon_cons_unit_zero zeroOff0]
  sl_unfold_run_names
  simp only [View.readAt_eq_ld, harg2.read_unread, harg3.read_unread, View.ld_unit_zero (S := S1024x2048) zeroOff0, View.ld_unit_zero (S := S1024x256) zeroOff0, View.ld_unit_zero (S := S1x256) zeroOff0, View.readCov_unit_zero (S := S1024x256) _ zeroOff0]

set_option maxHeartbeats 1000000 in
/-- At a middle point the product is added to what the point before left. -/
theorem adjMid0 (c : Dev nD) (E : Set ℕ) (i : grid0.Coords)
    (arg2 : Memref sig .tc .vmem S1024x2048 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S1024x256 .f32) (harg5 : arg5.IsWhole)
    (hf : ¬isFirst0 i) (hl : ¬isLast0 i)
    (x0 : Vec F S1024x2048 .f32) (x1 : Vec F S8192x256 .f32) (x2 : Vec F S1x256 .f32) (xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 (View.ld x1 (rdX0 i)) xo)) -∗ K ⟨⟩))
      ⊢ wp frame (wpE (defs₀ (F := F)) Variants.none c none) E (cc0__adj_linear_kernel i arg2 harg2 arg3 harg3 arg4 harg4 arg5 harg5) K := by
  simp only [cc0__adj_linear_kernel_eq_skeleton]; unfold cc0__adj_linear_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff0 inb_S1024x256_S1024x256_0_0 y⟩),
    View.canon_cons_unit_zero zeroOff0]
  sl_unfold_run_names
  simp only [View.readAt_eq_ld, harg2.read_unread, harg3.read_unread, harg5.read_unread, View.ld_unit_zero (S := S1024x2048) zeroOff0, View.ld_unit_zero (S := S1024x256) zeroOff0]

set_option maxHeartbeats 1000000 in
/-- At a last point the product is added to what the point before left and the block finished with the bias. -/
theorem adjLast0 (c : Dev nD) (E : Set ℕ) (i : grid0.Coords)
    (arg2 : Memref sig .tc .vmem S1024x2048 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S1024x256 .f32) (harg5 : arg5.IsWhole)
    (hf : ¬isFirst0 i) (hl : isLast0 i)
    (x0 : Vec F S1024x2048 .f32) (x1 : Vec F S8192x256 .f32) (x2 : Vec F S1x256 .f32) (xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 (View.ld x1 (rdX0 i)) xo) x2)) -∗ K ⟨⟩))
      ⊢ wp frame (wpE (defs₀ (F := F)) Variants.none c none) E (cc0__adj_linear_kernel i arg2 harg2 arg3 harg3 arg4 harg4 arg5 harg5) K := by
  simp only [cc0__adj_linear_kernel_eq_skeleton]; unfold cc0__adj_linear_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff0 inb_S1024x256_S1024x256_0_0 y⟩),
    View.canon_cons_unit_zero zeroOff0]
  sl_unfold_run_names
  simp only [View.readAt_eq_ld, harg2.read_unread, harg3.read_unread, harg4.read_unread, harg5.read_unread, View.ld_unit_zero (S := S1024x2048) zeroOff0, View.ld_unit_zero (S := S1024x256) zeroOff0, View.ld_unit_zero (S := S1x256) zeroOff0, View.readCov_unit_zero (S := S1024x256) _ zeroOff0]

end Cert.Kernel.Gen

end
-- ==== Proof.BitsAdjBody1.lean ====
/-
  The body of the adjacency layer at one grid point (i, k): the 1024 × 2048 block (i, k) of the adjacency matrix times
  rows 2048·k … 2048·k+2047 of the dense operand (staged whole), added into the 1024-row output block, which stays in
  its buffer while k runs over the four column blocks: reset to zero at k = 0 before the product is added, and at
  k = 3 finished by adding the bias row.
  Three control cases, by the column block: first (k = 0), middle (k = 1, 2), last (k = 3).
-/
import proofs.«158142_j13039520711025_2_alg».proof.Proof.Gen.Kernel.Launch
import proofs.«158142_j13039520711025_2_alg».proof.Proof.Gen.Kernel.Skeleton
import proofs.«158142_j13039520711025_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of the adjacency operand, -/
abbrev whA1 : Rect S1024x2048 := Rect.unit (s := S1024x2048) ![0, 0] S1024x2048.size inb_S1024x2048_S1024x2048_0_0
/-- the 2048 rows of the dense operand that the point's column block of the adjacency meets, -/
abbrev rdX1 (i : grid1.Coords) : Rect S8192x128 := Rect.unit (s := S8192x128) (k1_off1 i) S2048x128.size (k1_off1_inb i)
/-- the bias row, -/
abbrev whB1 : Rect S1x128 := Rect.unit (s := S1x128) ![0, 0] S1x128.size inb_S1x128_S1x128_0_0
/-- and the whole output block. -/
abbrev whO1 : Rect S1024x128 := Rect.unit (s := S1024x128) ![0, 0] S1024x128.size inb_S1024x128_S1024x128_0_0

/-- The point is the first of its row of the grid (column block 0): the accumulator is reset. -/
abbrev isFirst1 (i : grid1.Coords) : Prop := (Scalar.cmpi .ne (Scalar.extui (Scalar.cmpi .eq (BitVec.ofNat 32 (i 1).val) 0#32)) 0#32) = 1#1
/-- The point is the last of its row of the grid (column block 3): the bias is added and the block finished. -/
abbrev isLast1 (i : grid1.Coords) : Prop := (Scalar.cmpi .ne (Scalar.extui (Scalar.cmpi .eq (BitVec.ofNat 32 (i 1).val) 3#32)) 0#32) = 1#1

theorem zeroOff1 : (![0, 0] : Fin 2 → Nat) = fun _ => 0 := by funext a; fin_cases a <;> rfl

set_option maxHeartbeats 1000000 in
/-- At a first point the block is reset to zero and the point's product added: whatever the buffer held before. -/
theorem adjFirst1 (c : Dev nD) (E : Set ℕ) (i : grid1.Coords)
    (arg2 : Memref sig .tc .vmem S1024x2048 .f32) (harg2 : arg2.IsWhole) (arg3 : Memref sig .tc .vmem S8192x128 .f32) (harg3 : arg3.IsWhole)
    (arg4 : Memref sig .tc .vmem S1x128 .f32) (harg4 : arg4.IsWhole) (arg5 : Memref sig .tc .vmem S1024x128 .f32) (harg5 : arg5.IsWhole)
    (hf : isFirst1 i) (hl : ¬isLast1 i)
    (x0 : Vec F S1024x2048 .f32) (x1 : Vec F S8192x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 (View.ld x1 (rdX1 i)) (k1_pay1 (F := F)))) -∗ K ⟨⟩))
      ⊢ wp frame (wpE (defs₀ (F := F)) Variants.none c none) E (cc1__adj_linear_kernel i arg2 harg2 arg3 harg3 arg4 harg4 arg5 harg5) K := by
  simp only [cc1__adj_linear_kernel_eq_skeleton]; unfold cc1__adj_linear_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0
  obtain rfl := harg3.eq_unread hf1
  obtain rfl := harg4.eq_unread hf2

  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff1 inb_S1024x128_S1024x128_0_0 y⟩),
    View.canon_cons_unit_zero zeroOff1]
  sl_unfold_run_names
  simp only [View.readAt_eq_ld, harg2.read_unread, harg3.read_unread, View.ld_unit_zero (S := S1024x2048) zeroOff1, View.ld_unit_zero (S := S1024x128) zeroOff1, View.ld_unit_zero (S := S1x128) zeroOff1, View.readCov_unit_zero (S := S1024x128) _ zeroOff1]

set_option maxHeartbeats 1000000 in
/-- At a middle point the product is added to what the point before left. -/
theorem adjMid1 (c : Dev nD) (E : Set ℕ) (i : grid1.Coords)
    (arg2 : Memref sig .tc .vmem S1024x2048 .f32) (harg2 : arg2.IsWhole) (arg3 : Memref sig .tc .vmem S8192x128 .f32) (harg3 : arg3.IsWhole)
    (arg4 : Memref sig .tc .vmem S1x128 .f32) (harg4 : arg4.IsWhole) (arg5 : Memref sig .tc .vmem S1024x128 .f32) (harg5 : arg5.IsWhole)
    (hf : ¬isFirst1 i) (hl : ¬isLast1 i)
    (x0 : Vec F S1024x2048 .f32) (x1 : Vec F S8192x128 .f32) (x2 : Vec F S1x128 .f32) (xo : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 (View.ld x1 (rdX1 i)) xo)) -∗ K ⟨⟩))
      ⊢ wp frame (wpE (defs₀ (F := F)) Variants.none c none) E (cc1__adj_linear_kernel i arg2 harg2 arg3 harg3 arg4 harg4 arg5 harg5) K := by
  simp only [cc1__adj_linear_kernel_eq_skeleton]; unfold cc1__adj_linear_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff1 inb_S1024x128_S1024x128_0_0 y⟩),
    View.canon_cons_unit_zero zeroOff1]
  sl_unfold_run_names
  simp only [View.readAt_eq_ld, harg2.read_unread, harg3.read_unread, harg5.read_unread, View.ld_unit_zero (S := S1024x2048) zeroOff1, View.ld_unit_zero (S := S1024x128) zeroOff1]

set_option maxHeartbeats 1000000 in
/-- At a last point the product is added to what the point before left and the block finished with the bias. -/
theorem adjLast1 (c : Dev nD) (E : Set ℕ) (i : grid1.Coords)
    (arg2 : Memref sig .tc .vmem S1024x2048 .f32) (harg2 : arg2.IsWhole) (arg3 : Memref sig .tc .vmem S8192x128 .f32) (harg3 : arg3.IsWhole)
    (arg4 : Memref sig .tc .vmem S1x128 .f32) (harg4 : arg4.IsWhole) (arg5 : Memref sig .tc .vmem S1024x128 .f32) (harg5 : arg5.IsWhole)
    (hf : ¬isFirst1 i) (hl : isLast1 i)
    (x0 : Vec F S1024x2048 .f32) (x1 : Vec F S8192x128 .f32) (x2 : Vec F S1x128 .f32) (xo : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 (View.ld x1 (rdX1 i)) xo) x2)) -∗ K ⟨⟩))
      ⊢ wp frame (wpE (defs₀ (F := F)) Variants.none c none) E (cc1__adj_linear_kernel i arg2 harg2 arg3 harg3 arg4 harg4 arg5 harg5) K := by
  simp only [cc1__adj_linear_kernel_eq_skeleton]; unfold cc1__adj_linear_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff1 inb_S1024x128_S1024x128_0_0 y⟩),
    View.canon_cons_unit_zero zeroOff1]
  sl_unfold_run_names
  simp only [View.readAt_eq_ld, harg2.read_unread, harg3.read_unread, harg4.read_unread, harg5.read_unread, View.ld_unit_zero (S := S1024x2048) zeroOff1, View.ld_unit_zero (S := S1024x128) zeroOff1, View.ld_unit_zero (S := S1x128) zeroOff1, View.readCov_unit_zero (S := S1024x128) _ zeroOff1]

end Cert.Kernel.Gen

end
-- ==== Proof.BitsDecodeBody.lean ====
/-
  The decoder's body at one grid point (i, j): it reads rows 1024·i … 1024·i+1023 of its first operand and rows
  1024·j … 1024·j+1023 of its second (both staged whole), multiplies the first block by the transpose of the second,
  applies the logistic function and stores the 1024 × 1024 result over the whole output block.
-/
import proofs.«158142_j13039520711025_2_alg».proof.Proof.Gen.Kernel.Launch
import proofs.«158142_j13039520711025_2_alg».proof.Proof.Gen.Kernel.Skeleton
import proofs.«158142_j13039520711025_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of the first operand the point reads, -/
abbrev rdA (i : grid2.Coords) : Rect S8192x128 := Rect.unit (s := S8192x128) (k2_off1 i) S1024x128.size (k2_off1_inb i)
/-- the rows of the second, -/
abbrev rdB (i : grid2.Coords) : Rect S8192x128 := Rect.unit (s := S8192x128) (k2_off2 i) S1024x128.size (k2_off2_inb i)
/-- and the whole output block. -/
abbrev wrO : Rect S1024x1024 := Rect.unit (s := S1024x1024) ![0, 0] S1024x1024.size inb_S1024x1024_S1024x1024_0_0

/-- What the point leaves in the output block, from the two staged operands. -/
def decodeOut (i : grid2.Coords) (x0 x1 : Vec F S8192x128 .f32) : Vec F S1024x1024 .f32 :=
  View.canon [⟨wrO, k2_pay1 (View.ld x0 (rdA i)) (View.ld x1 (rdB i))⟩]

theorem decode_cover (p0 : Vec F S1024x1024 .f32) (y : S1024x1024.Idx) :
    ∃ pc ∈ ([⟨wrO, p0⟩] : List (View.Piece (Elt F) S1024x1024 .f32)), y ∈ pc.1.set :=
  View.cover_of_tiled [⟨wrO, p0⟩] S1024x1024.size (by rfl) y

set_option maxHeartbeats 1000000 in
/-- The body's triple: the two operands' staging buffers are read and kept, the output's ends at `decodeOut`. -/
theorem decode_triple (c : Dev nD) (E : Set ℕ) (i : grid2.Coords)
    (arg2 : Memref sig .tc .vmem S8192x128 .f32) (harg2 : arg2.IsWhole) (arg3 : Memref sig .tc .vmem S8192x128 .f32) (harg3 : arg3.IsWhole)
    (arg4 : Memref sig .tc .vmem S1024x1024 .f32) (harg4 : arg4.IsWhole)
    (x0 x1 : Vec F S8192x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (decodeOut i x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (decode_cover _)

end Cert.Kernel.Gen

end
-- ==== Proof.BitsRegions.lean ====
/-
  The three kernel regions' proof data, each at the buffer contents the region is entered with: what every window's
  staging buffer holds after the body at every grid point, that the buffers hold what each body's triple asks when
  it is called, and the pipeline rule's body obligation at every point.
-/
import proofs.«158142_j13039520711025_2_alg».proof.Proof.Gen.Kernel.Regions
import proofs.«158142_j13039520711025_2_alg».proof.Proof.BitsAdjBody0
import proofs.«158142_j13039520711025_2_alg».proof.Proof.BitsAdjBody1
import proofs.«158142_j13039520711025_2_alg».proof.Proof.BitsDecodeBody

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first adjacency layer (pipeline 0), at the buffer contents `V` the region is entered with -/

/-- Window `w`'s block at grid point `t`, read off the array the window is cut from. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid is walked row block by row block, four column blocks each: point `t` is a first point when `t ≡ 0 (mod 4)`, -/
theorem first_iff0 : ∀ t : Fin cfg0.N, isFirst0 (grid0.coords t) ↔ t.val % 4 = 0 :=
  (by decide +kernel : ∀ t : Fin grid0.N, isFirst0 (grid0.coords t) ↔ t.val % 4 = 0)
/-- and a last point when `t ≡ 3 (mod 4)`. -/
theorem last_iff0 : ∀ t : Fin cfg0.N, isLast0 (grid0.coords t) ↔ t.val % 4 = 3 :=
  (by decide +kernel : ∀ t : Fin grid0.N, isLast0 (grid0.coords t) ↔ t.val % 4 = 3)

/-- What the output block's buffer holds after point `n`: the running sum of the row block's products over the column
    blocks met so far, started from zero at a first point, and at a last point finished with the bias. -/
def acc0 (c : Dev nD) : (n : ℕ) → n < cfg0.N → Vec F S1024x256 .f32
  | 0, hn => k0_pay2 (blk0 V c 0 ⟨0, hn⟩) (View.ld (blk0 V c 1 ⟨0, hn⟩) (rdX0 (grid0.coords ⟨0, hn⟩))) (k0_pay1 (F := F))
  | n + 1, hn =>
    if (n + 1) % 4 = 0 then k0_pay2 (blk0 V c 0 ⟨n + 1, hn⟩) (View.ld (blk0 V c 1 ⟨n + 1, hn⟩) (rdX0 (grid0.coords ⟨n + 1, hn⟩))) (k0_pay1 (F := F))
    else if (n + 1) % 4 = 3 then k0_pay3 (k0_pay2 (blk0 V c 0 ⟨n + 1, hn⟩) (View.ld (blk0 V c 1 ⟨n + 1, hn⟩) (rdX0 (grid0.coords ⟨n + 1, hn⟩))) (acc0 c n (Nat.lt_of_succ_lt hn))) (blk0 V c 2 ⟨n + 1, hn⟩)
    else k0_pay2 (blk0 V c 0 ⟨n + 1, hn⟩) (View.ld (blk0 V c 1 ⟨n + 1, hn⟩) (rdX0 (grid0.coords ⟨n + 1, hn⟩))) (acc0 c n (Nat.lt_of_succ_lt hn))

theorem acc0_first (c : Dev nD) (t : Fin cfg0.N) (h0 : t.val % 4 = 0) :
    acc0 V c t.val t.isLt = k0_pay2 (blk0 V c 0 t) (View.ld (blk0 V c 1 t) (rdX0 (grid0.coords t))) (k0_pay1 (F := F)) := by
  obtain ⟨n, hn⟩ := t
  cases n with
  | zero => rfl
  | succ n => exact (if_pos h0)

theorem acc0_mid (c : Dev nD) (t : Fin cfg0.N) (h0 : ¬t.val % 4 = 0) (h3 : ¬t.val % 4 = 3) :
    acc0 V c t.val t.isLt = k0_pay2 (blk0 V c 0 t) (View.ld (blk0 V c 1 t) (rdX0 (grid0.coords t))) (acc0 V c (t.val - 1) (Nat.lt_of_le_of_lt (Nat.sub_le _ _) t.isLt)) := by
  obtain ⟨n, hn⟩ := t
  cases n with
  | zero => exact absurd (Nat.zero_mod _) h0
  | succ n => exact (if_neg h0).trans (if_neg h3)

theorem acc0_last (c : Dev nD) (t : Fin cfg0.N) (h0 : ¬t.val % 4 = 0) (h3 : t.val % 4 = 3) :
    acc0 V c t.val t.isLt = k0_pay3 (k0_pay2 (blk0 V c 0 t) (View.ld (blk0 V c 1 t) (rdX0 (grid0.coords t))) (acc0 V c (t.val - 1) (Nat.lt_of_le_of_lt (Nat.sub_le _ _) t.isLt))) (blk0 V c 2 t) := by
  obtain ⟨n, hn⟩ := t
  cases n with
  | zero => exact absurd (Nat.zero_mod _) h0
  | succ n => exact (if_neg h0).trans (if_pos h3)

/-- The pipeline's proof data: the arrays as the region finds them; each input's buffer keeps its block, the output's
    holds `acc0`; the scoped rest and the generator register ride along; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = acc0 V c t.val t.isLt := by dsimp only [dat0]

/-- An input's buffer holds its block at every point, fetched there or not (its block index does not move between fetches). -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)
/-- Away from a first point the output's buffer holds what the point before left: it is written back at last points only. -/
theorem before0_3 (c : Dev nD) (t : Fin cfg0.N) (h0 : ¬t.val % 4 = 0) (d) :
    (dat0 V c).before 3 t d = acc0 V c (t.val - 1) (Nat.lt_of_le_of_lt (Nat.sub_le _ _) t.isLt) := by
  rw [Dat.before_out_kept _ 3 rfl t (by omega) (Bool.eq_false_iff.mpr fun h => by have := (flush0_3 _).mp h; dsimp only at this; omega)
    (fun _ => rfl) (fun _ _ => rfl)]
  dsimp only [dat0]

set_option maxHeartbeats 800000 in
/-- The body at any point: the case is decided by the point's residue mod 4; the buffers hold what the case's triple asks. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 4 = 0
  · have h3 : ¬t.val % 4 = 3 := by omega
    rw [acc0_first V c t h0]
    iintro ⟨HΦ, Ho, ⟨%d0, H0⟩, ⟨%d1, H1⟩, ⟨%d2, H2⟩, ⟨%d3, H3⟩⟩
    iapply (adjFirst0 c Set.univ (grid0.coords t) _ _ _ _ _ _ _ _ ((first_iff0 t).mpr h0) (fun h => h3 ((last_iff0 t).mp h))
      (blk0 V c 0 t) (blk0 V c 1 t) (blk0 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3 V c t h0]
    by_cases h3 : t.val % 4 = 3
    · rw [acc0_last V c t h0 h3]
      iintro ⟨HΦ, Ho, ⟨%d0, H0⟩, ⟨%d1, H1⟩, ⟨%d2, H2⟩, ⟨%d3, H3⟩⟩
      iapply (adjLast0 c Set.univ (grid0.coords t) _ _ _ _ _ _ _ _ (fun h => h0 ((first_iff0 t).mp h)) ((last_iff0 t).mpr h3)
        (blk0 V c 0 t) (blk0 V c 1 t) (blk0 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [acc0_mid V c t h0 h3]
      iintro ⟨HΦ, Ho, ⟨%d0, H0⟩, ⟨%d1, H1⟩, ⟨%d2, H2⟩, ⟨%d3, H3⟩⟩
      iapply (adjMid0 c Set.univ (grid0.coords t) _ _ _ _ _ _ _ _ (fun h => h0 ((first_iff0 t).mp h)) (fun h => h3 ((last_iff0 t).mp h))
        (blk0 V c 0 t) (blk0 V c 1 t) (blk0 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-! # The second adjacency layer (pipeline 1), at the buffer contents `V` the region is entered with -/

/-- Window `w`'s block at grid point `t`, read off the array the window is cut from. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid is walked row block by row block, four column blocks each: point `t` is a first point when `t ≡ 0 (mod 4)`, -/
theorem first_iff1 : ∀ t : Fin cfg1.N, isFirst1 (grid1.coords t) ↔ t.val % 4 = 0 :=
  (by decide +kernel : ∀ t : Fin grid1.N, isFirst1 (grid1.coords t) ↔ t.val % 4 = 0)
/-- and a last point when `t ≡ 3 (mod 4)`. -/
theorem last_iff1 : ∀ t : Fin cfg1.N, isLast1 (grid1.coords t) ↔ t.val % 4 = 3 :=
  (by decide +kernel : ∀ t : Fin grid1.N, isLast1 (grid1.coords t) ↔ t.val % 4 = 3)

/-- What the output block's buffer holds after point `n`: the running sum of the row block's products over the column
    blocks met so far, started from zero at a first point, and at a last point finished with the bias. -/
def acc1 (c : Dev nD) : (n : ℕ) → n < cfg1.N → Vec F S1024x128 .f32
  | 0, hn => k1_pay2 (blk1 V c 0 ⟨0, hn⟩) (View.ld (blk1 V c 1 ⟨0, hn⟩) (rdX1 (grid1.coords ⟨0, hn⟩))) (k1_pay1 (F := F))
  | n + 1, hn =>
    if (n + 1) % 4 = 0 then k1_pay2 (blk1 V c 0 ⟨n + 1, hn⟩) (View.ld (blk1 V c 1 ⟨n + 1, hn⟩) (rdX1 (grid1.coords ⟨n + 1, hn⟩))) (k1_pay1 (F := F))
    else if (n + 1) % 4 = 3 then k1_pay3 (k1_pay2 (blk1 V c 0 ⟨n + 1, hn⟩) (View.ld (blk1 V c 1 ⟨n + 1, hn⟩) (rdX1 (grid1.coords ⟨n + 1, hn⟩))) (acc1 c n (Nat.lt_of_succ_lt hn))) (blk1 V c 2 ⟨n + 1, hn⟩)
    else k1_pay2 (blk1 V c 0 ⟨n + 1, hn⟩) (View.ld (blk1 V c 1 ⟨n + 1, hn⟩) (rdX1 (grid1.coords ⟨n + 1, hn⟩))) (acc1 c n (Nat.lt_of_succ_lt hn))

theorem acc1_first (c : Dev nD) (t : Fin cfg1.N) (h0 : t.val % 4 = 0) :
    acc1 V c t.val t.isLt = k1_pay2 (blk1 V c 0 t) (View.ld (blk1 V c 1 t) (rdX1 (grid1.coords t))) (k1_pay1 (F := F)) := by
  obtain ⟨n, hn⟩ := t
  cases n with
  | zero => rfl
  | succ n => exact (if_pos h0)

theorem acc1_mid (c : Dev nD) (t : Fin cfg1.N) (h0 : ¬t.val % 4 = 0) (h3 : ¬t.val % 4 = 3) :
    acc1 V c t.val t.isLt = k1_pay2 (blk1 V c 0 t) (View.ld (blk1 V c 1 t) (rdX1 (grid1.coords t))) (acc1 V c (t.val - 1) (Nat.lt_of_le_of_lt (Nat.sub_le _ _) t.isLt)) := by
  obtain ⟨n, hn⟩ := t
  cases n with
  | zero => exact absurd (Nat.zero_mod _) h0
  | succ n => exact (if_neg h0).trans (if_neg h3)

theorem acc1_last (c : Dev nD) (t : Fin cfg1.N) (h0 : ¬t.val % 4 = 0) (h3 : t.val % 4 = 3) :
    acc1 V c t.val t.isLt = k1_pay3 (k1_pay2 (blk1 V c 0 t) (View.ld (blk1 V c 1 t) (rdX1 (grid1.coords t))) (acc1 V c (t.val - 1) (Nat.lt_of_le_of_lt (Nat.sub_le _ _) t.isLt))) (blk1 V c 2 t) := by
  obtain ⟨n, hn⟩ := t
  cases n with
  | zero => exact absurd (Nat.zero_mod _) h0
  | succ n => exact (if_neg h0).trans (if_pos h3)

/-- The pipeline's proof data: the arrays as the region finds them; each input's buffer keeps its block, the output's
    holds `acc1`; the scoped rest and the generator register ride along; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = acc1 V c t.val t.isLt := by dsimp only [dat1]

/-- An input's buffer holds its block at every point, fetched there or not (its block index does not move between fetches). -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
/-- Away from a first point the output's buffer holds what the point before left: it is written back at last points only. -/
theorem before1_3 (c : Dev nD) (t : Fin cfg1.N) (h0 : ¬t.val % 4 = 0) (d) :
    (dat1 V c).before 3 t d = acc1 V c (t.val - 1) (Nat.lt_of_le_of_lt (Nat.sub_le _ _) t.isLt) := by
  rw [Dat.before_out_kept _ 3 rfl t (by omega) (Bool.eq_false_iff.mpr fun h => by have := (flush1_3 _).mp h; dsimp only at this; omega)
    (fun _ => rfl) (fun _ _ => rfl)]
  dsimp only [dat1]

set_option maxHeartbeats 800000 in
/-- The body at any point: the case is decided by the point's residue mod 4; the buffers hold what the case's triple asks. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t))) := by
  unfold bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 4 = 0
  · have h3 : ¬t.val % 4 = 3 := by omega
    rw [acc1_first V c t h0]
    iintro ⟨HΦ, Ho, ⟨%d0, H0⟩, ⟨%d1, H1⟩, ⟨%d2, H2⟩, ⟨%d3, H3⟩⟩
    iapply (adjFirst1 c Set.univ (grid1.coords t) _ _ _ _ _ _ _ _ ((first_iff1 t).mpr h0) (fun h => h3 ((last_iff1 t).mp h))
      (blk1 V c 0 t) (blk1 V c 1 t) (blk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before1_3 V c t h0]
    by_cases h3 : t.val % 4 = 3
    · rw [acc1_last V c t h0 h3]
      iintro ⟨HΦ, Ho, ⟨%d0, H0⟩, ⟨%d1, H1⟩, ⟨%d2, H2⟩, ⟨%d3, H3⟩⟩
      iapply (adjLast1 c Set.univ (grid1.coords t) _ _ _ _ _ _ _ _ (fun h => h0 ((first_iff1 t).mp h)) ((last_iff1 t).mpr h3)
        (blk1 V c 0 t) (blk1 V c 1 t) (blk1 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [acc1_mid V c t h0 h3]
      iintro ⟨HΦ, Ho, ⟨%d0, H0⟩, ⟨%d1, H1⟩, ⟨%d2, H2⟩, ⟨%d3, H3⟩⟩
      iapply (adjMid1 c Set.univ (grid1.coords t) _ _ _ _ _ _ _ _ (fun h => h0 ((first_iff1 t).mp h)) (fun h => h3 ((last_iff1 t).mp h))
        (blk1 V c 0 t) (blk1 V c 1 t) (blk1 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

/-! # The decoder (pipeline 2), at the buffer contents `V` the region is entered with.
    Its two input windows are cut from ONE array (the embedding), each staged whole; the array is dealt between them
    at the two halves of the full share. -/

/-- Window `w`'s block at grid point `t`, read off the array the window is cut from. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The pipeline's proof data: both inputs keep the whole embedding, the output block holds the logistic of the
    products of the point's two row blocks; the embedding's array is held at half the full share by each input. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => decodeOut (grid2.coords t) (blk2 V c 0 t) (blk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) :
    (dat2 V c).after 2 t = decodeOut (grid2.coords t) (blk2 V c 0 t) (blk2 V c 1 t) := by dsimp only [dat2]

theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A_eq2]; try rfl) t d).trans
    (by unfold Dat.fetched Dat.blockOf blk2; rw [A_eq2]; try rfl)

/-- The body at any point: the two operands' buffers hold the embedding, the triple applies. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t))) := by
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (decode_triple c Set.univ (grid2.coords t) _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Regions

end Cert.Kernel.Gen

end
-- ==== Proof.BitsRun.lean ====
/-
  @main as six segments — three stretches of host operations and the three kernel regions — with the contents of
  every unscoped buffer named at each boundary: the launch memory, then each host stretch's results, then after each
  region its result array rewritten by the blocks written back over the grid. The run of the whole program ends with
  every unscoped buffer at the last boundary's contents.
-/
import proofs.«158142_j13039520711025_2_alg».proof.Proof.BitsRegions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between @main's items -/

/-- At launch. -/
abbrev W0 (c : Dev nD) : Valuation τ sig (Elt F) := fun b => m (c, b)
/-- After the first host stretch (`feature · W1` and the first bias as a row). -/
abbrev W1 (c : Dev nD) : Valuation τ sig (Elt F) := StableHlo.after hostOps0 (W0 m c)
abbrev Vr1 : (c : Dev nD) → (b : Ref sig .tc) → Buf (Elt F) ((c : Thread nD τ).loc b) := fun c b => W1 m c b

/-- What the region leaves in its result array `main_v2`: its blocks' write-backs folded over the grid. -/
def fin0 (c : Dev nD) : Buf (Elt F) ((c : Thread nD τ).loc main_v2) := (dat0 (Vr1 m) c).arrAt 3 cfg0.N
/-- The unscoped buffers after the region: `main_v2` rewritten, every other buffer as the region found it. -/
abbrev W2 (c : Dev nD) : Valuation τ sig (Elt F) := Function.update (W1 m c) main_v2 (fin0 m c)
abbrev Vr2 : (c : Dev nD) → (b : Ref sig .tc) → Buf (Elt F) ((c : Thread nD τ).loc b) := fun c b => W2 m c b
theorem W2_at (c : Dev nD) : W2 m c main_v2 = fin0 m c := Function.update_self ..
theorem W2_of (c : Dev nD) (r : Ref sig .tc) (h : r ≠ main_v2) : W2 m c r = W1 m c r :=
  Function.update_of_ne (StableHlo.devRef_ne_of_ne h : (Proc.devRef .tc r : DevRef τ sig) ≠ Proc.devRef .tc main_v2) _ _

/-- After the second host stretch (`hidden · W2` and the second bias as a row). -/
abbrev W3 (c : Dev nD) : Valuation τ sig (Elt F) := StableHlo.after hostOps1 (W2 m c)
abbrev Vr3 : (c : Dev nD) → (b : Ref sig .tc) → Buf (Elt F) ((c : Thread nD τ).loc b) := fun c b => W3 m c b

/-- What the region leaves in its result array `main_v5`: its blocks' write-backs folded over the grid. -/
def fin1 (c : Dev nD) : Buf (Elt F) ((c : Thread nD τ).loc main_v5) := (dat1 (Vr3 m) c).arrAt 3 cfg1.N
/-- The unscoped buffers after the region: `main_v5` rewritten, every other buffer as the region found it. -/
abbrev W4 (c : Dev nD) : Valuation τ sig (Elt F) := Function.update (W3 m c) main_v5 (fin1 m c)
abbrev Vr4 : (c : Dev nD) → (b : Ref sig .tc) → Buf (Elt F) ((c : Thread nD τ).loc b) := fun c b => W4 m c b
theorem W4_at (c : Dev nD) : W4 m c main_v5 = fin1 m c := Function.update_self ..
theorem W4_of (c : Dev nD) (r : Ref sig .tc) (h : r ≠ main_v5) : W4 m c r = W3 m c r :=
  Function.update_of_ne (StableHlo.devRef_ne_of_ne h : (Proc.devRef .tc r : DevRef τ sig) ≠ Proc.devRef .tc main_v5) _ _

/-- What the region leaves in its result array `main_v6`: its blocks' write-backs folded over the grid. -/
def fin2 (c : Dev nD) : Buf (Elt F) ((c : Thread nD τ).loc main_v6) := (dat2 (Vr4 m) c).arrAt 2 cfg2.N
/-- The unscoped buffers after the region: `main_v6` rewritten, every other buffer as the region found it. -/
abbrev W5 (c : Dev nD) : Valuation τ sig (Elt F) := Function.update (W4 m c) main_v6 (fin2 m c)
abbrev Vr5 : (c : Dev nD) → (b : Ref sig .tc) → Buf (Elt F) ((c : Thread nD τ).loc b) := fun c b => W5 m c b
theorem W5_at (c : Dev nD) : W5 m c main_v6 = fin2 m c := Function.update_self ..
theorem W5_of (c : Dev nD) (r : Ref sig .tc) (h : r ≠ main_v6) : W5 m c r = W4 m c r :=
  Function.update_of_ne (StableHlo.devRef_ne_of_ne h : (Proc.devRef .tc r : DevRef τ sig) ≠ Proc.devRef .tc main_v6) _ _

/-- After the last host stretch (the scores flattened). -/
abbrev W6 (c : Dev nD) : Valuation τ sig (Elt F) := StableHlo.after hostOps3 (W5 m c)

/-! ## Each region's arrays at its exit, and the buffers it leaves alone -/

theorem finals0 (c : Dev nD) : ∀ w : Fin cfg0.W, (dat0 (Vr1 m) c).arrAt w cfg0.N = Vr2 m c (Pipeline.arrRef spec0 w)
  | ⟨0, _⟩ => ((dat0 (Vr1 m) c).arrAt_in 0 rfl _).trans ((A_eq0 (Vr1 m) c 0).trans (W2_of m c main_arg0 (by decide)).symm)
  | ⟨1, _⟩ => ((dat0 (Vr1 m) c).arrAt_in 1 rfl _).trans ((A_eq0 (Vr1 m) c 1).trans (W2_of m c main_v0 (by decide)).symm)
  | ⟨2, _⟩ => ((dat0 (Vr1 m) c).arrAt_in 2 rfl _).trans ((A_eq0 (Vr1 m) c 2).trans (W2_of m c main_v1 (by decide)).symm)
  | ⟨3, _⟩ => (W2_at m c).symm
theorem others0 (c : Dev nD) : ∀ b, b ∉ Finset.univ.image (Pipeline.arrRef spec0) → Vr2 m c b = Vr1 m c b :=
  fun b hb => W2_of m c b fun e => hb (Finset.mem_image.mpr ⟨3, Finset.mem_univ _, e.symm⟩)

theorem finals1 (c : Dev nD) : ∀ w : Fin cfg1.W, (dat1 (Vr3 m) c).arrAt w cfg1.N = Vr4 m c (Pipeline.arrRef spec1 w)
  | ⟨0, _⟩ => ((dat1 (Vr3 m) c).arrAt_in 0 rfl _).trans ((A_eq1 (Vr3 m) c 0).trans (W4_of m c main_arg0 (by decide)).symm)
  | ⟨1, _⟩ => ((dat1 (Vr3 m) c).arrAt_in 1 rfl _).trans ((A_eq1 (Vr3 m) c 1).trans (W4_of m c main_v3 (by decide)).symm)
  | ⟨2, _⟩ => ((dat1 (Vr3 m) c).arrAt_in 2 rfl _).trans ((A_eq1 (Vr3 m) c 2).trans (W4_of m c main_v4 (by decide)).symm)
  | ⟨3, _⟩ => (W4_at m c).symm
theorem others1 (c : Dev nD) : ∀ b, b ∉ Finset.univ.image (Pipeline.arrRef spec1) → Vr4 m c b = Vr3 m c b :=
  fun b hb => W4_of m c b fun e => hb (Finset.mem_image.mpr ⟨3, Finset.mem_univ _, e.symm⟩)

/-! ## The proof data family and what rides along -/

/-- Every pipeline's proof data, each at its region's entry contents. -/
def pdatsAll : (p : Fin 3) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr3 m) c
  | ⟨2, _⟩ => fun c => dat2 (Vr4 m) c

/-- No core owes another anything: no level is assigned. -/
abbrev LL : GSem nD τ sig → Finset Unit := fun _ => ∅
abbrev lvl : GSem nD τ sig → Unit → ℕ := fun _ _ => 0
/-- Beside the buffers, through every segment: the core's generator register at some state and its dues, at nothing. -/
abbrev Ride (c : Dev nD) : sProp 𝕄 := iprop((∃ r, prngReg c r) ∗ ∃ W, owes (c : Thread nD τ) (0 : CellTallies nD τ sig Unit) W)

/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none LL lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

set_option backward.isDefEq.respectTransparency.types false in
/-- The first adjacency layer as a segment of @main: entered with every unscoped buffer at `W1`, left with them at
    `W2`; its windows' arrays are taken out of the unscoped buffers and put back with the result array rewritten; the
    generator register passes through the region's invariant; nothing is owed; the kernel has no semaphore of its own. -/
def regA0 : Pipeline.RegionSeg (pcfgs (F := F)) adm (pdatsAll m) () defs₀ Variants.none LL lvl 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ LL lvl 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdatsAll m) launch0.win launch0.arr_whole c
      ((pdatsAll m 0 c).share_full fun _ => rfl) (Vr1 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsAll m 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdatsAll m 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdatsAll m) ((pdatsAll m 0 c).share_full fun _ => rfl)
      (Vr1 m c) (Vr2 m c) ((pdatsAll m 0 c).arrAt · cfg0.N) (finals0 m c) (others0 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- The second adjacency layer as a segment of @main: entered with every unscoped buffer at `W3`, left with them at
    `W4`; its windows' arrays are taken out of the unscoped buffers and put back with the result array rewritten; the
    generator register passes through the region's invariant; nothing is owed; the kernel has no semaphore of its own. -/
def regA1 : Pipeline.RegionSeg (pcfgs (F := F)) adm (pdatsAll m) () defs₀ Variants.none LL lvl 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ LL lvl 1 fun _ _ => rfl
  pre c := iprop(StableHlo.held (c : Thread nD τ) (Pipeline.ucRefs τ sig) (W3 m c) ∗ Ride c)
  post c := iprop(StableHlo.held (c : Thread nD τ) (Pipeline.ucRefs τ sig) (W4 m c) ∗ Ride c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm (pdatsAll m) launch1.win launch1.arr_whole c
      ((pdatsAll m 1 c).share_full fun _ => rfl) (Vr3 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsAll m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdatsAll m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdatsAll m) ((pdatsAll m 1 c).share_full fun _ => rfl)
      (Vr3 m c) (Vr4 m c) ((pdatsAll m 1 c).arrAt · cfg1.N) (finals1 m c) (others1 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## The decoder's region: one array behind two windows -/

/-- The buffers behind the decoder's windows: the embedding (read through two windows) and the scores. -/
theorem decoder_image : Finset.univ.image (Pipeline.arrRef spec2) = ({main_v5, main_v6} : Finset (Ref sig .tc)) := by decide

/-- A core's unscoped buffers are those two and the rest. -/
theorem decoder_split (c : Dev nD) (V : (b : Ref sig .tc) → Buf (Elt F) ((c : Thread nD τ).loc b)) :
    (unscopedBufs (Ix := Unit) (Name := ℕ) (U := UR sig nD τ) (Lvl := ℕ) c V : sProp 𝕄)
      = iprop(((((c : Thread nD τ).loc main_v5) ↦{fullShare} V main_v5) ∗ (((c : Thread nD τ).loc main_v6) ↦{fullShare} V main_v6))
          ∗ Pipeline.unscopedRest (Ix := Unit) (Name := ℕ) (U := UR sig nD τ) (Lvl := ℕ) spec2 c V) := by
  unfold unscopedBufs Pipeline.unscopedRest
  rw [decoder_image, BI.bigSep_sdiff_split (t := ({main_v5, main_v6} : Finset (Ref sig .tc))) (by decide),
    BI.bigSep_insert (by decide), BI.bigSep_singleton]
  rfl

/-- The decoder's arrays as the pipeline holds them: the embedding twice, at the two halves of the full share, and the
    scores whole. -/
theorem decoder_arrays (V : (c : Dev nD) → (b : Ref sig .tc) → Buf (Elt F) ((c : Thread nD τ).loc b)) (c : Dev nD)
    (G : (w : Fin cfg2.W) → Buf (Elt F) ((cfg2.win w).arr.view.loc (c.tc : Thread nD τ))) :
    ((dat2 V c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  unfold Pipeline.Dat.arrays
  rw [bigSep_W2, (arr_whole2 0).set_eq_univ, (arr_whole2 2).set_eq_univ]
  rfl

/-- The rest is the same at two valuations that agree off the two buffers. -/
theorem decoder_rest_congr (c : Dev nD) (V V' : (b : Ref sig .tc) → Buf (Elt F) ((c : Thread nD τ).loc b))
    (h : ∀ b, b ≠ main_v6 → V' b = V b) :
    (Pipeline.unscopedRest (Ix := Unit) (Name := ℕ) (U := UR sig nD τ) (Lvl := ℕ) spec2 c V' : sProp 𝕄)
      = Pipeline.unscopedRest (Ix := Unit) (Name := ℕ) (U := UR sig nD τ) (Lvl := ℕ) spec2 c V := by
  unfold Pipeline.unscopedRest
  refine BI.bigSep_congr fun b hb => ?_
  have hb' : b ∉ ({main_v5, main_v6} : Finset (Ref sig .tc)) := by rw [← decoder_image]; exact (Finset.mem_sdiff.mp hb).2
  rw [h b (fun e => hb' (by rw [e]; decide))]

set_option backward.isDefEq.respectTransparency.types false in
/-- The decoder as a segment of @main: entered with every unscoped buffer at `W4`, left with them at `W5`. The
    embedding's buffer is dealt to the two input windows at the two halves of the full share, both at the same
    contents, and put back together at the exit; the scores' buffer goes to the output window whole. -/
def regD : Pipeline.RegionSeg (pcfgs (F := F)) adm (pdatsAll m) () defs₀ Variants.none LL lvl 2 where
  win := winFacts₀2
  block_pos := block_pos2
  stage_whole := stage_whole2
  K := PEmpty
  osem k := k.elim
  ho := Pipeline.OwnSemFacts.none _
  hbody c := (body_obligation2 (Vr4 m) c).loose
  hwaits := Pipeline.hwaits_of_owed_zero _ _ _ _ LL lvl 2 fun _ _ => rfl
  pre c := iprop(StableHlo.held (c : Thread nD τ) (Pipeline.ucRefs τ sig) (W4 m c) ∗ Ride c)
  post c := iprop(StableHlo.held (c : Thread nD τ) (Pipeline.ucRefs τ sig) (W5 m c) ∗ Ride c)
  X c := iprop(∃ r, prngReg c r)
  Y c := iprop(∃ r, prngReg c r)
  Z c := Pipeline.unscopedRest (Ix := Unit) (Name := ℕ) (U := UR sig nD τ) (Lvl := ℕ) spec2 c (Vr4 m c)
  hentry c := by
    show iprop(iprop(StableHlo.held (c : Thread nD τ) (Pipeline.ucRefs τ sig) (W4 m c) ∗ Ride c) ∗ Pipeline.ownSems0 (fun k : PEmpty => k.elim) c ∗ levAts LL lvl)
      ⊢ |={Set.univ}=> iprop((dat2 (Vr4 m) c).arrays ((dat2 (Vr4 m) c).arrAt · 0) ∗ Pipeline.prefHeld (pcfgs (F := F) 2).pre c (fun _ => fullShare) (adm 2).1
          ∗ (dat2 (Vr4 m) c).owesAt () 0 ∗ (∃ r, prngReg c r)
          ∗ Pipeline.unscopedRest (Ix := Unit) (Name := ℕ) (U := UR sig nD τ) (Lvl := ℕ) spec2 c (Vr4 m c))
    rw [Pipeline.ownSems0_none, ← Pipeline.unscopedBufs_held (Ix := Unit) (Name := ℕ) (U := UR sig nD τ) (Lvl := ℕ) c (W4 m c),
      decoder_split c (Vr4 m c), decoder_arrays (Vr4 m) c]
    iintro ⟨⟨Hbufs, Hreg, Howes⟩, -, -⟩
    icases Hbufs with ⟨⟨Hemb, Hsco⟩, Hrest⟩
    ihave Hhalves := (pointsTo_share (PosShare.mem_left_op_right fullShare)).1 $$ Hemb
    icases Hhalves with ⟨Hl, Hr⟩
    imodintro
    isplitl [Hl Hr Hsco]
    · isplitl [Hl]; · iexact Hl
      isplitl [Hr]; · iexact Hr
      iexact Hsco
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsAll m 2 c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdatsAll m 2 c).Φ (Fin.last _) = Pipeline.ΦA spec2 c from rfl]; unfold Pipeline.ΦA
    iintro ⟨Hsc, Hreg⟩
    isplitl [Hreg]; · iexact Hreg
    isplitr; · iempintro
    iexact Hsc
  hexit c := by
    show iprop((dat2 (Vr4 m) c).arrays ((dat2 (Vr4 m) c).arrAt · cfg2.N) ∗ (dat2 (Vr4 m) c).owesAt () (Fin.last cfg2.N) ∗ (∃ r, prngReg c r)
          ∗ Pipeline.unscopedRest (Ix := Unit) (Name := ℕ) (U := UR sig nD τ) (Lvl := ℕ) spec2 c (Vr4 m c))
      ⊢ |={Set.univ}=> iprop(StableHlo.held (c : Thread nD τ) (Pipeline.ucRefs τ sig) (W5 m c) ∗ Ride c)
    rw [← Pipeline.unscopedBufs_held (Ix := Unit) (Name := ℕ) (U := UR sig nD τ) (Lvl := ℕ) c (W5 m c), decoder_split c (Vr5 m c),
      decoder_rest_congr c (Vr4 m c) (Vr5 m c) (fun b hb => W5_of m c b hb), decoder_arrays (Vr4 m) c]
    rw [show (dat2 (Vr4 m) c).arrAt 0 cfg2.N = Vr5 m c main_v5 from
        ((dat2 (Vr4 m) c).arrAt_in 0 rfl _).trans ((A_eq2 (Vr4 m) c 0).trans (W5_of m c main_v5 (by decide)).symm),
      show (dat2 (Vr4 m) c).arrAt 1 cfg2.N = Vr5 m c main_v5 from
        ((dat2 (Vr4 m) c).arrAt_in 1 rfl _).trans ((A_eq2 (Vr4 m) c 1).trans (W5_of m c main_v5 (by decide)).symm),
      show (dat2 (Vr4 m) c).arrAt 2 cfg2.N = Vr5 m c main_v6 from (W5_at m c).symm]
    iintro ⟨⟨H5l, H5r, H6⟩, Howes, Hreg, Hrest⟩
    imodintro
    isplitl [H5l H5r H6 Hrest]
    · isplitl [H5l H5r H6]
      · isplitl [H5l H5r]
        · iapply (pointsTo_share (PosShare.mem_left_op_right fullShare)).2
          isplitl [H5l] <;> iassumption
        iexact H6
      iexact Hrest
    isplitl [Hreg]; · iexact Hreg
    unfold Pipeline.Dat.owesAt Pipeline.owesWithin
    icases Howes with ⟨%W, -, Howes⟩; iexists W; iexact Howes

/-! ## @main as its segments, and the run -/

/-- @main's six segments in order. -/
abbrev allSegs : List (Pipeline.Seg (pcfgs (F := F)) adm (pdatsAll m) () defs₀ Variants.none LL lvl) :=
  [ .host (hostSeg hostOps0 hostOps0_sub hostOps0_fresh (W0 m)),
    .region (regA0 m),
    .host (hostSeg hostOps1 hostOps1_sub hostOps1_fresh (W2 m)),
    .region (regA1 m),
    .region (regD m),
    .host (hostSeg hostOps3 hostOps3_sub hostOps3_fresh (W5 m)) ]

theorem main_is_segs (c : Dev nD) : main (F := F) c = Pipeline.Seg.run (allSegs m) :=
  main_segs adm (pdatsAll m) () Variants.none LL lvl _ _ _ (regA0 m) (regA1 m) (regD m) rfl rfl rfl c

/-- An unscoped TensorCore reference is among those the thread states hold. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates without a fault, and
    every final state holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdatsAll m) () cellOf_inj emb₁ defs₀ Variants.none LL lvl m ρ main (allSegs m)
    (fun c Q => by rw [main_is_segs m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ Ride c)
          ⊢ iprop((StableHlo.held (c : Thread nD τ) (Pipeline.ucRefs τ sig) (W6 m c) ∗ ∃ r, prngReg c r)
              ∗ ∃ W, owes (c : Thread nD τ) (0 : CellTallies nD τ sig Unit) W) from by
        iintro ⟨Hh, Hp, Ho⟩
        isplitl [Hh Hp]
        · isplitl [Hh] <;> iassumption
        iexact Ho)⟩)
    (hinit := by
      refine Pipeline.initEach LL lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Gen

end
-- ==== Proof.BitsFrame.lean ====
/-
  The frame of the whole program, read off its run: the six argument arrays are written by no host operation and are
  no region's result, so the last boundary's contents at each of them are the launch memory's.
-/
import proofs.«158142_j13039520711025_2_alg».proof.Proof.BitsRun

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W6_of (c : Dev nD) (r : Ref sig .tc) (h : r ∉ hostOps3_W) : W6 m c r = W5 m c r :=
  StableHlo.after_of_writes_sub hostOps3 _ hostOps3_writes h

/-- A buffer no host stretch writes and no region rewrites holds at the end what it held at launch. -/
theorem W6_kept (c : Dev nD) (r : Ref sig .tc) (h0 : r ∉ hostOps0_W) (h2 : r ≠ main_v2) (h1 : r ∉ hostOps1_W) (h5 : r ≠ main_v5)
    (h6 : r ≠ main_v6) (h3 : r ∉ hostOps3_W) : W6 m c r = m ((c : Thread nD τ).loc r) :=
  (W6_of m c r h3).trans <| (W5_of m c r h6).trans <| (W4_of m c r h5).trans <| (W3_of m c r h1).trans <| (W2_of m c r h2).trans <|
    (W1_of m c r h0).trans rfl

/-- THE FRAME, at any instance of the floats: every weakly fair execution of @main terminates without a fault and every
    final state holds the six argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_unscoped main_arg0 (by decide))).trans (W6_kept m c main_arg0 (by decide) (by decide) (by decide) (by decide) (by decide) (by decide)),
     (h c _ (mem_unscoped main_arg1 (by decide))).trans (W6_kept m c main_arg1 (by decide) (by decide) (by decide) (by decide) (by decide) (by decide)),
     (h c _ (mem_unscoped main_arg2 (by decide))).trans (W6_kept m c main_arg2 (by decide) (by decide) (by decide) (by decide) (by decide) (by decide)),
     (h c _ (mem_unscoped main_arg3 (by decide))).trans (W6_kept m c main_arg3 (by decide) (by decide) (by decide) (by decide) (by decide) (by decide)),
     (h c _ (mem_unscoped main_arg4 (by decide))).trans (W6_kept m c main_arg4 (by decide) (by decide) (by decide) (by decide) (by decide) (by decide)),
     (h c _ (mem_unscoped main_arg5 (by decide))).trans (W6_kept m c main_arg5 (by decide) (by decide) (by decide) (by decide) (by decide) (by decide))⟩)
    (run_all m ρ)

end Cert.Kernel.Gen

end
-- ==== Proof.IdealAdjBody0.lean ====
/-
  The body of the adjacency layer at one grid point (i, k): the 1024 × 2048 block (i, k) of the adjacency matrix times
  rows 2048·k … 2048·k+2047 of the dense operand (staged whole), added into the 1024-row output block, which stays in
  its buffer while k runs over the four column blocks: reset to zero at k = 0 before the product is added, and at
  k = 3 finished by adding the bias row and clamping below at zero.
  Three control cases, by the column block: first (k = 0), middle (k = 1, 2), last (k = 3).
-/
import proofs.«158142_j13039520711025_2_alg».proof.Proof.Gen.KernelIdeal.Launch
import proofs.«158142_j13039520711025_2_alg».proof.Proof.Gen.KernelIdeal.Skeleton
import proofs.«158142_j13039520711025_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of the adjacency operand, -/
abbrev whA0 : Rect S1024x2048 := Rect.unit (s := S1024x2048) ![0, 0] S1024x2048.size inb_S1024x2048_S1024x2048_0_0
/-- the 2048 rows of the dense operand that the point's column block of the adjacency meets, -/
abbrev rdX0 (i : grid0.Coords) : Rect S8192x256 := Rect.unit (s := S8192x256) (k0_off1 i) S2048x256.size (k0_off1_inb i)
/-- the bias row, -/
abbrev whB0 : Rect S1x256 := Rect.unit (s := S1x256) ![0, 0] S1x256.size inb_S1x256_S1x256_0_0
/-- and the whole output block. -/
abbrev whO0 : Rect S1024x256 := Rect.unit (s := S1024x256) ![0, 0] S1024x256.size inb_S1024x256_S1024x256_0_0

/-- The point is the first of its row of the grid (column block 0): the accumulator is reset. -/
abbrev isFirst0 (i : grid0.Coords) : Prop := (Scalar.cmpi .ne (Scalar.extui (Scalar.cmpi .eq (BitVec.ofNat 32 (i 1).val) 0#32)) 0#32) = 1#1
/-- The point is the last of its row of the grid (column block 3): the bias is added and the block finished. -/
abbrev isLast0 (i : grid0.Coords) : Prop := (Scalar.cmpi .ne (Scalar.extui (Scalar.cmpi .eq (BitVec.ofNat 32 (i 1).val) 3#32)) 0#32) = 1#1

theorem zeroOff0 : (![0, 0] : Fin 2 → Nat) = fun _ => 0 := by funext a; fin_cases a <;> rfl

set_option maxHeartbeats 1000000 in
/-- At a first point the block is reset to zero and the point's product added: whatever the buffer held before. -/
theorem adjFirst0 (c : Dev nD) (E : Set ℕ) (i : grid0.Coords)
    (arg2 : Memref sig .tc .vmem S1024x2048 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S1024x256 .f32) (harg5 : arg5.IsWhole)
    (hf : isFirst0 i) (hl : ¬isLast0 i)
    (x0 : Vec F S1024x2048 .f32) (x1 : Vec F S8192x256 .f32) (x2 : Vec F S1x256 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 (View.ld x1 (rdX0 i)) (k0_pay1 (F := F)))) -∗ K ⟨⟩))
      ⊢ wp frame (wpE (defs₀ (F := F)) Variants.none c none) E (cc0__adj_linear_kernel i arg2 harg2 arg3 harg3 arg4 harg4 arg5 harg5) K := by
  simp only [cc0__adj_linear_kernel_eq_skeleton]; unfold cc0__adj_linear_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0
  obtain rfl := harg3.eq_unread hf1
  obtain rfl := harg4.eq_unread hf2

  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff0 inb_S1024x256_S1024x256_0_0 y⟩),
    View.canon_cons_unit_zero zeroOff0]
  sl_unfold_run_names
  simp only [View.readAt_eq_ld, harg2.read_unread, harg3.read_unread, View.ld_unit_zero (S := S1024x2048) zeroOff0, View.ld_unit_zero (S := S1024x256) zeroOff0, View.ld_unit_zero (S := S1x256) zeroOff0, View.readCov_unit_zero (S := S1024x256) _ zeroOff0]

set_option maxHeartbeats 1000000 in
/-- At a middle point the product is added to what the point before left. -/
theorem adjMid0 (c : Dev nD) (E : Set ℕ) (i : grid0.Coords)
    (arg2 : Memref sig .tc .vmem S1024x2048 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S1024x256 .f32) (harg5 : arg5.IsWhole)
    (hf : ¬isFirst0 i) (hl : ¬isLast0 i)
    (x0 : Vec F S1024x2048 .f32) (x1 : Vec F S8192x256 .f32) (x2 : Vec F S1x256 .f32) (xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 x0 (View.ld x1 (rdX0 i)) xo)) -∗ K ⟨⟩))
      ⊢ wp frame (wpE (defs₀ (F := F)) Variants.none c none) E (cc0__adj_linear_kernel i arg2 harg2 arg3 harg3 arg4 harg4 arg5 harg5) K := by
  simp only [cc0__adj_linear_kernel_eq_skeleton]; unfold cc0__adj_linear_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff0 inb_S1024x256_S1024x256_0_0 y⟩),
    View.canon_cons_unit_zero zeroOff0]
  sl_unfold_run_names
  simp only [View.readAt_eq_ld, harg2.read_unread, harg3.read_unread, harg5.read_unread, View.ld_unit_zero (S := S1024x2048) zeroOff0, View.ld_unit_zero (S := S1024x256) zeroOff0]

set_option maxHeartbeats 1000000 in
/-- At a last point the product is added to what the point before left and the block finished with the bias. -/
theorem adjLast0 (c : Dev nD) (E : Set ℕ) (i : grid0.Coords)
    (arg2 : Memref sig .tc .vmem S1024x2048 .f32) (harg2 : arg2.IsWhole) (arg3 : Memref sig .tc .vmem S8192x256 .f32) (harg3 : arg3.IsWhole)
    (arg4 : Memref sig .tc .vmem S1x256 .f32) (harg4 : arg4.IsWhole) (arg5 : Memref sig .tc .vmem S1024x256 .f32) (harg5 : arg5.IsWhole)
    (hf : ¬isFirst0 i) (hl : isLast0 i)
    (x0 : Vec F S1024x2048 .f32) (x1 : Vec F S8192x256 .f32) (x2 : Vec F S1x256 .f32) (xo : Vec F S1024x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 (View.ld x1 (rdX0 i)) xo) x2)) -∗ K ⟨⟩))
      ⊢ wp frame (wpE (defs₀ (F := F)) Variants.none c none) E (cc0__adj_linear_kernel i arg2 harg2 arg3 harg3 arg4 harg4 arg5 harg5) K := by
  simp only [cc0__adj_linear_kernel_eq_skeleton]; unfold cc0__adj_linear_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff0 inb_S1024x256_S1024x256_0_0 y⟩),
    View.canon_cons_unit_zero zeroOff0]
  sl_unfold_run_names
  simp only [View.readAt_eq_ld, harg2.read_unread, harg3.read_unread, harg4.read_unread, harg5.read_unread, View.ld_unit_zero (S := S1024x2048) zeroOff0, View.ld_unit_zero (S := S1024x256) zeroOff0, View.ld_unit_zero (S := S1x256) zeroOff0, View.readCov_unit_zero (S := S1024x256) _ zeroOff0]

end Cert.KernelIdeal.Gen

end
-- ==== Proof.IdealAdjBody1.lean ====
/-
  The body of the adjacency layer at one grid point (i, k): the 1024 × 2048 block (i, k) of the adjacency matrix times
  rows 2048·k … 2048·k+2047 of the dense operand (staged whole), added into the 1024-row output block, which stays in
  its buffer while k runs over the four column blocks: reset to zero at k = 0 before the product is added, and at
  k = 3 finished by adding the bias row.
  Three control cases, by the column block: first (k = 0), middle (k = 1, 2), last (k = 3).
-/
import proofs.«158142_j13039520711025_2_alg».proof.Proof.Gen.KernelIdeal.Launch
import proofs.«158142_j13039520711025_2_alg».proof.Proof.Gen.KernelIdeal.Skeleton
import proofs.«158142_j13039520711025_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole block of the adjacency operand, -/
abbrev whA1 : Rect S1024x2048 := Rect.unit (s := S1024x2048) ![0, 0] S1024x2048.size inb_S1024x2048_S1024x2048_0_0
/-- the 2048 rows of the dense operand that the point's column block of the adjacency meets, -/
abbrev rdX1 (i : grid1.Coords) : Rect S8192x128 := Rect.unit (s := S8192x128) (k1_off1 i) S2048x128.size (k1_off1_inb i)
/-- the bias row, -/
abbrev whB1 : Rect S1x128 := Rect.unit (s := S1x128) ![0, 0] S1x128.size inb_S1x128_S1x128_0_0
/-- and the whole output block. -/
abbrev whO1 : Rect S1024x128 := Rect.unit (s := S1024x128) ![0, 0] S1024x128.size inb_S1024x128_S1024x128_0_0

/-- The point is the first of its row of the grid (column block 0): the accumulator is reset. -/
abbrev isFirst1 (i : grid1.Coords) : Prop := (Scalar.cmpi .ne (Scalar.extui (Scalar.cmpi .eq (BitVec.ofNat 32 (i 1).val) 0#32)) 0#32) = 1#1
/-- The point is the last of its row of the grid (column block 3): the bias is added and the block finished. -/
abbrev isLast1 (i : grid1.Coords) : Prop := (Scalar.cmpi .ne (Scalar.extui (Scalar.cmpi .eq (BitVec.ofNat 32 (i 1).val) 3#32)) 0#32) = 1#1

theorem zeroOff1 : (![0, 0] : Fin 2 → Nat) = fun _ => 0 := by funext a; fin_cases a <;> rfl

set_option maxHeartbeats 1000000 in
/-- At a first point the block is reset to zero and the point's product added: whatever the buffer held before. -/
theorem adjFirst1 (c : Dev nD) (E : Set ℕ) (i : grid1.Coords)
    (arg2 : Memref sig .tc .vmem S1024x2048 .f32) (harg2 : arg2.IsWhole) (arg3 : Memref sig .tc .vmem S8192x128 .f32) (harg3 : arg3.IsWhole)
    (arg4 : Memref sig .tc .vmem S1x128 .f32) (harg4 : arg4.IsWhole) (arg5 : Memref sig .tc .vmem S1024x128 .f32) (harg5 : arg5.IsWhole)
    (hf : isFirst1 i) (hl : ¬isLast1 i)
    (x0 : Vec F S1024x2048 .f32) (x1 : Vec F S8192x128 .f32) (x2 : Vec F S1x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 (View.ld x1 (rdX1 i)) (k1_pay1 (F := F)))) -∗ K ⟨⟩))
      ⊢ wp frame (wpE (defs₀ (F := F)) Variants.none c none) E (cc1__adj_linear_kernel i arg2 harg2 arg3 harg3 arg4 harg4 arg5 harg5) K := by
  simp only [cc1__adj_linear_kernel_eq_skeleton]; unfold cc1__adj_linear_kernel_skel
  unfold owns
  iintro ⟨⟨%f0, %hf0, H0⟩, ⟨%f1, %hf1, H1⟩, ⟨%f2, %hf2, H2⟩, ⟨%d3, %f3, -, H3⟩, Hk⟩
  obtain rfl := harg2.eq_unread hf0
  obtain rfl := harg3.eq_unread hf1
  obtain rfl := harg4.eq_unread hf2

  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff1 inb_S1024x128_S1024x128_0_0 y⟩),
    View.canon_cons_unit_zero zeroOff1]
  sl_unfold_run_names
  simp only [View.readAt_eq_ld, harg2.read_unread, harg3.read_unread, View.ld_unit_zero (S := S1024x2048) zeroOff1, View.ld_unit_zero (S := S1024x128) zeroOff1, View.ld_unit_zero (S := S1x128) zeroOff1, View.readCov_unit_zero (S := S1024x128) _ zeroOff1]

set_option maxHeartbeats 1000000 in
/-- At a middle point the product is added to what the point before left. -/
theorem adjMid1 (c : Dev nD) (E : Set ℕ) (i : grid1.Coords)
    (arg2 : Memref sig .tc .vmem S1024x2048 .f32) (harg2 : arg2.IsWhole) (arg3 : Memref sig .tc .vmem S8192x128 .f32) (harg3 : arg3.IsWhole)
    (arg4 : Memref sig .tc .vmem S1x128 .f32) (harg4 : arg4.IsWhole) (arg5 : Memref sig .tc .vmem S1024x128 .f32) (harg5 : arg5.IsWhole)
    (hf : ¬isFirst1 i) (hl : ¬isLast1 i)
    (x0 : Vec F S1024x2048 .f32) (x1 : Vec F S8192x128 .f32) (x2 : Vec F S1x128 .f32) (xo : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k1_pay2 x0 (View.ld x1 (rdX1 i)) xo)) -∗ K ⟨⟩))
      ⊢ wp frame (wpE (defs₀ (F := F)) Variants.none c none) E (cc1__adj_linear_kernel i arg2 harg2 arg3 harg3 arg4 harg4 arg5 harg5) K := by
  simp only [cc1__adj_linear_kernel_eq_skeleton]; unfold cc1__adj_linear_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff1 inb_S1024x128_S1024x128_0_0 y⟩),
    View.canon_cons_unit_zero zeroOff1]
  sl_unfold_run_names
  simp only [View.readAt_eq_ld, harg2.read_unread, harg3.read_unread, harg5.read_unread, View.ld_unit_zero (S := S1024x2048) zeroOff1, View.ld_unit_zero (S := S1024x128) zeroOff1]

set_option maxHeartbeats 1000000 in
/-- At a last point the product is added to what the point before left and the block finished with the bias. -/
theorem adjLast1 (c : Dev nD) (E : Set ℕ) (i : grid1.Coords)
    (arg2 : Memref sig .tc .vmem S1024x2048 .f32) (harg2 : arg2.IsWhole) (arg3 : Memref sig .tc .vmem S8192x128 .f32) (harg3 : arg3.IsWhole)
    (arg4 : Memref sig .tc .vmem S1x128 .f32) (harg4 : arg4.IsWhole) (arg5 : Memref sig .tc .vmem S1024x128 .f32) (harg5 : arg5.IsWhole)
    (hf : ¬isFirst1 i) (hl : isLast1 i)
    (x0 : Vec F S1024x2048 .f32) (x1 : Vec F S8192x128 .f32) (x2 : Vec F S1x128 .f32) (xo : Vec F S1024x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 (View.ld x1 (rdX1 i)) xo) x2)) -∗ K ⟨⟩))
      ⊢ wp frame (wpE (defs₀ (F := F)) Variants.none c none) E (cc1__adj_linear_kernel i arg2 harg2 arg3 harg3 arg4 harg4 arg5 harg5) K := by
  simp only [cc1__adj_linear_kernel_eq_skeleton]; unfold cc1__adj_linear_kernel_skel
  unfold owns
  iintro ⟨⟨%f0, %hf0, H0⟩, ⟨%f1, %hf1, H1⟩, ⟨%f2, %hf2, H2⟩, ⟨%f3, %hf3, H3⟩, Hk⟩
  obtain rfl := harg2.eq_unread hf0
  obtain rfl := harg3.eq_unread hf1
  obtain rfl := harg4.eq_unread hf2
  obtain rfl := harg5.eq_unread hf3
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  rw [View.read_writes_eq_canon _ _ _ (fun y => ⟨_, List.mem_cons_self, View.mem_set_unit_zero zeroOff1 inb_S1024x128_S1024x128_0_0 y⟩),
    View.canon_cons_unit_zero zeroOff1]
  sl_unfold_run_names
  simp only [View.readAt_eq_ld, harg2.read_unread, harg3.read_unread, harg4.read_unread, harg5.read_unread, View.ld_unit_zero (S := S1024x2048) zeroOff1, View.ld_unit_zero (S := S1024x128) zeroOff1, View.ld_unit_zero (S := S1x128) zeroOff1, View.readCov_unit_zero (S := S1024x128) _ zeroOff1]

end Cert.KernelIdeal.Gen

end
-- ==== Proof.IdealDecodeBody.lean ====
/-
  The decoder's body at one grid point (i, j): it reads rows 1024·i … 1024·i+1023 of its first operand and rows
  1024·j … 1024·j+1023 of its second (both staged whole), multiplies the first block by the transpose of the second,
  applies the logistic function and stores the 1024 × 1024 result over the whole output block.
-/
import proofs.«158142_j13039520711025_2_alg».proof.Proof.Gen.KernelIdeal.Launch
import proofs.«158142_j13039520711025_2_alg».proof.Proof.Gen.KernelIdeal.Skeleton
import proofs.«158142_j13039520711025_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of the first operand the point reads, -/
abbrev rdA (i : grid2.Coords) : Rect S8192x128 := Rect.unit (s := S8192x128) (k2_off1 i) S1024x128.size (k2_off1_inb i)
/-- the rows of the second, -/
abbrev rdB (i : grid2.Coords) : Rect S8192x128 := Rect.unit (s := S8192x128) (k2_off2 i) S1024x128.size (k2_off2_inb i)
/-- and the whole output block. -/
abbrev wrO : Rect S1024x1024 := Rect.unit (s := S1024x1024) ![0, 0] S1024x1024.size inb_S1024x1024_S1024x1024_0_0

/-- What the point leaves in the output block, from the two staged operands. -/
def decodeOut (i : grid2.Coords) (x0 x1 : Vec F S8192x128 .f32) : Vec F S1024x1024 .f32 :=
  View.canon [⟨wrO, k2_pay1 (View.ld x0 (rdA i)) (View.ld x1 (rdB i))⟩]

theorem decode_cover (p0 : Vec F S1024x1024 .f32) (y : S1024x1024.Idx) :
    ∃ pc ∈ ([⟨wrO, p0⟩] : List (View.Piece (Elt F) S1024x1024 .f32)), y ∈ pc.1.set :=
  View.cover_of_tiled [⟨wrO, p0⟩] S1024x1024.size (by rfl) y

set_option maxHeartbeats 1000000 in
/-- The body's triple: the two operands' staging buffers are read and kept, the output's ends at `decodeOut`. -/
theorem decode_triple (c : Dev nD) (E : Set ℕ) (i : grid2.Coords)
    (arg2 : Memref sig .tc .vmem S8192x128 .f32) (harg2 : arg2.IsWhole) (arg3 : Memref sig .tc .vmem S8192x128 .f32) (harg3 : arg3.IsWhole)
    (arg4 : Memref sig .tc .vmem S1024x1024 .f32) (harg4 : arg4.IsWhole)
    (x0 x1 : Vec F S8192x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (decodeOut i x0 x1)) -∗ K ⟨⟩))
      ⊢ wp frame (wpE (defs₀ (F := F)) Variants.none c none) E (cc2__decode_kernel i arg2 harg2 arg3 harg3 arg4 harg4) K := by
  simp only [cc2__decode_kernel_eq_skeleton]; unfold cc2__decode_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (decode_cover _)

end Cert.KernelIdeal.Gen

end
-- ==== Proof.IdealRegions.lean ====
/-
  The three kernel regions' proof data, each at the buffer contents the region is entered with: what every window's
  staging buffer holds after the body at every grid point, that the buffers hold what each body's triple asks when
  it is called, and the pipeline rule's body obligation at every point.
-/
import proofs.«158142_j13039520711025_2_alg».proof.Proof.Gen.KernelIdeal.Regions
import proofs.«158142_j13039520711025_2_alg».proof.Proof.IdealAdjBody0
import proofs.«158142_j13039520711025_2_alg».proof.Proof.IdealAdjBody1
import proofs.«158142_j13039520711025_2_alg».proof.Proof.IdealDecodeBody

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # The first adjacency layer (pipeline 0), at the buffer contents `V` the region is entered with -/

/-- Window `w`'s block at grid point `t`, read off the array the window is cut from. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid is walked row block by row block, four column blocks each: point `t` is a first point when `t ≡ 0 (mod 4)`, -/
theorem first_iff0 : ∀ t : Fin cfg0.N, isFirst0 (grid0.coords t) ↔ t.val % 4 = 0 :=
  (by decide +kernel : ∀ t : Fin grid0.N, isFirst0 (grid0.coords t) ↔ t.val % 4 = 0)
/-- and a last point when `t ≡ 3 (mod 4)`. -/
theorem last_iff0 : ∀ t : Fin cfg0.N, isLast0 (grid0.coords t) ↔ t.val % 4 = 3 :=
  (by decide +kernel : ∀ t : Fin grid0.N, isLast0 (grid0.coords t) ↔ t.val % 4 = 3)

/-- What the output block's buffer holds after point `n`: the running sum of the row block's products over the column
    blocks met so far, started from zero at a first point, and at a last point finished with the bias. -/
def acc0 (c : Dev nD) : (n : ℕ) → n < cfg0.N → Vec F S1024x256 .f32
  | 0, hn => k0_pay2 (blk0 V c 0 ⟨0, hn⟩) (View.ld (blk0 V c 1 ⟨0, hn⟩) (rdX0 (grid0.coords ⟨0, hn⟩))) (k0_pay1 (F := F))
  | n + 1, hn =>
    if (n + 1) % 4 = 0 then k0_pay2 (blk0 V c 0 ⟨n + 1, hn⟩) (View.ld (blk0 V c 1 ⟨n + 1, hn⟩) (rdX0 (grid0.coords ⟨n + 1, hn⟩))) (k0_pay1 (F := F))
    else if (n + 1) % 4 = 3 then k0_pay3 (k0_pay2 (blk0 V c 0 ⟨n + 1, hn⟩) (View.ld (blk0 V c 1 ⟨n + 1, hn⟩) (rdX0 (grid0.coords ⟨n + 1, hn⟩))) (acc0 c n (Nat.lt_of_succ_lt hn))) (blk0 V c 2 ⟨n + 1, hn⟩)
    else k0_pay2 (blk0 V c 0 ⟨n + 1, hn⟩) (View.ld (blk0 V c 1 ⟨n + 1, hn⟩) (rdX0 (grid0.coords ⟨n + 1, hn⟩))) (acc0 c n (Nat.lt_of_succ_lt hn))

theorem acc0_first (c : Dev nD) (t : Fin cfg0.N) (h0 : t.val % 4 = 0) :
    acc0 V c t.val t.isLt = k0_pay2 (blk0 V c 0 t) (View.ld (blk0 V c 1 t) (rdX0 (grid0.coords t))) (k0_pay1 (F := F)) := by
  obtain ⟨n, hn⟩ := t
  cases n with
  | zero => rfl
  | succ n => exact (if_pos h0)

theorem acc0_mid (c : Dev nD) (t : Fin cfg0.N) (h0 : ¬t.val % 4 = 0) (h3 : ¬t.val % 4 = 3) :
    acc0 V c t.val t.isLt = k0_pay2 (blk0 V c 0 t) (View.ld (blk0 V c 1 t) (rdX0 (grid0.coords t))) (acc0 V c (t.val - 1) (Nat.lt_of_le_of_lt (Nat.sub_le _ _) t.isLt)) := by
  obtain ⟨n, hn⟩ := t
  cases n with
  | zero => exact absurd (Nat.zero_mod _) h0
  | succ n => exact (if_neg h0).trans (if_neg h3)

theorem acc0_last (c : Dev nD) (t : Fin cfg0.N) (h0 : ¬t.val % 4 = 0) (h3 : t.val % 4 = 3) :
    acc0 V c t.val t.isLt = k0_pay3 (k0_pay2 (blk0 V c 0 t) (View.ld (blk0 V c 1 t) (rdX0 (grid0.coords t))) (acc0 V c (t.val - 1) (Nat.lt_of_le_of_lt (Nat.sub_le _ _) t.isLt))) (blk0 V c 2 t) := by
  obtain ⟨n, hn⟩ := t
  cases n with
  | zero => exact absurd (Nat.zero_mod _) h0
  | succ n => exact (if_neg h0).trans (if_pos h3)

/-- The pipeline's proof data: the arrays as the region finds them; each input's buffer keeps its block, the output's
    holds `acc0`; the scoped rest and the generator register ride along; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => acc0 V c t.val t.isLt
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = acc0 V c t.val t.isLt := by dsimp only [dat0]

/-- An input's buffer holds its block at every point, fetched there or not (its block index does not move between fetches). -/
theorem before0_0 (c : Dev nD) (t : Fin cfg0.N) (d) : (dat0 V c).before 0 t d = blk0 V c 0 t :=
  ((dat0 V c).before_in_eq_fetched 0 rfl (fun _ => rfl) (fun _ _ _ => rfl)
    (fun t => by rw [after0_0]; unfold Dat.blockOf blk0; rw [A_eq0]; try rfl) t d).trans
    (by unfold Dat.fetched Dat.blockOf blk0; rw [A_eq0]; try rfl)
theorem before0_1 (c : Dev nD) (t : Fin cfg0.N) (d) : (dat0 V c).before 1 t d = blk0 V c 1 t :=
  ((dat0 V c).before_in_eq_fetched 1 rfl (fun _ => rfl) (fun _ _ _ => rfl)
    (fun t => by rw [after0_1]; unfold Dat.blockOf blk0; rw [A_eq0]; try rfl) t d).trans
    (by unfold Dat.fetched Dat.blockOf blk0; rw [A_eq0]; try rfl)
theorem before0_2 (c : Dev nD) (t : Fin cfg0.N) (d) : (dat0 V c).before 2 t d = blk0 V c 2 t :=
  ((dat0 V c).before_in_eq_fetched 2 rfl (fun _ => rfl) (fun _ _ _ => rfl)
    (fun t => by rw [after0_2]; unfold Dat.blockOf blk0; rw [A_eq0]; try rfl) t d).trans
    (by unfold Dat.fetched Dat.blockOf blk0; rw [A_eq0]; try rfl)
/-- Away from a first point the output's buffer holds what the point before left: it is written back at last points only. -/
theorem before0_3 (c : Dev nD) (t : Fin cfg0.N) (h0 : ¬t.val % 4 = 0) (d) :
    (dat0 V c).before 3 t d = acc0 V c (t.val - 1) (Nat.lt_of_le_of_lt (Nat.sub_le _ _) t.isLt) := by
  rw [Dat.before_out_kept _ 3 rfl t (by omega) (Bool.eq_false_iff.mpr fun h => by have := (flush0_3 _).mp h; dsimp only at this; omega)
    (fun _ => rfl) (fun _ _ => rfl)]
  dsimp only [dat0]

set_option maxHeartbeats 800000 in
/-- The body at any point: the case is decided by the point's residue mod 4; the buffers hold what the case's triple asks. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ owns (c : Thread nD τ) (st0_0 t) fullShare ((dat0 V c).after 0 t)
        ∗ owns (c : Thread nD τ) (st0_1 t) fullShare ((dat0 V c).after 1 t)
        ∗ owns (c : Thread nD τ) (st0_2 t) fullShare ((dat0 V c).after 2 t)
        ∗ owns (c : Thread nD τ) (st0_3 t) fullShare ((dat0 V c).after 3 t))) := by
  unfold bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val % 4 = 0
  · have h3 : ¬t.val % 4 = 3 := by omega
    rw [acc0_first V c t h0]
    iintro ⟨HΦ, Ho, ⟨%d0, H0⟩, ⟨%d1, H1⟩, ⟨%d2, H2⟩, ⟨%d3, H3⟩⟩
    iapply (adjFirst0 c Set.univ (grid0.coords t) _ _ _ _ _ _ _ _ ((first_iff0 t).mpr h0) (fun h => h3 ((last_iff0 t).mp h))
      (blk0 V c 0 t) (blk0 V c 1 t) (blk0 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before0_3 V c t h0]
    by_cases h3 : t.val % 4 = 3
    · rw [acc0_last V c t h0 h3]
      iintro ⟨HΦ, Ho, ⟨%d0, H0⟩, ⟨%d1, H1⟩, ⟨%d2, H2⟩, ⟨%d3, H3⟩⟩
      iapply (adjLast0 c Set.univ (grid0.coords t) _ _ _ _ _ _ _ _ (fun h => h0 ((first_iff0 t).mp h)) ((last_iff0 t).mpr h3)
        (blk0 V c 0 t) (blk0 V c 1 t) (blk0 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [acc0_mid V c t h0 h3]
      iintro ⟨HΦ, Ho, ⟨%d0, H0⟩, ⟨%d1, H1⟩, ⟨%d2, H2⟩, ⟨%d3, H3⟩⟩
      iapply (adjMid0 c Set.univ (grid0.coords t) _ _ _ _ _ _ _ _ (fun h => h0 ((first_iff0 t).mp h)) (fun h => h3 ((last_iff0 t).mp h))
        (blk0 V c 0 t) (blk0 V c 1 t) (blk0 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-! # The second adjacency layer (pipeline 1), at the buffer contents `V` the region is entered with -/

/-- Window `w`'s block at grid point `t`, read off the array the window is cut from. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid is walked row block by row block, four column blocks each: point `t` is a first point when `t ≡ 0 (mod 4)`, -/
theorem first_iff1 : ∀ t : Fin cfg1.N, isFirst1 (grid1.coords t) ↔ t.val % 4 = 0 :=
  (by decide +kernel : ∀ t : Fin grid1.N, isFirst1 (grid1.coords t) ↔ t.val % 4 = 0)
/-- and a last point when `t ≡ 3 (mod 4)`. -/
theorem last_iff1 : ∀ t : Fin cfg1.N, isLast1 (grid1.coords t) ↔ t.val % 4 = 3 :=
  (by decide +kernel : ∀ t : Fin grid1.N, isLast1 (grid1.coords t) ↔ t.val % 4 = 3)

/-- What the output block's buffer holds after point `n`: the running sum of the row block's products over the column
    blocks met so far, started from zero at a first point, and at a last point finished with the bias. -/
def acc1 (c : Dev nD) : (n : ℕ) → n < cfg1.N → Vec F S1024x128 .f32
  | 0, hn => k1_pay2 (blk1 V c 0 ⟨0, hn⟩) (View.ld (blk1 V c 1 ⟨0, hn⟩) (rdX1 (grid1.coords ⟨0, hn⟩))) (k1_pay1 (F := F))
  | n + 1, hn =>
    if (n + 1) % 4 = 0 then k1_pay2 (blk1 V c 0 ⟨n + 1, hn⟩) (View.ld (blk1 V c 1 ⟨n + 1, hn⟩) (rdX1 (grid1.coords ⟨n + 1, hn⟩))) (k1_pay1 (F := F))
    else if (n + 1) % 4 = 3 then k1_pay3 (k1_pay2 (blk1 V c 0 ⟨n + 1, hn⟩) (View.ld (blk1 V c 1 ⟨n + 1, hn⟩) (rdX1 (grid1.coords ⟨n + 1, hn⟩))) (acc1 c n (Nat.lt_of_succ_lt hn))) (blk1 V c 2 ⟨n + 1, hn⟩)
    else k1_pay2 (blk1 V c 0 ⟨n + 1, hn⟩) (View.ld (blk1 V c 1 ⟨n + 1, hn⟩) (rdX1 (grid1.coords ⟨n + 1, hn⟩))) (acc1 c n (Nat.lt_of_succ_lt hn))

theorem acc1_first (c : Dev nD) (t : Fin cfg1.N) (h0 : t.val % 4 = 0) :
    acc1 V c t.val t.isLt = k1_pay2 (blk1 V c 0 t) (View.ld (blk1 V c 1 t) (rdX1 (grid1.coords t))) (k1_pay1 (F := F)) := by
  obtain ⟨n, hn⟩ := t
  cases n with
  | zero => rfl
  | succ n => exact (if_pos h0)

theorem acc1_mid (c : Dev nD) (t : Fin cfg1.N) (h0 : ¬t.val % 4 = 0) (h3 : ¬t.val % 4 = 3) :
    acc1 V c t.val t.isLt = k1_pay2 (blk1 V c 0 t) (View.ld (blk1 V c 1 t) (rdX1 (grid1.coords t))) (acc1 V c (t.val - 1) (Nat.lt_of_le_of_lt (Nat.sub_le _ _) t.isLt)) := by
  obtain ⟨n, hn⟩ := t
  cases n with
  | zero => exact absurd (Nat.zero_mod _) h0
  | succ n => exact (if_neg h0).trans (if_neg h3)

theorem acc1_last (c : Dev nD) (t : Fin cfg1.N) (h0 : ¬t.val % 4 = 0) (h3 : t.val % 4 = 3) :
    acc1 V c t.val t.isLt = k1_pay3 (k1_pay2 (blk1 V c 0 t) (View.ld (blk1 V c 1 t) (rdX1 (grid1.coords t))) (acc1 V c (t.val - 1) (Nat.lt_of_le_of_lt (Nat.sub_le _ _) t.isLt))) (blk1 V c 2 t) := by
  obtain ⟨n, hn⟩ := t
  cases n with
  | zero => exact absurd (Nat.zero_mod _) h0
  | succ n => exact (if_neg h0).trans (if_pos h3)

/-- The pipeline's proof data: the arrays as the region finds them; each input's buffer keeps its block, the output's
    holds `acc1`; the scoped rest and the generator register ride along; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = acc1 V c t.val t.isLt := by dsimp only [dat1]

/-- An input's buffer holds its block at every point, fetched there or not (its block index does not move between fetches). -/
theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [A_eq1]; try rfl) t d).trans
    (by unfold Dat.fetched Dat.blockOf blk1; rw [A_eq1]; try rfl)
/-- Away from a first point the output's buffer holds what the point before left: it is written back at last points only. -/
theorem before1_3 (c : Dev nD) (t : Fin cfg1.N) (h0 : ¬t.val % 4 = 0) (d) :
    (dat1 V c).before 3 t d = acc1 V c (t.val - 1) (Nat.lt_of_le_of_lt (Nat.sub_le _ _) t.isLt) := by
  rw [Dat.before_out_kept _ 3 rfl t (by omega) (Bool.eq_false_iff.mpr fun h => by have := (flush1_3 _).mp h; dsimp only at this; omega)
    (fun _ => rfl) (fun _ _ => rfl)]
  dsimp only [dat1]

set_option maxHeartbeats 800000 in
/-- The body at any point: the case is decided by the point's residue mod 4; the buffers hold what the case's triple asks. -/
theorem sound_body1 (c : Dev nD) (t : Fin cfg1.N) :
    iprop((dat1 V c).Φ t.castSucc ∗ (dat1 V c).owesAt () t.castSucc
      ∗ (∃ d, owns (c : Thread nD τ) (st1_0 t) fullShare ((dat1 V c).before 0 t d))
      ∗ (∃ d, owns (c : Thread nD τ) (st1_1 t) fullShare ((dat1 V c).before 1 t d))
      ∗ (∃ d, owns (c : Thread nD τ) (st1_2 t) fullShare ((dat1 V c).before 2 t d))
      ∗ (∃ d, owns (c : Thread nD τ) (st1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ owns (c : Thread nD τ) (st1_0 t) fullShare ((dat1 V c).after 0 t)
        ∗ owns (c : Thread nD τ) (st1_1 t) fullShare ((dat1 V c).after 1 t)
        ∗ owns (c : Thread nD τ) (st1_2 t) fullShare ((dat1 V c).after 2 t)
        ∗ owns (c : Thread nD τ) (st1_3 t) fullShare ((dat1 V c).after 3 t))) := by
  unfold bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  by_cases h0 : t.val % 4 = 0
  · have h3 : ¬t.val % 4 = 3 := by omega
    rw [acc1_first V c t h0]
    iintro ⟨HΦ, Ho, ⟨%d0, H0⟩, ⟨%d1, H1⟩, ⟨%d2, H2⟩, ⟨%d3, H3⟩⟩
    iapply (adjFirst1 c Set.univ (grid1.coords t) _ _ _ _ _ _ _ _ ((first_iff1 t).mpr h0) (fun h => h3 ((last_iff1 t).mp h))
      (blk1 V c 0 t) (blk1 V c 1 t) (blk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before1_3 V c t h0]
    by_cases h3 : t.val % 4 = 3
    · rw [acc1_last V c t h0 h3]
      iintro ⟨HΦ, Ho, ⟨%d0, H0⟩, ⟨%d1, H1⟩, ⟨%d2, H2⟩, ⟨%d3, H3⟩⟩
      iapply (adjLast1 c Set.univ (grid1.coords t) _ _ _ _ _ _ _ _ (fun h => h0 ((first_iff1 t).mp h)) ((last_iff1 t).mpr h3)
        (blk1 V c 0 t) (blk1 V c 1 t) (blk1 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [acc1_mid V c t h0 h3]
      iintro ⟨HΦ, Ho, ⟨%d0, H0⟩, ⟨%d1, H1⟩, ⟨%d2, H2⟩, ⟨%d3, H3⟩⟩
      iapply (adjMid1 c Set.univ (grid1.coords t) _ _ _ _ _ _ _ _ (fun h => h0 ((first_iff1 t).mp h)) (fun h => h3 ((last_iff1 t).mp h))
        (blk1 V c 0 t) (blk1 V c 1 t) (blk1 V c 2 t) _ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

/-! # The decoder (pipeline 2), at the buffer contents `V` the region is entered with.
    Its two input windows are cut from ONE array (the embedding), each staged whole; the array is dealt between them
    at the two halves of the full share. -/

/-- Window `w`'s block at grid point `t`, read off the array the window is cut from. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The pipeline's proof data: both inputs keep the whole embedding, the output block holds the logistic of the
    products of the point's two row blocks; the embedding's array is held at half the full share by each input. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => decodeOut (grid2.coords t) (blk2 V c 0 t) (blk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) :
    (dat2 V c).after 2 t = decodeOut (grid2.coords t) (blk2 V c 0 t) (blk2 V c 1 t) := by dsimp only [dat2]

theorem before2_0 (c : Dev nD) (t : Fin cfg2.N) (d) : (dat2 V c).before 0 t d = blk2 V c 0 t :=
  ((dat2 V c).before_in_eq_fetched 0 rfl (fun _ => rfl) (fun _ _ _ => rfl)
    (fun t => by rw [after2_0]; unfold Dat.blockOf blk2; rw [A_eq2]; try rfl) t d).trans
    (by unfold Dat.fetched Dat.blockOf blk2; rw [A_eq2]; try rfl)
theorem before2_1 (c : Dev nD) (t : Fin cfg2.N) (d) : (dat2 V c).before 1 t d = blk2 V c 1 t :=
  ((dat2 V c).before_in_eq_fetched 1 rfl (fun _ => rfl) (fun _ _ _ => rfl)
    (fun t => by rw [after2_1]; unfold Dat.blockOf blk2; rw [A_eq2]; try rfl) t d).trans
    (by unfold Dat.fetched Dat.blockOf blk2; rw [A_eq2]; try rfl)

/-- The body at any point: the two operands' buffers hold the embedding, the triple applies. -/
theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ owns (c : Thread nD τ) (st2_0 t) fullShare ((dat2 V c).after 0 t)
        ∗ owns (c : Thread nD τ) (st2_1 t) fullShare ((dat2 V c).after 1 t)
        ∗ owns (c : Thread nD τ) (st2_2 t) fullShare ((dat2 V c).after 2 t))) := by
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (decode_triple c Set.univ (grid2.coords t) _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation2 (c : Dev nD) : BodyObligation (dat2 (F := F) V c) (defs₀ (F := F)) Variants.none () Set.univ := fun t => by
  rw [bigSep_W2, bigSep_W2]
  exact sound_body2 V c t

end Regions

end Cert.KernelIdeal.Gen

end
-- ==== Proof.IdealRun.lean ====
/-
  @main as six segments — three stretches of host operations and the three kernel regions — with the contents of
  every unscoped buffer named at each boundary: the launch memory, then each host stretch's results, then after each
  region its result array rewritten by the blocks written back over the grid. The run of the whole program ends with
  every unscoped buffer at the last boundary's contents.
-/
import proofs.«158142_j13039520711025_2_alg».proof.Proof.IdealRegions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between @main's items -/

/-- At launch. -/
abbrev W0 (c : Dev nD) : Valuation τ sig (Elt F) := fun b => m (c, b)
/-- After the first host stretch (`feature · W1` and the first bias as a row). -/
abbrev W1 (c : Dev nD) : Valuation τ sig (Elt F) := StableHlo.after hostOps0 (W0 m c)
abbrev Vr1 : (c : Dev nD) → (b : Ref sig .tc) → Buf (Elt F) ((c : Thread nD τ).loc b) := fun c b => W1 m c b

/-- What the region leaves in its result array `main_v2`: its blocks' write-backs folded over the grid. -/
def fin0 (c : Dev nD) : Buf (Elt F) ((c : Thread nD τ).loc main_v2) := (dat0 (Vr1 m) c).arrAt 3 cfg0.N
/-- The unscoped buffers after the region: `main_v2` rewritten, every other buffer as the region found it. -/
abbrev W2 (c : Dev nD) : Valuation τ sig (Elt F) := Function.update (W1 m c) main_v2 (fin0 m c)
abbrev Vr2 : (c : Dev nD) → (b : Ref sig .tc) → Buf (Elt F) ((c : Thread nD τ).loc b) := fun c b => W2 m c b
theorem W2_at (c : Dev nD) : W2 m c main_v2 = fin0 m c := Function.update_self ..
theorem W2_of (c : Dev nD) (r : Ref sig .tc) (h : r ≠ main_v2) : W2 m c r = W1 m c r :=
  Function.update_of_ne (StableHlo.devRef_ne_of_ne h : (Proc.devRef .tc r : DevRef τ sig) ≠ Proc.devRef .tc main_v2) _ _

/-- After the second host stretch (`hidden · W2` and the second bias as a row). -/
abbrev W3 (c : Dev nD) : Valuation τ sig (Elt F) := StableHlo.after hostOps1 (W2 m c)
abbrev Vr3 : (c : Dev nD) → (b : Ref sig .tc) → Buf (Elt F) ((c : Thread nD τ).loc b) := fun c b => W3 m c b

/-- What the region leaves in its result array `main_v5`: its blocks' write-backs folded over the grid. -/
def fin1 (c : Dev nD) : Buf (Elt F) ((c : Thread nD τ).loc main_v5) := (dat1 (Vr3 m) c).arrAt 3 cfg1.N
/-- The unscoped buffers after the region: `main_v5` rewritten, every other buffer as the region found it. -/
abbrev W4 (c : Dev nD) : Valuation τ sig (Elt F) := Function.update (W3 m c) main_v5 (fin1 m c)
abbrev Vr4 : (c : Dev nD) → (b : Ref sig .tc) → Buf (Elt F) ((c : Thread nD τ).loc b) := fun c b => W4 m c b
theorem W4_at (c : Dev nD) : W4 m c main_v5 = fin1 m c := Function.update_self ..
theorem W4_of (c : Dev nD) (r : Ref sig .tc) (h : r ≠ main_v5) : W4 m c r = W3 m c r :=
  Function.update_of_ne (StableHlo.devRef_ne_of_ne h : (Proc.devRef .tc r : DevRef τ sig) ≠ Proc.devRef .tc main_v5) _ _

/-- What the region leaves in its result array `main_v6`: its blocks' write-backs folded over the grid. -/
def fin2 (c : Dev nD) : Buf (Elt F) ((c : Thread nD τ).loc main_v6) := (dat2 (Vr4 m) c).arrAt 2 cfg2.N
/-- The unscoped buffers after the region: `main_v6` rewritten, every other buffer as the region found it. -/
abbrev W5 (c : Dev nD) : Valuation τ sig (Elt F) := Function.update (W4 m c) main_v6 (fin2 m c)
abbrev Vr5 : (c : Dev nD) → (b : Ref sig .tc) → Buf (Elt F) ((c : Thread nD τ).loc b) := fun c b => W5 m c b
theorem W5_at (c : Dev nD) : W5 m c main_v6 = fin2 m c := Function.update_self ..
theorem W5_of (c : Dev nD) (r : Ref sig .tc) (h : r ≠ main_v6) : W5 m c r = W4 m c r :=
  Function.update_of_ne (StableHlo.devRef_ne_of_ne h : (Proc.devRef .tc r : DevRef τ sig) ≠ Proc.devRef .tc main_v6) _ _

/-- After the last host stretch (the scores flattened). -/
abbrev W6 (c : Dev nD) : Valuation τ sig (Elt F) := StableHlo.after hostOps3 (W5 m c)

/-! ## Each region's arrays at its exit, and the buffers it leaves alone -/

theorem finals0 (c : Dev nD) : ∀ w : Fin cfg0.W, (dat0 (Vr1 m) c).arrAt w cfg0.N = Vr2 m c (Pipeline.arrRef spec0 w)
  | ⟨0, _⟩ => ((dat0 (Vr1 m) c).arrAt_in 0 rfl _).trans ((A_eq0 (Vr1 m) c 0).trans (W2_of m c main_arg0 (by decide)).symm)
  | ⟨1, _⟩ => ((dat0 (Vr1 m) c).arrAt_in 1 rfl _).trans ((A_eq0 (Vr1 m) c 1).trans (W2_of m c main_v0 (by decide)).symm)
  | ⟨2, _⟩ => ((dat0 (Vr1 m) c).arrAt_in 2 rfl _).trans ((A_eq0 (Vr1 m) c 2).trans (W2_of m c main_v1 (by decide)).symm)
  | ⟨3, _⟩ => (W2_at m c).symm
theorem others0 (c : Dev nD) : ∀ b, b ∉ Finset.univ.image (Pipeline.arrRef spec0) → Vr2 m c b = Vr1 m c b :=
  fun b hb => W2_of m c b fun e => hb (Finset.mem_image.mpr ⟨3, Finset.mem_univ _, e.symm⟩)

theorem finals1 (c : Dev nD) : ∀ w : Fin cfg1.W, (dat1 (Vr3 m) c).arrAt w cfg1.N = Vr4 m c (Pipeline.arrRef spec1 w)
  | ⟨0, _⟩ => ((dat1 (Vr3 m) c).arrAt_in 0 rfl _).trans ((A_eq1 (Vr3 m) c 0).trans (W4_of m c main_arg0 (by decide)).symm)
  | ⟨1, _⟩ => ((dat1 (Vr3 m) c).arrAt_in 1 rfl _).trans ((A_eq1 (Vr3 m) c 1).trans (W4_of m c main_v3 (by decide)).symm)
  | ⟨2, _⟩ => ((dat1 (Vr3 m) c).arrAt_in 2 rfl _).trans ((A_eq1 (Vr3 m) c 2).trans (W4_of m c main_v4 (by decide)).symm)
  | ⟨3, _⟩ => (W4_at m c).symm
theorem others1 (c : Dev nD) : ∀ b, b ∉ Finset.univ.image (Pipeline.arrRef spec1) → Vr4 m c b = Vr3 m c b :=
  fun b hb => W4_of m c b fun e => hb (Finset.mem_image.mpr ⟨3, Finset.mem_univ _, e.symm⟩)

/-! ## The proof data family and what rides along -/

/-- Every pipeline's proof data, each at its region's entry contents. -/
def pdatsAll : (p : Fin 3) → (c : Dev nD) → Dat τ (Elt F) Unit ℕ (UR sig nD τ) ℕ (Pipeline.pin (pcfgs (F := F)) adm p) c
  | ⟨0, _⟩ => fun c => dat0 (Vr1 m) c
  | ⟨1, _⟩ => fun c => dat1 (Vr3 m) c
  | ⟨2, _⟩ => fun c => dat2 (Vr4 m) c

/-- No core owes another anything: no level is assigned. -/
abbrev LL : GSem nD τ sig → Finset Unit := fun _ => ∅
abbrev lvl : GSem nD τ sig → Unit → ℕ := fun _ _ => 0
/-- Beside the buffers, through every segment: the core's generator register at some state and its dues, at nothing. -/
abbrev Ride (c : Dev nD) : sProp 𝕄 := iprop((∃ r, prngReg c r) ∗ ∃ W, owes (c : Thread nD τ) (0 : CellTallies nD τ sig Unit) W)

/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none LL lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

set_option backward.isDefEq.respectTransparency.types false in
/-- The first adjacency layer as a segment of @main: entered with every unscoped buffer at `W1`, left with them at
    `W2`; its windows' arrays are taken out of the unscoped buffers and put back with the result array rewritten; the
    generator register passes through the region's invariant; nothing is owed; the kernel has no semaphore of its own. -/
def regA0 : Pipeline.RegionSeg (pcfgs (F := F)) adm (pdatsAll m) () defs₀ Variants.none LL lvl 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ LL lvl 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdatsAll m) launch0.win launch0.arr_whole c
      ((pdatsAll m 0 c).share_full fun _ => rfl) (Vr1 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsAll m 0 c).Φ 0 = Pipeline.ΦA spec0 c from rfl]; unfold Pipeline.ΦA
    iintro ⟨Hreg, -, Hsc⟩
    isplitl [Hsc]; · iexact Hsc
    iexact Hreg
  hout c := by
    rw [Pipeline.ownSems0_none, show (pdatsAll m 0 c).Φ (Fin.last _) = Pipeline.ΦA spec0 c from rfl]; unfold Pipeline.ΦA
    iintro ⟨Hsc, Hreg⟩
    isplitl [Hreg]; · iexact Hreg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdatsAll m) ((pdatsAll m 0 c).share_full fun _ => rfl)
      (Vr1 m c) (Vr2 m c) ((pdatsAll m 0 c).arrAt · cfg0.N) (finals0 m c) (others0 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

set_option backward.isDefEq.respectTransparency.types false in
/-- The second adjacency layer as a segment of @main: entered with every unscoped buffer at `W3`, left with them at
    `W4`; its windows' arrays are taken out of the unscoped buffers and put back with the result array rewritten; the
    generator register passes through the region's invariant; nothing is owed; the kernel has no semaphore of its own. -/
def regA1 : Pipeline.RegionSeg (pcfgs (F := F)) adm (pdatsAll m) () defs₀ Variants.none LL lvl 1 where
  win := launch1.win.to₀
  block_pos := launch1.block_pos
  stage_whole := launch1.stage_whole
  K := PEmpty
  osem k := k.elim
  ho := Pipeline.OwnSemFacts.none _
  hbody c := (body_obligation1 (Vr3 m) c).loose
  hwaits := Pipeline.hwaits_of_owed_zero _ _ _ _ LL lvl 1 fun _ _ => rfl
  pre c := iprop(StableHlo.held (c : Thread nD τ) (Pipeline.ucRefs τ sig) (W3 m c) ∗ Ride c)
  post c := iprop(StableHlo.held (c : Thread nD τ) (Pipeline.ucRefs τ sig) (W4 m c) ∗ Ride c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit := Pipeline.arrays_of_unscopedBufs (p := 1) (pcfgs (F := F)) adm (pdatsAll m) launch1.win launch1.arr_whole c
      ((pdatsAll m 1 c).share_full fun _ => rfl) (Vr3 m c) fun _ => rfl
    rw [Pipeline.unscopedBufs_held] at hsplit
    iintro ⟨⟨Hbufs, Hreg, Howes⟩, -, -⟩
    ihave Hs := hsplit $$ Hbufs
    icases Hs with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsAll m 1 c).Φ 0 = Pipeline.ΦA spec1 c from rfl]; unfold Pipeline.ΦA
    iintro ⟨Hreg, -, Hsc⟩
    isplitl [Hsc]; · iexact Hsc
    iexact Hreg
  hout c := by
    rw [Pipeline.ownSems0_none, show (pdatsAll m 1 c).Φ (Fin.last _) = Pipeline.ΦA spec1 c from rfl]; unfold Pipeline.ΦA
    iintro ⟨Hsc, Hreg⟩
    isplitl [Hreg]; · iexact Hreg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdatsAll m) ((pdatsAll m 1 c).share_full fun _ => rfl)
      (Vr3 m c) (Vr4 m c) ((pdatsAll m 1 c).arrAt · cfg1.N) (finals1 m c) (others1 m c)
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%W, -, Howes⟩; iexists W; iexact Howes

/-! ## The decoder's region: one array behind two windows -/

/-- The buffers behind the decoder's windows: the embedding (read through two windows) and the scores. -/
theorem decoder_image : Finset.univ.image (Pipeline.arrRef spec2) = ({main_v5, main_v6} : Finset (Ref sig .tc)) := by decide

/-- A core's unscoped buffers are those two and the rest. -/
theorem decoder_split (c : Dev nD) (V : (b : Ref sig .tc) → Buf (Elt F) ((c : Thread nD τ).loc b)) :
    (unscopedBufs (Ix := Unit) (Name := ℕ) (U := UR sig nD τ) (Lvl := ℕ) c V : sProp 𝕄)
      = iprop(((((c : Thread nD τ).loc main_v5) ↦{fullShare} V main_v5) ∗ (((c : Thread nD τ).loc main_v6) ↦{fullShare} V main_v6))
          ∗ Pipeline.unscopedRest (Ix := Unit) (Name := ℕ) (U := UR sig nD τ) (Lvl := ℕ) spec2 c V) := by
  unfold unscopedBufs Pipeline.unscopedRest
  rw [decoder_image, BI.bigSep_sdiff_split (t := ({main_v5, main_v6} : Finset (Ref sig .tc))) (by decide),
    BI.bigSep_insert (by decide), BI.bigSep_singleton]
  rfl

/-- The decoder's arrays as the pipeline holds them: the embedding twice, at the two halves of the full share, and the
    scores whole. -/
theorem decoder_arrays (V : (c : Dev nD) → (b : Ref sig .tc) → Buf (Elt F) ((c : Thread nD τ).loc b)) (c : Dev nD)
    (G : (w : Fin cfg2.W) → Buf (Elt F) ((cfg2.win w).arr.view.loc (c.tc : Thread nD τ))) :
    ((dat2 V c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  unfold Pipeline.Dat.arrays
  rw [bigSep_W2, (arr_whole2 0).set_eq_univ, (arr_whole2 2).set_eq_univ]
  rfl

/-- The rest is the same at two valuations that agree off the two buffers. -/
theorem decoder_rest_congr (c : Dev nD) (V V' : (b : Ref sig .tc) → Buf (Elt F) ((c : Thread nD τ).loc b))
    (h : ∀ b, b ≠ main_v6 → V' b = V b) :
    (Pipeline.unscopedRest (Ix := Unit) (Name := ℕ) (U := UR sig nD τ) (Lvl := ℕ) spec2 c V' : sProp 𝕄)
      = Pipeline.unscopedRest (Ix := Unit) (Name := ℕ) (U := UR sig nD τ) (Lvl := ℕ) spec2 c V := by
  unfold Pipeline.unscopedRest
  refine BI.bigSep_congr fun b hb => ?_
  have hb' : b ∉ ({main_v5, main_v6} : Finset (Ref sig .tc)) := by rw [← decoder_image]; exact (Finset.mem_sdiff.mp hb).2
  rw [h b (fun e => hb' (by rw [e]; decide))]

set_option backward.isDefEq.respectTransparency.types false in
/-- The decoder as a segment of @main: entered with every unscoped buffer at `W4`, left with them at `W5`. The
    embedding's buffer is dealt to the two input windows at the two halves of the full share, both at the same
    contents, and put back together at the exit; the scores' buffer goes to the output window whole. -/
def regD : Pipeline.RegionSeg (pcfgs (F := F)) adm (pdatsAll m) () defs₀ Variants.none LL lvl 2 where
  win := winFacts₀2
  block_pos := block_pos2
  stage_whole := stage_whole2
  K := PEmpty
  osem k := k.elim
  ho := Pipeline.OwnSemFacts.none _
  hbody c := (body_obligation2 (Vr4 m) c).loose
  hwaits := Pipeline.hwaits_of_owed_zero _ _ _ _ LL lvl 2 fun _ _ => rfl
  pre c := iprop(StableHlo.held (c : Thread nD τ) (Pipeline.ucRefs τ sig) (W4 m c) ∗ Ride c)
  post c := iprop(StableHlo.held (c : Thread nD τ) (Pipeline.ucRefs τ sig) (W5 m c) ∗ Ride c)
  X c := iprop(∃ r, prngReg c r)
  Y c := iprop(∃ r, prngReg c r)
  Z c := Pipeline.unscopedRest (Ix := Unit) (Name := ℕ) (U := UR sig nD τ) (Lvl := ℕ) spec2 c (Vr4 m c)
  hentry c := by
    show iprop(iprop(StableHlo.held (c : Thread nD τ) (Pipeline.ucRefs τ sig) (W4 m c) ∗ Ride c) ∗ Pipeline.ownSems0 (fun k : PEmpty => k.elim) c ∗ levAts LL lvl)
      ⊢ |={Set.univ}=> iprop((dat2 (Vr4 m) c).arrays ((dat2 (Vr4 m) c).arrAt · 0) ∗ Pipeline.prefHeld (pcfgs (F := F) 2).pre c (fun _ => fullShare) (adm 2).1
          ∗ (dat2 (Vr4 m) c).owesAt () 0 ∗ (∃ r, prngReg c r)
          ∗ Pipeline.unscopedRest (Ix := Unit) (Name := ℕ) (U := UR sig nD τ) (Lvl := ℕ) spec2 c (Vr4 m c))
    rw [Pipeline.ownSems0_none, ← Pipeline.unscopedBufs_held (Ix := Unit) (Name := ℕ) (U := UR sig nD τ) (Lvl := ℕ) c (W4 m c),
      decoder_split c (Vr4 m c), decoder_arrays (Vr4 m) c]
    iintro ⟨⟨Hbufs, Hreg, Howes⟩, -, -⟩
    icases Hbufs with ⟨⟨Hemb, Hsco⟩, Hrest⟩
    ihave Hhalves := (pointsTo_share (PosShare.mem_left_op_right fullShare)).1 $$ Hemb
    icases Hhalves with ⟨Hl, Hr⟩
    imodintro
    isplitl [Hl Hr Hsco]
    · isplitl [Hl]; · iexact Hl
      isplitl [Hr]; · iexact Hr
      iexact Hsco
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hrest
  hin c := by
    rw [show (pdatsAll m 2 c).Φ 0 = Pipeline.ΦA spec2 c from rfl]; unfold Pipeline.ΦA
    iintro ⟨Hreg, -, Hsc⟩
    isplitl [Hsc]; · iexact Hsc
    iexact Hreg
  hout c := by
    rw [Pipeline.ownSems0_none, show (pdatsAll m 2 c).Φ (Fin.last _) = Pipeline.ΦA spec2 c from rfl]; unfold Pipeline.ΦA
    iintro ⟨Hsc, Hreg⟩
    isplitl [Hreg]; · iexact Hreg
    isplitr; · iempintro
    iexact Hsc
  hexit c := by
    show iprop((dat2 (Vr4 m) c).arrays ((dat2 (Vr4 m) c).arrAt · cfg2.N) ∗ (dat2 (Vr4 m) c).owesAt () (Fin.last cfg2.N) ∗ (∃ r, prngReg c r)
          ∗ Pipeline.unscopedRest (Ix := Unit) (Name := ℕ) (U := UR sig nD τ) (Lvl := ℕ) spec2 c (Vr4 m c))
      ⊢ |={Set.univ}=> iprop(StableHlo.held (c : Thread nD τ) (Pipeline.ucRefs τ sig) (W5 m c) ∗ Ride c)
    rw [← Pipeline.unscopedBufs_held (Ix := Unit) (Name := ℕ) (U := UR sig nD τ) (Lvl := ℕ) c (W5 m c), decoder_split c (Vr5 m c),
      decoder_rest_congr c (Vr4 m c) (Vr5 m c) (fun b hb => W5_of m c b hb), decoder_arrays (Vr4 m) c]
    rw [show (dat2 (Vr4 m) c).arrAt 0 cfg2.N = Vr5 m c main_v5 from
        ((dat2 (Vr4 m) c).arrAt_in 0 rfl _).trans ((A_eq2 (Vr4 m) c 0).trans (W5_of m c main_v5 (by decide)).symm),
      show (dat2 (Vr4 m) c).arrAt 1 cfg2.N = Vr5 m c main_v5 from
        ((dat2 (Vr4 m) c).arrAt_in 1 rfl _).trans ((A_eq2 (Vr4 m) c 1).trans (W5_of m c main_v5 (by decide)).symm),
      show (dat2 (Vr4 m) c).arrAt 2 cfg2.N = Vr5 m c main_v6 from (W5_at m c).symm]
    iintro ⟨⟨H5l, H5r, H6⟩, Howes, Hreg, Hrest⟩
    imodintro
    isplitl [H5l H5r H6 Hrest]
    · isplitl [H5l H5r H6]
      · isplitl [H5l H5r]
        · iapply (pointsTo_share (PosShare.mem_left_op_right fullShare)).2
          isplitl [H5l] <;> iassumption
        iexact H6
      iexact Hrest
    isplitl [Hreg]; · iexact Hreg
    unfold Pipeline.Dat.owesAt Pipeline.owesWithin
    icases Howes with ⟨%W, -, Howes⟩; iexists W; iexact Howes

/-! ## @main as its segments, and the run -/

/-- @main's six segments in order. -/
abbrev allSegs : List (Pipeline.Seg (pcfgs (F := F)) adm (pdatsAll m) () defs₀ Variants.none LL lvl) :=
  [ .host (hostSeg hostOps0 hostOps0_sub hostOps0_fresh (W0 m)),
    .region (regA0 m),
    .host (hostSeg hostOps1 hostOps1_sub hostOps1_fresh (W2 m)),
    .region (regA1 m),
    .region (regD m),
    .host (hostSeg hostOps3 hostOps3_sub hostOps3_fresh (W5 m)) ]

theorem main_is_segs (c : Dev nD) : main (F := F) c = Pipeline.Seg.run (allSegs m) :=
  main_segs adm (pdatsAll m) () Variants.none LL lvl _ _ _ (regA0 m) (regA1 m) (regD m) rfl rfl rfl c

/-- An unscoped TensorCore reference is among those the thread states hold. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates without a fault, and
    every final state holds every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdatsAll m) () cellOf_inj emb₁ defs₀ Variants.none LL lvl m ρ main (allSegs m)
    (fun c Q => by rw [main_is_segs m c])
    (by simp only [allSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, fun c =>
      (show iprop(StableHlo.held (c : Thread nD τ) (Pipeline.ucRefs τ sig) (W6 m c) ∗ Ride c)
          ⊢ iprop((StableHlo.held (c : Thread nD τ) (Pipeline.ucRefs τ sig) (W6 m c) ∗ ∃ r, prngReg c r)
              ∗ ∃ W, owes (c : Thread nD τ) (0 : CellTallies nD τ sig Unit) W) from by
        iintro ⟨Hh, Hp, Ho⟩
        isplitl [Hh Hp]
        · isplitl [Hh] <;> iassumption
        iexact Ho)⟩)
    (hinit := by
      refine Pipeline.initEach LL lvl fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Gen

end
-- ==== Proof.IdealFrame.lean ====
/-
  The frame of the whole program, read off its run: the six argument arrays are written by no host operation and are
  no region's result, so the last boundary's contents at each of them are the launch memory's.
-/
import proofs.«158142_j13039520711025_2_alg».proof.Proof.IdealRun

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W6_of (c : Dev nD) (r : Ref sig .tc) (h : r ∉ hostOps3_W) : W6 m c r = W5 m c r :=
  StableHlo.after_of_writes_sub hostOps3 _ hostOps3_writes h

/-- A buffer no host stretch writes and no region rewrites holds at the end what it held at launch. -/
theorem W6_kept (c : Dev nD) (r : Ref sig .tc) (h0 : r ∉ hostOps0_W) (h2 : r ≠ main_v2) (h1 : r ∉ hostOps1_W) (h5 : r ≠ main_v5)
    (h6 : r ≠ main_v6) (h3 : r ∉ hostOps3_W) : W6 m c r = m ((c : Thread nD τ).loc r) :=
  (W6_of m c r h3).trans <| (W5_of m c r h6).trans <| (W4_of m c r h5).trans <| (W3_of m c r h1).trans <| (W2_of m c r h2).trans <|
    (W1_of m c r h0).trans rfl

/-- THE FRAME, at any instance of the floats: every weakly fair execution of @main terminates without a fault and every
    final state holds the six argument arrays as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_unscoped main_arg0 (by decide))).trans (W6_kept m c main_arg0 (by decide) (by decide) (by decide) (by decide) (by decide) (by decide)),
     (h c _ (mem_unscoped main_arg1 (by decide))).trans (W6_kept m c main_arg1 (by decide) (by decide) (by decide) (by decide) (by decide) (by decide)),
     (h c _ (mem_unscoped main_arg2 (by decide))).trans (W6_kept m c main_arg2 (by decide) (by decide) (by decide) (by decide) (by decide) (by decide)),
     (h c _ (mem_unscoped main_arg3 (by decide))).trans (W6_kept m c main_arg3 (by decide) (by decide) (by decide) (by decide) (by decide) (by decide)),
     (h c _ (mem_unscoped main_arg4 (by decide))).trans (W6_kept m c main_arg4 (by decide) (by decide) (by decide) (by decide) (by decide) (by decide)),
     (h c _ (mem_unscoped main_arg5 (by decide))).trans (W6_kept m c main_arg5 (by decide) (by decide) (by decide) (by decide) (by decide) (by decide))⟩)
    (run_all m ρ)

end Cert.KernelIdeal.Gen

end
-- ==== Proof.Spec.lean ====
/-
  The network both programs compute, stated once over the extended reals, element by element.

  A two-layer graph convolution followed by an inner-product decoder:
    proj1  = feature · W1                      (8192 × 256)
    hidden = max (adj · proj1 + b1, 0)         (8192 × 256)
    proj2  = hidden · W2                       (8192 × 128)
    embed  = adj · proj2 + b2                  (8192 × 128)
    score  = logistic (embed · embedᵀ)         (8192 × 8192), returned flattened row by row
  Every matrix product is the plain finite sum over the contracted index; nothing here depends on the order in
  which a sum is taken or on how the rows are tiled.
-/
import Idealize.ShloMosaic.PureOps.Ideal
import Idealize.ShloMosaic.Lib.ValueIdx

noncomputable section

namespace Cert.Spec

open Idealize.ShloMosaic Idealize.ShloMosaic.ValueIdx

/-- A matrix of extended reals with `a` rows and `b` columns, indexed as the programs index their arrays. -/
abbrev Mat (a b : ℕ) : Type := (⟨2, ![a, b]⟩ : Shape).Idx → EReal
/-- A vector of extended reals of length `a`. -/
abbrev Row (a : ℕ) : Type := (⟨1, ![a]⟩ : Shape).Idx → EReal

variable (adj : Mat 8192 8192) (feature : Mat 8192 512) (W1 : Mat 512 256) (b1 : Row 256) (W2 : Mat 256 128) (b2 : Row 128)

/-- `feature · W1` at row `r`, column `c`. -/
def proj1 (r : Fin 8192) (c : Fin 256) : EReal := ∑ k : Fin 512, feature (ix2 r k) * W1 (ix2 k c)

/-- The first layer: `max (adj · proj1 + b1, 0)`. -/
def hidden (r : Fin 8192) (c : Fin 256) : EReal :=
  max ((∑ k : Fin 8192, adj (ix2 r k) * proj1 feature W1 k c) + b1 (ix1 c)) 0

/-- `hidden · W2`. -/
def proj2 (r : Fin 8192) (c : Fin 128) : EReal := ∑ k : Fin 256, hidden adj feature W1 b1 r k * W2 (ix2 k c)

/-- The second layer, the embedding: `adj · proj2 + b2`. -/
def embed (r : Fin 8192) (c : Fin 128) : EReal :=
  (∑ k : Fin 8192, adj (ix2 r k) * proj2 adj feature W1 b1 W2 k c) + b2 (ix1 c)

/-- The decoder: the logistic function of the inner product of two rows of the embedding. -/
def score (r s : Fin 8192) : EReal :=
  Ideal.logistic (∑ k : Fin 128, embed adj feature W1 b1 W2 b2 r k * embed adj feature W1 b1 W2 b2 s k)

/-- The embedding as an array: the second result of both programs. -/
def embedArr : Mat 8192 128 := fun j => embed adj feature W1 b1 W2 b2 (j 0) (j 1)

/-- The scores flattened row by row: element `8192·r + s` is `score r s`. The first result of both programs. -/
def scoreArr : Row 67108864 := fun j =>
  score adj feature W1 b1 W2 b2 ⟨(j 0).val / 8192, Nat.div_lt_of_lt_mul (j 0).isLt⟩ ⟨(j 0).val % 8192, Nat.mod_lt _ (by decide)⟩

end Cert.Spec

end
-- ==== Proof.RefIsSpec.lean ====
/-
  The reference program computes the specification.

  Taken one operation at a time, at row r and column c the reference program holds
    %0  = Σ_k feature[r,k] · W1[k,c]                                      (proj1 r c)
    %1  = Σ_k adj[r,k] · %0[k,c],   %4 = %1 + b1[c],   %5 = max (%4, 0)       (hidden r c)
    %6  = Σ_k %5[r,k] · W2[k,c]                                           (proj2 r c)
    %7  = Σ_k adj[r,k] · %6[k,c],   %10 = %7 + b2[c]                      (embed r c)
    %12[r,s] = Σ_k %10[r,k] · %11[k,s]   with   %11[k,s] = %10[s,k]        (the inner product of rows r and s)
    %13[j]   = %12[j / 8192, j % 8192]                                    (the rows laid end to end)
    %19[j]   = 1 / (1 + exp (-%13[j]))                                    (the logistic function of %13[j])
  and these are, term by term, the sums the specification is written with. Besides the shape of each
  operation the only facts used are that the word 0x00000000 denotes 0 and the word 0x3F800000 denotes 1.
  Nothing is assumed of the arguments: every identity here holds on all extended reals.
-/
import proofs.«158142_j13039520711025_2_alg».proof.Proof.Gen.ReferenceIdeal.Read
import proofs.«158142_j13039520711025_2_alg».proof.Proof.Spec

noncomputable section

namespace Cert.RefIsSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S8192x8192, .f32⟩ : BufTy).Contents (Elt Ideal)) (x1 : (⟨S8192x512, .f32⟩ : BufTy).Contents (Elt Ideal))
  (x2 : (⟨S512x256, .f32⟩ : BufTy).Contents (Elt Ideal)) (x3 : (⟨S256, .f32⟩ : BufTy).Contents (Elt Ideal))
  (x4 : (⟨S256x128, .f32⟩ : BufTy).Contents (Elt Ideal)) (x5 : (⟨S128, .f32⟩ : BufTy).Contents (Elt Ideal))

/-! ## The word for one -/

/-- The word 0x3F800000 (sign 0, biased exponent 127, fraction 0) denotes the real number 1. -/
theorem ofBits_one_f32 : Ideal.ofBits .f32 0x3F800000#32 = 1 := by
  simp [Ideal.ofBits, Ideal.ieee, -EReal.coe_mul]; norm_num

/-! ## The first layer -/

/-- %0 at row r, column c is (feature · W1)[r,c]. -/
theorem v0_at (r : Fin 8192) (c : Fin 256) :
    val_main_v0 (F := Ideal) x1 x2 (ix2 r c) = Cert.Spec.proj1 x1 x2 r c := by
  rw [val_main_v0_apply]
  unfold Cert.Spec.proj1
  refine Finset.sum_congr rfl fun k _ => ?_
  have el : lidx_main_v0 (ix2 r c) k = ix2 r k := funext fun a => match a with | ⟨0, _⟩ => rfl | ⟨1, _⟩ => rfl
  have er : ridx_main_v0 (ix2 r c) k = ix2 k c := funext fun a => match a with | ⟨0, _⟩ => rfl | ⟨1, _⟩ => rfl
  rw [el, er]

/-- %1 at row r, column c is Σ_k adj[r,k] · (feature · W1)[k,c]. -/
theorem v1_at (r : Fin 8192) (c : Fin 256) :
    val_main_v1 (F := Ideal) x0 x1 x2 (ix2 r c) = ∑ k : Fin 8192, x0 (ix2 r k) * Cert.Spec.proj1 x1 x2 k c := by
  rw [val_main_v1_apply]
  refine Finset.sum_congr rfl fun k _ => ?_
  have el : lidx_main_v1 (ix2 r c) k = ix2 r k := funext fun a => match a with | ⟨0, _⟩ => rfl | ⟨1, _⟩ => rfl
  have er : ridx_main_v1 (ix2 r c) k = ix2 k c := funext fun a => match a with | ⟨0, _⟩ => rfl | ⟨1, _⟩ => rfl
  rw [el, er, v0_at]

/-- %3, the first bias repeated down the rows: its entry at row r, column c is b1[c]. -/
theorem v3_at (r : Fin 8192) (c : Fin 256) : val_main_v3 (F := Ideal) x3 (ix2 r c) = x3 (ix1 c) := by
  rw [val_main_v3_apply, val_main_v2_apply]
  exact congrArg x3 (funext fun a => match a with | ⟨0, _⟩ => rfl)

/-- %5 at row r, column c is max (Σ_k adj[r,k] · (feature · W1)[k,c] + b1[c], 0): the word 0x00000000 denotes 0. -/
theorem v5_at (r : Fin 8192) (c : Fin 256) :
    val_main_v5 (F := Ideal) x0 x1 x2 x3 (ix2 r c) = Cert.Spec.hidden x0 x1 x2 x3 r c := by
  unfold Cert.Spec.hidden
  rw [val_main_v5_apply, val_main_v4_apply, val_main_call0_v0_apply, val_main_call0_cst_apply, v1_at, v3_at,
    Ideal.maximumf_def, Ideal.addf_def, Ideal.ofBits_def, Ideal.ofBits_zero_f32]

/-! ## The second layer -/

/-- %6 at row r, column c is (hidden · W2)[r,c]. -/
theorem v6_at (r : Fin 8192) (c : Fin 128) :
    val_main_v6 (F := Ideal) x0 x1 x2 x3 x4 (ix2 r c) = Cert.Spec.proj2 x0 x1 x2 x3 x4 r c := by
  rw [val_main_v6_apply]
  unfold Cert.Spec.proj2
  refine Finset.sum_congr rfl fun k _ => ?_
  have el : lidx_main_v6 (ix2 r c) k = ix2 r k := funext fun a => match a with | ⟨0, _⟩ => rfl | ⟨1, _⟩ => rfl
  have er : ridx_main_v6 (ix2 r c) k = ix2 k c := funext fun a => match a with | ⟨0, _⟩ => rfl | ⟨1, _⟩ => rfl
  rw [el, er, v5_at]

/-- %7 at row r, column c is Σ_k adj[r,k] · (hidden · W2)[k,c]. -/
theorem v7_at (r : Fin 8192) (c : Fin 128) :
    val_main_v7 (F := Ideal) x0 x1 x2 x3 x4 (ix2 r c)
      = ∑ k : Fin 8192, x0 (ix2 r k) * Cert.Spec.proj2 x0 x1 x2 x3 x4 k c := by
  rw [val_main_v7_apply]
  refine Finset.sum_congr rfl fun k _ => ?_
  have el : lidx_main_v7 (ix2 r c) k = ix2 r k := funext fun a => match a with | ⟨0, _⟩ => rfl | ⟨1, _⟩ => rfl
  have er : ridx_main_v7 (ix2 r c) k = ix2 k c := funext fun a => match a with | ⟨0, _⟩ => rfl | ⟨1, _⟩ => rfl
  rw [el, er, v6_at]

/-- %9, the second bias repeated down the rows: its entry at row r, column c is b2[c]. -/
theorem v9_at (r : Fin 8192) (c : Fin 128) : val_main_v9 (F := Ideal) x5 (ix2 r c) = x5 (ix1 c) := by
  rw [val_main_v9_apply, val_main_v8_apply]
  exact congrArg x5 (funext fun a => match a with | ⟨0, _⟩ => rfl)

/-- %10 at row r, column c is the embedding's entry. -/
theorem v10_at (r : Fin 8192) (c : Fin 128) :
    val_main_v10 (F := Ideal) x0 x1 x2 x3 x4 x5 (ix2 r c) = Cert.Spec.embed x0 x1 x2 x3 x4 x5 r c := by
  unfold Cert.Spec.embed
  rw [val_main_v10_apply, v7_at, v9_at, Ideal.addf_def]

/-- The reference's second result, the embedding, is the specification's, entry by entry. -/
theorem embed_eq :
    val_main_v10 (F := Ideal) x0 x1 x2 x3 x4 x5 = Cert.Spec.embedArr x0 x1 x2 x3 x4 x5 := by
  funext j
  obtain ⟨r, c, rfl⟩ : ∃ (r : Fin 8192) (c : Fin 128), j = ix2 r c := ⟨j 0, j 1, eq_ix2 j⟩
  exact v10_at x0 x1 x2 x3 x4 x5 r c

/-! ## The decoder -/

/-- %12 at row r, column s is the inner product of rows r and s of the embedding: the transposed factor's entry
    at row k, column s is the embedding's at row s, column k. -/
theorem v12_at (r s : Fin 8192) :
    val_main_v12 (F := Ideal) x0 x1 x2 x3 x4 x5 (ix2 r s)
      = ∑ k : Fin 128, Cert.Spec.embed x0 x1 x2 x3 x4 x5 r k * Cert.Spec.embed x0 x1 x2 x3 x4 x5 s k := by
  rw [val_main_v12_apply]
  refine Finset.sum_congr rfl fun k _ => ?_
  have el : lidx_main_v12 (ix2 r s) k = ix2 r k := funext fun a => match a with | ⟨0, _⟩ => rfl | ⟨1, _⟩ => rfl
  have er : idx_main_v11 (ridx_main_v12 (ix2 r s) k) = ix2 s k :=
    funext fun a => match a with | ⟨0, _⟩ => rfl | ⟨1, _⟩ => rfl
  rw [val_main_v11_apply, el, er, v10_at, v10_at]

/-- Position j of the flattened product is row j / 8192, column j % 8192 (8192 · (j / 8192) + j % 8192 = j). -/
theorem v13_at (j : Fin 67108864) :
    val_main_v13 (F := Ideal) x0 x1 x2 x3 x4 x5 (ix1 j)
      = ∑ k : Fin 128, Cert.Spec.embed x0 x1 x2 x3 x4 x5 ⟨j.val / 8192, Nat.div_lt_of_lt_mul j.isLt⟩ k
          * Cert.Spec.embed x0 x1 x2 x3 x4 x5 ⟨j.val % 8192, Nat.mod_lt _ (by decide)⟩ k := by
  have e : idx_main_v13 (ix1 j) = ix2 (⟨j.val / 8192, Nat.div_lt_of_lt_mul j.isLt⟩ : Fin 8192)
      (⟨j.val % 8192, Nat.mod_lt _ (by decide)⟩ : Fin 8192) :=
    funext fun a => match a with | ⟨0, _⟩ => rfl | ⟨1, _⟩ => rfl
  rw [val_main_v13_apply, e, v12_at]

/-- %19 at position j: 1 / (1 + exp (-x)) with the word 0x3F800000 for each 1 is the logistic function of x. -/
theorem v19_at (j : Fin 67108864) :
    val_main_v19 (F := Ideal) x0 x1 x2 x3 x4 x5 (ix1 j)
      = Cert.Spec.score x0 x1 x2 x3 x4 x5 ⟨j.val / 8192, Nat.div_lt_of_lt_mul j.isLt⟩
          ⟨j.val % 8192, Nat.mod_lt _ (by decide)⟩ := by
  unfold Cert.Spec.score Ideal.logistic
  rw [val_main_v19_apply, val_main_v18_apply, val_main_cst_0_apply, val_main_v17_apply, val_main_v16_apply,
    val_main_cst_apply, val_main_v15_apply, val_main_v14_apply, v13_at,
    Ideal.hostDivf_def, Ideal.addf_def, Ideal.hostUnary_exp_def, Ideal.hostNegf_def, Ideal.negf_def, Ideal.ofBits_def,
    ofBits_one_f32]

/-- The reference's first result, the flattened scores, is the specification's, entry by entry. -/
theorem score_eq :
    val_main_v19 (F := Ideal) x0 x1 x2 x3 x4 x5 = Cert.Spec.scoreArr x0 x1 x2 x3 x4 x5 := by
  funext j
  obtain ⟨p, rfl⟩ : ∃ p : Fin 67108864, j = ix1 p := ⟨j 0, eq_ix1 j⟩
  exact v19_at x0 x1 x2 x3 x4 x5 p

/-! ## The run's result terms

  The reference's run states each result as the operations' composed term of the arguments; those two terms are the
  last operations' values, hence the specification's arrays. -/

/-- The composed term of the first result (the flattened scores) is the specification's. -/
theorem run_score_eq :
    Host.divf (broadcastInDim S67108864 ![] bcast_S_S67108864 (constant (F := Ideal) S_ .f32 0x3F800000#32)) (addf (broadcastInDim S67108864 ![] bcast_S_S67108864 (constant (F := Ideal) S_ .f32 0x3F800000#32)) (Host.exp (Host.negf (shapeCast _ (Host.dotGeneral (φ₁ := .f32) (φ₂ := .f32) dot_S8192x128_S128x8192_S8192x8192_1_0_0_1_n_n none (addf (Host.dotGeneral (φ₁ := .f32) (φ₂ := .f32) dot_S8192x8192_S8192x128_S8192x128_1_0_0_1_n_n none (x0) (Host.dotGeneral (φ₁ := .f32) (φ₂ := .f32) dot_S8192x256_S256x128_S8192x128_1_0_0_1_n_n none (maximumf (addf (Host.dotGeneral (φ₁ := .f32) (φ₂ := .f32) dot_S8192x8192_S8192x256_S8192x256_1_0_0_1_n_n none (x0) (Host.dotGeneral (φ₁ := .f32) (φ₂ := .f32) dot_S8192x512_S512x256_S8192x256_1_0_0_1_n_n none (x1) (x2))) (broadcastInDim S8192x256 ![0, 1] bcast_S1x256_S8192x256_0_1 (broadcastInDim S1x256 ![1] bcast_S256_S1x256_1 (x3)))) (broadcastInDim S8192x256 ![] bcast_S_S8192x256 (constant (F := Ideal) S_ .f32 0x00000000#32))) (x4))) (broadcastInDim S8192x128 ![0, 1] bcast_S1x128_S8192x128_0_1 (broadcastInDim S1x128 ![1] bcast_S128_S1x128_1 (x5)))) (transpose S128x8192 [1, 0] (addf (Host.dotGeneral (φ₁ := .f32) (φ₂ := .f32) dot_S8192x8192_S8192x128_S8192x128_1_0_0_1_n_n none (x0) (Host.dotGeneral (φ₁ := .f32) (φ₂ := .f32) dot_S8192x256_S256x128_S8192x128_1_0_0_1_n_n none (maximumf (addf (Host.dotGeneral (φ₁ := .f32) (φ₂ := .f32) dot_S8192x8192_S8192x256_S8192x256_1_0_0_1_n_n none (x0) (Host.dotGeneral (φ₁ := .f32) (φ₂ := .f32) dot_S8192x512_S512x256_S8192x256_1_0_0_1_n_n none (x1) (x2))) (broadcastInDim S8192x256 ![0, 1] bcast_S1x256_S8192x256_0_1 (broadcastInDim S1x256 ![1] bcast_S256_S1x256_1 (x3)))) (broadcastInDim S8192x256 ![] bcast_S_S8192x256 (constant (F := Ideal) S_ .f32 0x00000000#32))) (x4))) (broadcastInDim S8192x128 ![0, 1] bcast_S1x128_S8192x128_0_1 (broadcastInDim S1x128 ![1] bcast_S128_S1x128_1 (x5)))) transposes_S8192x128_S128x8192_1_0)) shapeCasts_S8192x8192_S67108864))))
      = Cert.Spec.scoreArr x0 x1 x2 x3 x4 x5 :=
  (val_main_v19_eq (F := Ideal) x0 x1 x2 x3 x4 x5).trans (score_eq x0 x1 x2 x3 x4 x5)

/-- The composed term of the second result (the embedding) is the specification's. -/
theorem run_embed_eq :
    addf (Host.dotGeneral (φ₁ := .f32) (φ₂ := .f32) dot_S8192x8192_S8192x128_S8192x128_1_0_0_1_n_n none (x0) (Host.dotGeneral (φ₁ := .f32) (φ₂ := .f32) dot_S8192x256_S256x128_S8192x128_1_0_0_1_n_n none (maximumf (addf (Host.dotGeneral (φ₁ := .f32) (φ₂ := .f32) dot_S8192x8192_S8192x256_S8192x256_1_0_0_1_n_n none (x0) (Host.dotGeneral (φ₁ := .f32) (φ₂ := .f32) dot_S8192x512_S512x256_S8192x256_1_0_0_1_n_n none (x1) (x2))) (broadcastInDim S8192x256 ![0, 1] bcast_S1x256_S8192x256_0_1 (broadcastInDim S1x256 ![1] bcast_S256_S1x256_1 (x3)))) (broadcastInDim S8192x256 ![] bcast_S_S8192x256 (constant (F := Ideal) S_ .f32 0x00000000#32))) (x4))) (broadcastInDim S8192x128 ![0, 1] bcast_S1x128_S8192x128_0_1 (broadcastInDim S1x128 ![1] bcast_S128_S1x128_1 (x5)))
      = Cert.Spec.embedArr x0 x1 x2 x3 x4 x5 :=
  (val_main_v10_eq (F := Ideal) x0 x1 x2 x3 x4 x5).trans (embed_eq x0 x1 x2 x3 x4 x5)

/-- Every weakly fair execution of the reference program terminates with its two results at the specification's
    arrays of the arguments as they were at the start, and with the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = Cert.Spec.scoreArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v10)
          = Cert.Spec.embedArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (run_score_eq _ _ _ _ _ _), (h c).2.1.trans (run_embed_eq _ _ _ _ _ _), (h c).2.2⟩)
    (Cert.ReferenceIdeal.Value.run (F := Ideal) m ρ)

end Cert.RefIsSpec

end
-- ==== Proof.IdealHost.lean ====
/-
  The host operations of the idealized kernel's @main read at an index, and the contents of the buffers they write:
  the two dense matrix products around the regions as plain sums, the bias vectors re-laid as rows, the scores
  flattened row by row.
-/
import proofs.«158142_j13039520711025_2_alg».proof.Proof.IdealFrame
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.Gen

open Idealize.ShloMosaic Idealize.ShloMosaic.TcCoe Idealize.ShloMosaic.ValueIdx Idealize.SL.Sem Idealize.ShloMosaic.StableHlo

theorem hostDot1_at_l0 (i : S8192x256.Idx) (q : dot_S8192x512_S512x256_S8192x256_1_0_0_1_n_n.contr.Idx) : (dot_S8192x512_S512x256_S8192x256_1_0_0_1_n_n.lhsIdx i q 0).val = (i 0).val := by
  unfold DotDims.lhsIdx
  rw [dif_neg (show ¬(0 : Fin S8192x512.rank) ∈ dot_S8192x512_S512x256_S8192x256_1_0_0_1_n_n.lhsBatch by decide), dif_pos (show (0 : Fin S8192x512.rank) ∈ dot_S8192x512_S512x256_S8192x256_1_0_0_1_n_n.lhsNonContracting by decide)]
  rfl
theorem hostDot1_at_r1 (i : S8192x256.Idx) (q : dot_S8192x512_S512x256_S8192x256_1_0_0_1_n_n.contr.Idx) : (dot_S8192x512_S512x256_S8192x256_1_0_0_1_n_n.rhsIdx i q 1).val = (i 1).val := by
  unfold DotDims.rhsIdx
  rw [dif_neg (show ¬(1 : Fin S512x256.rank) ∈ dot_S8192x512_S512x256_S8192x256_1_0_0_1_n_n.rhsBatch by decide), dif_pos (show (1 : Fin S512x256.rank) ∈ dot_S8192x512_S512x256_S8192x256_1_0_0_1_n_n.rhsNonContracting by decide)]
  rfl

/-- A host matrix product `[8192, 512] · [512, 256]` read at row `r`, column `c`: the sum over the contracted index. -/
theorem hostDot1_at (x1 : FVec Ideal S8192x512 .f32) (x2 : FVec Ideal S512x256 .f32) (r : Fin 8192) (c : Fin 256) :
    Host.dotGeneral (F := Ideal) (φ₁ := .f32) (φ₂ := .f32) dot_S8192x512_S512x256_S8192x256_1_0_0_1_n_n none x1 x2 (ix2 r c)
      = ∑ k : Fin 512, x1 (ix2 r k) * x2 (ix2 k c) := by
  simp only [Host.dotGeneral]
  rw [Ideal.dotGeneral_apply, ← Equiv.sum_comp (ValueIdx.contrEquiv1 dot_S8192x512_S512x256_S8192x256_1_0_0_1_n_n 512 rfl rfl).symm]
  refine Finset.sum_congr rfl fun k _ => ?_
  have hk := ValueIdx.contrEquiv1_symm_val dot_S8192x512_S512x256_S8192x256_1_0_0_1_n_n 512 rfl rfl k
  have el : dot_S8192x512_S512x256_S8192x256_1_0_0_1_n_n.lhsIdx (ix2 r c) ((ValueIdx.contrEquiv1 dot_S8192x512_S512x256_S8192x256_1_0_0_1_n_n 512 rfl rfl).symm k) = ix2 r k := funext fun a => Fin.ext (by
    match a with
    | ⟨0, _⟩ => exact hostDot1_at_l0 _ _
    | ⟨1, _⟩ => exact (dot_S8192x512_S512x256_S8192x256_1_0_0_1_n_n.lhsIdx_val_of_single rfl _ _).trans hk)
  have er : dot_S8192x512_S512x256_S8192x256_1_0_0_1_n_n.rhsIdx (ix2 r c) ((ValueIdx.contrEquiv1 dot_S8192x512_S512x256_S8192x256_1_0_0_1_n_n 512 rfl rfl).symm k) = ix2 k c := funext fun a => Fin.ext (by
    match a with
    | ⟨0, _⟩ => exact (dot_S8192x512_S512x256_S8192x256_1_0_0_1_n_n.rhsIdx_val_of_single rfl _ _).trans hk
    | ⟨1, _⟩ => exact hostDot1_at_r1 _ _)
  rw [el, er]

theorem hostDot2_at_l0 (i : S8192x128.Idx) (q : dot_S8192x256_S256x128_S8192x128_1_0_0_1_n_n.contr.Idx) : (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem hostDot2_at_r1 (i : S8192x128.Idx) (q : dot_S8192x256_S256x128_S8192x128_1_0_0_1_n_n.contr.Idx) : (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-- A host matrix product `[8192, 256] · [256, 128]` read at row `r`, column `c`: the sum over the contracted index. -/
theorem hostDot2_at (x1 : FVec Ideal S8192x256 .f32) (x2 : FVec Ideal S256x128 .f32) (r : Fin 8192) (c : Fin 128) :
    Host.dotGeneral (F := Ideal) (φ₁ := .f32) (φ₂ := .f32) dot_S8192x256_S256x128_S8192x128_1_0_0_1_n_n none x1 x2 (ix2 r c)
      = ∑ k : Fin 256, x1 (ix2 r k) * x2 (ix2 k c) := by
  simp only [Host.dotGeneral]
  rw [Ideal.dotGeneral_apply, ← Equiv.sum_comp (ValueIdx.contrEquiv1 dot_S8192x256_S256x128_S8192x128_1_0_0_1_n_n 256 rfl rfl).symm]
  refine Finset.sum_congr rfl fun k _ => ?_
  have hk := ValueIdx.contrEquiv1_symm_val dot_S8192x256_S256x128_S8192x128_1_0_0_1_n_n 256 rfl rfl k
  have el : dot_S8192x256_S256x128_S8192x128_1_0_0_1_n_n.lhsIdx (ix2 r c) ((ValueIdx.contrEquiv1 dot_S8192x256_S256x128_S8192x128_1_0_0_1_n_n 256 rfl rfl).symm k) = ix2 r k := funext fun a => Fin.ext (by
    match a with
    | ⟨0, _⟩ => exact hostDot2_at_l0 _ _
    | ⟨1, _⟩ => exact (dot_S8192x256_S256x128_S8192x128_1_0_0_1_n_n.lhsIdx_val_of_single rfl _ _).trans hk)
  have er : dot_S8192x256_S256x128_S8192x128_1_0_0_1_n_n.rhsIdx (ix2 r c) ((ValueIdx.contrEquiv1 dot_S8192x256_S256x128_S8192x128_1_0_0_1_n_n 256 rfl rfl).symm k) = ix2 k c := funext fun a => Fin.ext (by
    match a with
    | ⟨0, _⟩ => exact (dot_S8192x256_S256x128_S8192x128_1_0_0_1_n_n.rhsIdx_val_of_single rfl _ _).trans hk
    | ⟨1, _⟩ => exact hostDot2_at_r1 _ _)
  rw [el, er]

/-- A vector re-laid as a one-row matrix, read at column `c` of its row: the vector's element `c`. -/
theorem row256_at (x : FVec Ideal S256 .f32) (c : Fin 256) : shapeCast S1x256 x shapeCasts_S256_S1x256 (ix2 (0 : Fin 1) c) = x (ix1 c) :=
  shapeCast_apply x shapeCasts_S256_S1x256 (ix2 (0 : Fin 1) c) (ix1 c)
    (by rewrite [Shape.rowMajor_val_one, Shape.rowMajor_val_two]; show c.val = 0 * 256 + c.val; omega)
theorem row128_at (x : FVec Ideal S128 .f32) (c : Fin 128) : shapeCast S1x128 x shapeCasts_S128_S1x128 (ix2 (0 : Fin 1) c) = x (ix1 c) :=
  shapeCast_apply x shapeCasts_S128_S1x128 (ix2 (0 : Fin 1) c) (ix1 c)
    (by rewrite [Shape.rowMajor_val_one, Shape.rowMajor_val_two]; show c.val = 0 * 128 + c.val; omega)

/-- A square matrix of side 8192 flattened row by row, read at `j`: the entry in row `j / 8192`, column `j % 8192`. -/
theorem flat_at (x : FVec Ideal S8192x8192 .f32) (j : Fin 67108864) :
    shapeCast S67108864 x shapeCasts_S8192x8192_S67108864 (ix1 j)
      = x (ix2 (⟨j.val / 8192, Nat.div_lt_of_lt_mul j.isLt⟩ : Fin 8192) (⟨j.val % 8192, Nat.mod_lt _ (by decide)⟩ : Fin 8192)) :=
  shapeCast_apply x shapeCasts_S8192x8192_S67108864 (ix1 j) _
    (by rewrite [Shape.rowMajor_val_two, Shape.rowMajor_val_one]; show j.val / 8192 * 8192 + j.val % 8192 = j.val; omega)

variable (m : (ℓ : Loc nD τ sig) → Buf (Elt Ideal) ℓ)

/-- After the first host stretch `main_v0` holds `feature · W1`, -/
theorem W1_v0 (c : Dev nD) : (W1 m c main_v0 : S8192x256.Idx → EReal)
    = Host.dotGeneral (F := Ideal) (φ₁ := .f32) (φ₂ := .f32) dot_S8192x512_S512x256_S8192x256_1_0_0_1_n_n none
        (m ((c : Thread nD τ).loc main_arg1)) (m ((c : Thread nD τ).loc main_arg2)) := by
  show StableHlo.after hostOps0 (W0 m c) (Proc.devRef .tc main_v0) = _
  after_results

/-- and `main_v1` the first bias as a row. -/
theorem W1_v1 (c : Dev nD) : (W1 m c main_v1 : S1x256.Idx → EReal)
    = shapeCast S1x256 (m ((c : Thread nD τ).loc main_arg3) : FVec Ideal S256 .f32) shapeCasts_S256_S1x256 := by
  show StableHlo.after hostOps0 (W0 m c) (Proc.devRef .tc main_v1) = _
  after_results
  rfl

/-- After the second host stretch `main_v3` holds the first layer's result times `W2`, -/
theorem W3_v3 (c : Dev nD) : (W3 m c main_v3 : S8192x128.Idx → EReal)
    = Host.dotGeneral (F := Ideal) (φ₁ := .f32) (φ₂ := .f32) dot_S8192x256_S256x128_S8192x128_1_0_0_1_n_n none
        (W2 m c main_v2) (W2 m c main_arg4) := by
  show StableHlo.after hostOps1 (W2 m c) (Proc.devRef .tc main_v3) = _
  after_results

/-- and `main_v4` the second bias as a row. -/
theorem W3_v4 (c : Dev nD) : (W3 m c main_v4 : S1x128.Idx → EReal)
    = shapeCast S1x128 (W2 m c main_arg5 : FVec Ideal S128 .f32) shapeCasts_S128_S1x128 := by
  show StableHlo.after hostOps1 (W2 m c) (Proc.devRef .tc main_v4) = _
  after_results
  rfl

/-- After the last host stretch `main_v7` holds the scores flattened. -/
theorem W6_v7 (c : Dev nD) : (W6 m c main_v7 : S67108864.Idx → EReal)
    = shapeCast S67108864 (W5 m c main_v6 : FVec Ideal S8192x8192 .f32) shapeCasts_S8192x8192_S67108864 := by
  show StableHlo.after hostOps3 (W5 m c) (Proc.devRef .tc main_v7) = _
  after_results
  rfl

end Cert.KernelIdeal.Gen

end
-- ==== Proof.IdealPay0.lean ====
/-
  The arithmetic of one adjacency layer's body at one entry.

  At a grid point the body multiplies a 1024 × 2048 block a of the adjacency matrix by 2048 rows x of the dense
  operand (256 columns) into the zero accumulator and adds the product to the block acc held in the output's buffer:
  entry (p, q) becomes acc[p,q] + Σ_k a[p,k] · x[k,q]. The reset block is zero everywhere; the finishing step adds the
  bias row b[0,q] and takes the maximum with zero. On extended reals the narrowings to bf16 and the reshapes to the same shape are the identity.
-/
import proofs.«158142_j13039520711025_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Final

open Cert.KernelIdeal Cert.KernelIdeal.Gen Idealize.ShloMosaic Idealize.ShloMosaic.TcCoe Idealize.ShloMosaic.ValueIdx

/-- The layer's product: the block's columns against the dense operand's rows. -/
abbrev adjDot0 : DotDims S1024x2048 S2048x256 S1024x256 := dot_S1024x2048_S2048x256_S1024x256_1_0_0_1_n_n

/-- The left operand is read at the output's row … -/
theorem adj0_lhs_0 (i : S1024x256.Idx) (q : adjDot0.contr.Idx) : (adjDot0.lhsIdx i q 0).val = (i 0).val := by
  unfold DotDims.lhsIdx
  rw [dif_neg (show ¬(0 : Fin S1024x2048.rank) ∈ adjDot0.lhsBatch by decide), dif_pos (show (0 : Fin S1024x2048.rank) ∈ adjDot0.lhsNonContracting by decide)]
  rfl
/-- … and the contracted position; -/
theorem adj0_lhs_1 (i : S1024x256.Idx) (q : adjDot0.contr.Idx) : (adjDot0.lhsIdx i q 1).val = (q ⟨0, by decide⟩).val :=
  adjDot0.lhsIdx_val_of_single rfl i q
/-- the right operand at the contracted position … -/
theorem adj0_rhs_0 (i : S1024x256.Idx) (q : adjDot0.contr.Idx) : (adjDot0.rhsIdx i q 0).val = (q ⟨0, by decide⟩).val :=
  adjDot0.rhsIdx_val_of_single rfl i q
/-- … and the output's column. -/
theorem adj0_rhs_1 (i : S1024x256.Idx) (q : adjDot0.contr.Idx) : (adjDot0.rhsIdx i q 1).val = (i 1).val := by
  unfold DotDims.rhsIdx
  rw [dif_neg (show ¬(1 : Fin S2048x256.rank) ∈ adjDot0.rhsBatch by decide), dif_pos (show (1 : Fin S2048x256.rank) ∈ adjDot0.rhsNonContracting by decide)]
  rfl

/-- The reset block is zero at every entry: the word 0x00000000 denotes 0. -/
theorem k0_pay1_at (p : Fin 1024) (q : Fin 256) : k0_pay1 (F := Ideal) (ix2 p q) = 0 := by
  unfold k0_pay1
  exact Ideal.ofBits_zero_f32

/-- One accumulation step at row p, column q: what was there plus Σ_k a[p,k] · x[k,q]. -/
theorem k0_pay2_at (a : Vec Ideal S1024x2048 .f32) (x : Vec Ideal S2048x256 .f32) (acc : Vec Ideal S1024x256 .f32)
    (p : Fin 1024) (q : Fin 256) :
    k0_pay2 (F := Ideal) a x acc (ix2 p q) = acc (ix2 p q) + ∑ k : Fin 2048, a (ix2 p k) * x (ix2 k q) := by
  unfold k0_pay2
  rw [addf_apply, shapeCast_self]
  refine congrArg (fun s : EReal => acc (ix2 p q) + s) ?_
  refine (Ideal.matmul_constant_zero_apply adjDot0 none _ _ (ix2 p q)).trans ?_
  rw [← Equiv.sum_comp (contrEquiv1 adjDot0 2048 rfl rfl).symm]
  refine Finset.sum_congr rfl fun k _ => ?_
  have hk := contrEquiv1_symm_val adjDot0 2048 rfl rfl k
  have el : adjDot0.lhsIdx (ix2 p q) ((contrEquiv1 adjDot0 2048 rfl rfl).symm k) = ix2 p k := funext fun z => Fin.ext (by
    match z with
    | ⟨0, _⟩ => exact adj0_lhs_0 _ _
    | ⟨1, _⟩ => exact (adj0_lhs_1 _ _).trans hk)
  have er : adjDot0.rhsIdx (ix2 p q) ((contrEquiv1 adjDot0 2048 rfl rfl).symm k) = ix2 k q := funext fun z => Fin.ext (by
    match z with
    | ⟨0, _⟩ => exact (adj0_rhs_0 _ _).trans hk
    | ⟨1, _⟩ => exact adj0_rhs_1 _ _)
  rw [el, er, truncf_apply, truncf_apply, shapeCast_self]

/-- The finishing step at row p, column q: the bias of column q is added and the result clamped below at zero. -/
theorem k0_pay3_at (v : Vec Ideal S1024x256 .f32) (b : Vec Ideal S1x256 .f32) (p : Fin 1024) (q : Fin 256) :
    k0_pay3 (F := Ideal) v b (ix2 p q) = max (v (ix2 p q) + b (ix2 (0 : Fin 1) q)) 0 := by
  unfold k0_pay3
  rw [maximumf_apply, addf_apply, shapeCast_self, shapeCast_self, broadcastTo_1b_ab_apply, broadcast_apply]
  exact congrArg (fun s : EReal => max (v (ix2 p q) + b (ix2 (0 : Fin 1) q)) s) Ideal.ofBits_zero_f32

end Cert.KernelIdeal.Final

end
-- ==== Proof.IdealRuns.lean ====
/-
  The contracted axis of an adjacency layer has 8192 positions and is met in four runs of 2048: position 2048·j + k
  is position k of run j. A sum over the 8192 positions is the sum of the four runs' sums; rows are met in eight
  blocks of 1024 in the same way.
-/
import Mathlib.Algebra.BigOperators.Fin
import Mathlib.Algebra.BigOperators.Intervals

namespace Cert.KernelIdeal.Final

/-- Position k of run j (of four) of the contracted axis. -/
def colAt (j : ℕ) (hj : j < 4) (k : Fin 2048) : Fin 8192 := ⟨2048 * j + k.val, by have := k.isLt; omega⟩

/-- Row p of row block i (of eight). -/
def rowAt (i : ℕ) (hi : i < 8) (p : Fin 1024) : Fin 8192 := ⟨1024 * i + p.val, by have := p.isLt; omega⟩

theorem colAt_val (j : ℕ) (hj : j < 4) (k : Fin 2048) : (colAt j hj k).val = 2048 * j + k.val := rfl
theorem rowAt_val (i : ℕ) (hi : i < 8) (p : Fin 1024) : (rowAt i hi p).val = 1024 * i + p.val := rfl

/-- A sum over the 8192 positions is the sum over the four runs of 2048. -/
theorem sum_four_runs {M : Type*} [AddCommMonoid M] (f : Fin 8192 → M) :
    ∑ k : Fin 8192, f k
      = ∑ k : Fin 2048, f (colAt 0 (by decide) k) + ∑ k : Fin 2048, f (colAt 1 (by decide) k)
        + ∑ k : Fin 2048, f (colAt 2 (by decide) k) + ∑ k : Fin 2048, f (colAt 3 (by decide) k) := by
  -- the same sums over the natural numbers below 8192, where a range splits at 2048, 4096 and 6144
  let g : ℕ → M := fun k => if h : k < 8192 then f ⟨k, h⟩ else 0
  have hg : ∀ k : Fin 8192, f k = g k.val := fun k => by
    show f k = if h : k.val < 8192 then f ⟨k.val, h⟩ else 0
    rw [dif_pos k.isLt]
  have hrun : ∀ (j : ℕ) (hj : j < 4), ∑ k : Fin 2048, f (colAt j hj k) = ∑ k ∈ Finset.range 2048, g (2048 * j + k) := fun j hj => by
    rw [← Fin.sum_univ_eq_sum_range (fun k => g (2048 * j + k)) 2048]
    exact Finset.sum_congr rfl fun k _ => hg (colAt j hj k)
  rw [Finset.sum_congr rfl fun k _ => hg k, Fin.sum_univ_eq_sum_range g 8192, hrun 0, hrun 1, hrun 2, hrun 3,
    show (8192 : ℕ) = 2048 + 2048 + 2048 + 2048 from rfl, Finset.sum_range_add, Finset.sum_range_add, Finset.sum_range_add]
  simp only [Nat.mul_zero, Nat.zero_add, Nat.mul_one, show (2048 : ℕ) * 2 = 2048 + 2048 from rfl,
    show (2048 : ℕ) * 3 = 2048 + 2048 + 2048 from rfl]

end Cert.KernelIdeal.Final
-- ==== Proof.IdealFinal0.lean ====
/-
  The first adjacency layer's result array, entry by entry.

  The grid has 8 × 4 points, walked row by row: point t has coordinates (t / 4, t % 4). At point t the body reads
  block (t/4, t%4) of the adjacency matrix (1024 rows, 2048 columns), rows 2048·(t%4) … 2048·(t%4)+2047 of the dense
  operand (staged whole) and the bias row, and the output's block t/4 (1024 rows) stays in its buffer along the four
  points of a row of the grid: reset to zero and the first product added at t%4 = 0, a product added at t%4 = 1, 2,
  and at t%4 = 3 the last product added, the bias added, the result clamped below at zero and the block written back. So the block written back
  at point n+3 (n a multiple of 4) holds at row p, column q
      max (Σ_{j<4} Σ_{k<2048} adj[1024·(n/4)+p, 2048·j+k] · X[2048·j+k, q] + b[0,q], 0),
  and the four runs of 2048 are the whole contracted axis: this is block n/4 of ONE function of the three arrays.
  Every row r of the result lies in the block written back at point 4·(r/1024)+3.
-/
import proofs.«158142_j13039520711025_2_alg».proof.Proof.IdealRegions
import proofs.«158142_j13039520711025_2_alg».proof.Proof.IdealPay0
import proofs.«158142_j13039520711025_2_alg».proof.Proof.IdealRuns
import Idealize.ShloMosaic.Lib.Pipeline.Value

noncomputable section

namespace Cert.KernelIdeal.Final

open Cert.KernelIdeal Cert.KernelIdeal.Gen Idealize.ShloMosaic Idealize.ShloMosaic.TcCoe Idealize.ShloMosaic.ValueIdx
open Idealize.SL.Sem
open Idealize.ShloMosaic.Pipeline (Dat)

/-- The layer as one function of the adjacency matrix A, the dense operand X and the bias row b. -/
def layer0Of (A : S8192x8192.Idx → EReal) (X : S8192x256.Idx → EReal) (b : S1x256.Idx → EReal) : S8192x256.Idx → EReal :=
  fun j => max ((∑ k : Fin 8192, A (ix2 (j 0) k) * X (ix2 k (j 1))) + b (ix2 (0 : Fin 1) (j 1))) 0

theorem layer0Of_apply (A : S8192x8192.Idx → EReal) (X : S8192x256.Idx → EReal) (b : S1x256.Idx → EReal) (j : S8192x256.Idx) :
    layer0Of A X b j = max ((∑ k : Fin 8192, A (ix2 (j 0) k) * X (ix2 k (j 1))) + b (ix2 (0 : Fin 1) (j 1))) 0 := rfl

/-- The grid's walk and the index maps, decided once over the 32 points: the adjacency's block index at point t is
    (t / 4, t % 4), the output's (t / 4, 0); the dense operand and the bias are staged whole; the body's row offset
    into the dense operand is 2048·(t % 4). -/
theorem idx_facts0 : ∀ t : Fin cfg0.N,
    win0_0.index t (0 : Fin 2) = t.val / 4 ∧ win0_0.index t (1 : Fin 2) = t.val % 4
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val / 4 ∧ win0_3.index t (1 : Fin 2) = 0
    ∧ k0_off1 (grid0.coords t) (0 : Fin 2) = 2048 * (t.val % 4) ∧ k0_off1 (grid0.coords t) (1 : Fin 2) = 0 :=
  (by decide +kernel : ∀ t : Fin grid0.N, _)

/-! ## The windows' blocks as functions of the arrays -/

/-- The adjacency's block at a point of row block i, column run j: entry (p, k) is adj[1024·i + p, 2048·j + k]. -/
theorem rdAdj0_eq (A : S8192x8192.Idx → EReal) (t : Fin cfg0.N) (i j : ℕ) (hi : i < 8) (hj : j < 4)
    (hti : t.val / 4 = i) (htj : t.val % 4 = j) :
    (((cfg0.win 0).blk t).view.read (Elt Ideal) A : Vec Ideal S1024x2048 .f32)
      = fun y => A (ix2 (rowAt i hi (y 0)) (colAt j hj (y 1))) := by
  obtain ⟨e0, e1, -⟩ := idx_facts0 t
  funext y
  show A (((cfg0.win 0).blk t).view.emb y) = _
  refine congrArg A (funext fun a => Fin.ext ?_)
  match a with
  | ⟨0, _⟩ =>
    show win0_0.index t (0 : Fin 2) * 1024 + 1 * (y 0).val = 1024 * i + (y 0).val
    rw [e0, hti]; omega
  | ⟨1, _⟩ =>
    show win0_0.index t (1 : Fin 2) * 2048 + 1 * (y 1).val = 2048 * j + (y 1).val
    rw [e1, htj]; omega

/-- The rows of the dense operand the body reads at a point of column run j: entry (k, q) is X[2048·j + k, q]. -/
theorem rdX0_eq (X : S8192x256.Idx → EReal) (t : Fin cfg0.N) (j : ℕ) (hj : j < 4) (htj : t.val % 4 = j) :
    (View.ld (((cfg0.win 1).blk t).view.read (Elt Ideal) X) (rdX0 (grid0.coords t)) : Vec Ideal S2048x256 .f32)
      = fun y => X (ix2 (colAt j hj (y 0)) (y 1)) := by
  obtain ⟨-, -, a0, a1, -, -, -, -, o0, o1⟩ := idx_facts0 t
  funext y
  show X (((cfg0.win 1).blk t).view.emb ((rdX0 (grid0.coords t)).idx y)) = _
  refine congrArg X (funext fun a => Fin.ext ?_)
  match a with
  | ⟨0, _⟩ =>
    show win0_1.index t (0 : Fin 2) * 8192 + 1 * (k0_off1 (grid0.coords t) (0 : Fin 2) + 1 * (y 0).val) = 2048 * j + (y 0).val
    rw [a0, o0, htj]; omega
  | ⟨1, _⟩ =>
    show win0_1.index t (1 : Fin 2) * 256 + 1 * (k0_off1 (grid0.coords t) (1 : Fin 2) + 1 * (y 1).val) = (y 1).val
    rw [a1, o1]; omega

/-- The bias window's block is the bias row itself. -/
theorem rdB0_eq (b : S1x256.Idx → EReal) (t : Fin cfg0.N) :
    (((cfg0.win 2).blk t).view.read (Elt Ideal) b : Vec Ideal S1x256 .f32) = b := by
  obtain ⟨-, -, -, -, b0, b1, -⟩ := idx_facts0 t
  funext y
  show b (((cfg0.win 2).blk t).view.emb y) = b y
  refine congrArg b (funext fun a => Fin.ext ?_)
  match a with
  | ⟨0, _⟩ =>
    show win0_2.index t (0 : Fin 2) * 1 + 1 * (y 0).val = (y 0).val
    rw [b0]; omega
  | ⟨1, _⟩ =>
    show win0_2.index t (1 : Fin 2) * 256 + 1 * (y 1).val = (y 1).val
    rw [b1]; omega

/-- The output's block at a point of row block i, read off a whole array G: entry (p, q) is G[1024·i + p, q]. -/
theorem rdOut0_eq (G : S8192x256.Idx → EReal) (t : Fin cfg0.N) (i : ℕ) (hi : i < 8) (hti : t.val / 4 = i) :
    (((cfg0.win 3).blk t).view.read (Elt Ideal) G : Vec Ideal S1024x256 .f32)
      = fun y => G (ix2 (rowAt i hi (y 0)) (y 1)) := by
  obtain ⟨-, -, -, -, -, -, c0, c1, -⟩ := idx_facts0 t
  funext y
  show G (((cfg0.win 3).blk t).view.emb y) = _
  refine congrArg G (funext fun a => Fin.ext ?_)
  match a with
  | ⟨0, _⟩ =>
    show win0_3.index t (0 : Fin 2) * 1024 + 1 * (y 0).val = 1024 * i + (y 0).val
    rw [c0, hti]; omega
  | ⟨1, _⟩ =>
    show win0_3.index t (1 : Fin 2) * 256 + 1 * (y 1).val = (y 1).val
    rw [c1]; omega

/-! ## The four steps of a row of the grid, at one entry -/

/-- Reset, four accumulation steps and the finishing step, at row p, column q: the four products' sums, the bias, the clamp. -/
theorem chain0_at (a0 a1 a2 a3 : Vec Ideal S1024x2048 .f32) (x0 x1 x2 x3 : Vec Ideal S2048x256 .f32) (b : Vec Ideal S1x256 .f32)
    (p : Fin 1024) (q : Fin 256) :
    k0_pay3 (F := Ideal) (k0_pay2 a3 x3 (k0_pay2 a2 x2 (k0_pay2 a1 x1 (k0_pay2 a0 x0 (k0_pay1 (F := Ideal)))))) b (ix2 p q)
      = max ((∑ k : Fin 2048, a0 (ix2 p k) * x0 (ix2 k q)) + (∑ k : Fin 2048, a1 (ix2 p k) * x1 (ix2 k q)) + (∑ k : Fin 2048, a2 (ix2 p k) * x2 (ix2 k q)) + (∑ k : Fin 2048, a3 (ix2 p k) * x3 (ix2 k q)) + b (ix2 (0 : Fin 1) q)) 0 := by
  rw [k0_pay3_at, k0_pay2_at, k0_pay2_at, k0_pay2_at, k0_pay2_at, k0_pay1_at, zero_add]

/-- The block a row of the grid leaves, over arrays A, X, b: block n/4 of the layer of A, X, b. -/
theorem block0_eq (A : S8192x8192.Idx → EReal) (X : S8192x256.Idx → EReal) (b : S1x256.Idx → EReal)
    (n : ℕ) (h0 : n < cfg0.N) (h1 : n + 1 < cfg0.N) (h2 : n + 2 < cfg0.N) (h3 : n + 3 < cfg0.N) (hmod : n % 4 = 0) :
    k0_pay3 (F := Ideal)
        (k0_pay2 (((cfg0.win 0).blk ⟨n + 3, h3⟩).view.read (Elt Ideal) A) (View.ld (((cfg0.win 1).blk ⟨n + 3, h3⟩).view.read (Elt Ideal) X) (rdX0 (grid0.coords ⟨n + 3, h3⟩)))
        (k0_pay2 (((cfg0.win 0).blk ⟨n + 2, h2⟩).view.read (Elt Ideal) A) (View.ld (((cfg0.win 1).blk ⟨n + 2, h2⟩).view.read (Elt Ideal) X) (rdX0 (grid0.coords ⟨n + 2, h2⟩)))
        (k0_pay2 (((cfg0.win 0).blk ⟨n + 1, h1⟩).view.read (Elt Ideal) A) (View.ld (((cfg0.win 1).blk ⟨n + 1, h1⟩).view.read (Elt Ideal) X) (rdX0 (grid0.coords ⟨n + 1, h1⟩)))
        (k0_pay2 (((cfg0.win 0).blk ⟨n, h0⟩).view.read (Elt Ideal) A) (View.ld (((cfg0.win 1).blk ⟨n, h0⟩).view.read (Elt Ideal) X) (rdX0 (grid0.coords ⟨n, h0⟩)))
          (k0_pay1 (F := Ideal))))))
        (((cfg0.win 2).blk ⟨n + 3, h3⟩).view.read (Elt Ideal) b)
      = ((cfg0.win 3).blk ⟨n + 3, h3⟩).view.read (Elt Ideal) (layer0Of A X b) := by
  have hN : cfg0.N = 32 := N_0
  have hi : n / 4 < 8 := by omega
  rw [rdAdj0_eq A ⟨n + 3, h3⟩ (n / 4) 3 hi (by decide) (by dsimp only; omega) (by dsimp only; omega),
    rdAdj0_eq A ⟨n + 2, h2⟩ (n / 4) 2 hi (by decide) (by dsimp only; omega) (by dsimp only; omega),
    rdAdj0_eq A ⟨n + 1, h1⟩ (n / 4) 1 hi (by decide) (by dsimp only; omega) (by dsimp only; omega),
    rdAdj0_eq A ⟨n, h0⟩ (n / 4) 0 hi (by decide) (by dsimp only) (by dsimp only; omega),
    rdX0_eq X ⟨n + 3, h3⟩ 3 (by decide) (by dsimp only; omega),
    rdX0_eq X ⟨n + 2, h2⟩ 2 (by decide) (by dsimp only; omega),
    rdX0_eq X ⟨n + 1, h1⟩ 1 (by decide) (by dsimp only; omega),
    rdX0_eq X ⟨n, h0⟩ 0 (by decide) (by dsimp only; omega),
    rdB0_eq b ⟨n + 3, h3⟩,
    rdOut0_eq (layer0Of A X b) ⟨n + 3, h3⟩ (n / 4) hi (by dsimp only; omega)]
  funext y
  obtain ⟨p, q, rfl⟩ : ∃ (p : Fin 1024) (q : Fin 256), y = ix2 p q := ⟨y 0, y 1, eq_ix2 y⟩
  rw [chain0_at]
  show _ = max ((∑ k : Fin 8192, A (ix2 (rowAt (n / 4) hi p) k) * X (ix2 k q)) + b (ix2 (0 : Fin 1) q)) 0
  rw [sum_four_runs (fun k => A (ix2 (rowAt (n / 4) hi p) k) * X (ix2 k q))]
  rfl

section
variable (V : (c : Dev nD) → (b : Ref sig .tc) → Buf (Elt Ideal) ((c : Thread nD τ).loc b))

/-- What the output's buffer holds after the last point of a row of the grid: the four steps unrolled. -/
theorem acc0_run (c : Dev nD) (n : ℕ) (h0 : n < cfg0.N) (h1 : n + 1 < cfg0.N) (h2 : n + 2 < cfg0.N) (h3 : n + 3 < cfg0.N)
    (hmod : n % 4 = 0) :
    acc0 V c (n + 3) h3
      = k0_pay3 (k0_pay2 (blk0 V c 0 ⟨n + 3, h3⟩) (View.ld (blk0 V c 1 ⟨n + 3, h3⟩) (rdX0 (grid0.coords ⟨n + 3, h3⟩)))
          (k0_pay2 (blk0 V c 0 ⟨n + 2, h2⟩) (View.ld (blk0 V c 1 ⟨n + 2, h2⟩) (rdX0 (grid0.coords ⟨n + 2, h2⟩)))
          (k0_pay2 (blk0 V c 0 ⟨n + 1, h1⟩) (View.ld (blk0 V c 1 ⟨n + 1, h1⟩) (rdX0 (grid0.coords ⟨n + 1, h1⟩)))
          (k0_pay2 (blk0 V c 0 ⟨n, h0⟩) (View.ld (blk0 V c 1 ⟨n, h0⟩) (rdX0 (grid0.coords ⟨n, h0⟩))) (k0_pay1 (F := Ideal))))))
          (blk0 V c 2 ⟨n + 3, h3⟩) := by
  have m10 : ¬(n + 1) % 4 = 0 := by omega
  have m13 : ¬(n + 1) % 4 = 3 := by omega
  have m20 : ¬(n + 1 + 1) % 4 = 0 := by omega
  have m23 : ¬(n + 1 + 1) % 4 = 3 := by omega
  have m30 : ¬(n + 2 + 1) % 4 = 0 := by omega
  have m33 : (n + 2 + 1) % 4 = 3 := by omega
  have e0 : acc0 V c n h0 = k0_pay2 (blk0 V c 0 ⟨n, h0⟩) (View.ld (blk0 V c 1 ⟨n, h0⟩) (rdX0 (grid0.coords ⟨n, h0⟩))) (k0_pay1 (F := Ideal)) :=
    acc0_first V c ⟨n, h0⟩ hmod
  have e1 : acc0 V c (n + 1) h1 = k0_pay2 (blk0 V c 0 ⟨n + 1, h1⟩) (View.ld (blk0 V c 1 ⟨n + 1, h1⟩) (rdX0 (grid0.coords ⟨n + 1, h1⟩))) (acc0 V c n h0) :=
    (if_neg m10).trans (if_neg m13)
  have e2 : acc0 V c (n + 2) h2 = k0_pay2 (blk0 V c 0 ⟨n + 2, h2⟩) (View.ld (blk0 V c 1 ⟨n + 2, h2⟩) (rdX0 (grid0.coords ⟨n + 2, h2⟩))) (acc0 V c (n + 1) h1) :=
    (if_neg m20).trans (if_neg m23)
  have e3 : acc0 V c (n + 3) h3 = k0_pay3 (k0_pay2 (blk0 V c 0 ⟨n + 3, h3⟩) (View.ld (blk0 V c 1 ⟨n + 3, h3⟩) (rdX0 (grid0.coords ⟨n + 3, h3⟩))) (acc0 V c (n + 2) h2)) (blk0 V c 2 ⟨n + 3, h3⟩) :=
    (if_neg m30).trans (if_pos m33)
  rw [e3, e2, e1, e0]

/-- What a last point writes back is its block of the layer of the arrays the region is entered with. -/
theorem flushed0_eq (c : Dev nD) (t : Fin cfg0.N) (hf : (cfg0.win 3).flush t = true) :
    (dat0 V c).flushed 3 t
      = ((cfg0.win 3).blk t).view.read (Elt Ideal) (layer0Of (V c main_arg0) (V c main_v0) (V c main_v1)) := by
  have hN : cfg0.N = 32 := N_0
  have hm : t.val % 4 = 3 := (flush0_3 t).mp hf
  obtain ⟨tv, ht⟩ := t
  obtain ⟨n, rfl⟩ : ∃ n, tv = n + 3 := ⟨tv - 3, by dsimp only at hm; omega⟩
  have hmod : n % 4 = 0 := by dsimp only at hm; omega
  show (cfg0.win 3).cut (grid0.coords ⟨n + 3, ht⟩) ((dat0 V c).after 3 ⟨n + 3, ht⟩) = _
  rw [after0_3]
  show acc0 V c (n + 3) ht = _
  rw [acc0_run V c n (by omega) (by omega) (by omega) ht hmod]
  exact block0_eq (V c main_arg0) (V c main_v0) (V c main_v1) n (by omega) (by omega) (by omega) ht hmod

/-- An entry of the result lies in point t's block when each coordinate lies in the block's range on its axis. -/
theorem mem_blk0 (t : Fin cfg0.N) (i : S8192x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v2).slice (win0_3.rect t)).set ↔ _
  rw [View.set_slice_whole, Rect.mem_set_unit]
  exact Iff.rfl

/-- Row r lies in the block written back at point 4·(r / 1024) + 3. -/
theorem cover0 (i : S8192x256.Idx) :
    ∃ t : Fin cfg0.N, (cfg0.win 3).flush t = true ∧ i ∈ ((cfg0.win 3).blk t).view.set := by
  have h0 : (i 0).val < 8192 := (i 0).isLt
  have h1 : (i 1).val < 256 := (i 1).isLt
  have hN : cfg0.N = 32 := N_0
  have hlt : 4 * ((i 0).val / 1024) + 3 < cfg0.N := by rw [hN]; omega
  refine ⟨⟨4 * ((i 0).val / 1024) + 3, hlt⟩, (flush0_3 _).mpr (by dsimp only; omega), ?_⟩
  rw [mem_blk0]
  obtain ⟨-, -, -, -, -, -, c0, c1, -⟩ := idx_facts0 ⟨4 * ((i 0).val / 1024) + 3, hlt⟩
  intro a
  match a with
  | ⟨0, _⟩ =>
    show win0_3.index _ (0 : Fin 2) * 1024 ≤ (i 0).val ∧ (i 0).val < win0_3.index _ (0 : Fin 2) * 1024 + 1024
    rw [c0]; dsimp only; omega
  | ⟨1, _⟩ =>
    show win0_3.index _ (1 : Fin 2) * 256 ≤ (i 1).val ∧ (i 1).val < win0_3.index _ (1 : Fin 2) * 256 + 256
    rw [c1]; omega

/-- THE LAYER'S RESULT: after the region the result array holds the layer of the three arrays the region was
    entered with: at (r, q), max (Σ_k adj[r,k] · X[k,q] + b[0,q], 0) with k over all 8192 positions. -/
theorem final0 (c : Dev nD) :
    (dat0 V c).arrAt 3 cfg0.N = layer0Of (V c main_arg0) (V c main_v0) (V c main_v1) :=
  (dat0 V c).arrAt_eq_of_cover 3 (layer0Of (V c main_arg0) (V c main_v0) (V c main_v1)) (flushed0_eq V c) cover0

end

end Cert.KernelIdeal.Final

end
-- ==== Proof.IdealPay1.lean ====
/-
  The arithmetic of one adjacency layer's body at one entry.

  At a grid point the body multiplies a 1024 × 2048 block a of the adjacency matrix by 2048 rows x of the dense
  operand (128 columns) into the zero accumulator and adds the product to the block acc held in the output's buffer:
  entry (p, q) becomes acc[p,q] + Σ_k a[p,k] · x[k,q]. The reset block is zero everywhere; the finishing step adds the
  bias row b[0,q]. On extended reals the narrowings to bf16 and the reshapes to the same shape are the identity.
-/
import proofs.«158142_j13039520711025_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Final

open Cert.KernelIdeal Cert.KernelIdeal.Gen Idealize.ShloMosaic Idealize.ShloMosaic.TcCoe Idealize.ShloMosaic.ValueIdx

/-- The layer's product: the block's columns against the dense operand's rows. -/
abbrev adjDot1 : DotDims S1024x2048 S2048x128 S1024x128 := dot_S1024x2048_S2048x128_S1024x128_1_0_0_1_n_n

/-- The left operand is read at the output's row … -/
theorem adj1_lhs_0 (i : S1024x128.Idx) (q : adjDot1.contr.Idx) : (adjDot1.lhsIdx i q 0).val = (i 0).val := by
  unfold DotDims.lhsIdx
  rw [dif_neg (show ¬(0 : Fin S1024x2048.rank) ∈ adjDot1.lhsBatch by decide), dif_pos (show (0 : Fin S1024x2048.rank) ∈ adjDot1.lhsNonContracting by decide)]
  rfl
/-- … and the contracted position; -/
theorem adj1_lhs_1 (i : S1024x128.Idx) (q : adjDot1.contr.Idx) : (adjDot1.lhsIdx i q 1).val = (q ⟨0, by decide⟩).val :=
  adjDot1.lhsIdx_val_of_single rfl i q
/-- the right operand at the contracted position … -/
theorem adj1_rhs_0 (i : S1024x128.Idx) (q : adjDot1.contr.Idx) : (adjDot1.rhsIdx i q 0).val = (q ⟨0, by decide⟩).val :=
  adjDot1.rhsIdx_val_of_single rfl i q
/-- … and the output's column. -/
theorem adj1_rhs_1 (i : S1024x128.Idx) (q : adjDot1.contr.Idx) : (adjDot1.rhsIdx i q 1).val = (i 1).val := by
  unfold DotDims.rhsIdx
  rw [dif_neg (show ¬(1 : Fin S2048x128.rank) ∈ adjDot1.rhsBatch by decide), dif_pos (show (1 : Fin S2048x128.rank) ∈ adjDot1.rhsNonContracting by decide)]
  rfl

/-- The reset block is zero at every entry: the word 0x00000000 denotes 0. -/
theorem k1_pay1_at (p : Fin 1024) (q : Fin 128) : k1_pay1 (F := Ideal) (ix2 p q) = 0 := by
  unfold k1_pay1
  exact Ideal.ofBits_zero_f32

/-- One accumulation step at row p, column q: what was there plus Σ_k a[p,k] · x[k,q]. -/
theorem k1_pay2_at (a : Vec Ideal S1024x2048 .f32) (x : Vec Ideal S2048x128 .f32) (acc : Vec Ideal S1024x128 .f32)
    (p : Fin 1024) (q : Fin 128) :
    k1_pay2 (F := Ideal) a x acc (ix2 p q) = acc (ix2 p q) + ∑ k : Fin 2048, a (ix2 p k) * x (ix2 k q) := by
  unfold k1_pay2
  rw [addf_apply, shapeCast_self]
  refine congrArg (fun s : EReal => acc (ix2 p q) + s) ?_
  refine (Ideal.matmul_constant_zero_apply adjDot1 none _ _ (ix2 p q)).trans ?_
  rw [← Equiv.sum_comp (contrEquiv1 adjDot1 2048 rfl rfl).symm]
  refine Finset.sum_congr rfl fun k _ => ?_
  have hk := contrEquiv1_symm_val adjDot1 2048 rfl rfl k
  have el : adjDot1.lhsIdx (ix2 p q) ((contrEquiv1 adjDot1 2048 rfl rfl).symm k) = ix2 p k := funext fun z => Fin.ext (by
    match z with
    | ⟨0, _⟩ => exact adj1_lhs_0 _ _
    | ⟨1, _⟩ => exact (adj1_lhs_1 _ _).trans hk)
  have er : adjDot1.rhsIdx (ix2 p q) ((contrEquiv1 adjDot1 2048 rfl rfl).symm k) = ix2 k q := funext fun z => Fin.ext (by
    match z with
    | ⟨0, _⟩ => exact (adj1_rhs_0 _ _).trans hk
    | ⟨1, _⟩ => exact adj1_rhs_1 _ _)
  rw [el, er, truncf_apply, truncf_apply, shapeCast_self]

/-- The finishing step at row p, column q: the bias of column q is added. -/
theorem k1_pay3_at (v : Vec Ideal S1024x128 .f32) (b : Vec Ideal S1x128 .f32) (p : Fin 1024) (q : Fin 128) :
    k1_pay3 (F := Ideal) v b (ix2 p q) = v (ix2 p q) + b (ix2 (0 : Fin 1) q) := by
  unfold k1_pay3
  rw [addf_apply, shapeCast_self, shapeCast_self, broadcastTo_1b_ab_apply]

end Cert.KernelIdeal.Final

end
-- ==== Proof.IdealFinal1.lean ====
/-
  The second adjacency layer's result array, entry by entry.

  The grid has 8 × 4 points, walked row by row: point t has coordinates (t / 4, t % 4). At point t the body reads
  block (t/4, t%4) of the adjacency matrix (1024 rows, 2048 columns), rows 2048·(t%4) … 2048·(t%4)+2047 of the dense
  operand (staged whole) and the bias row, and the output's block t/4 (1024 rows) stays in its buffer along the four
  points of a row of the grid: reset to zero and the first product added at t%4 = 0, a product added at t%4 = 1, 2,
  and at t%4 = 3 the last product added, the bias added and the block written back. So the block written back
  at point n+3 (n a multiple of 4) holds at row p, column q
      Σ_{j<4} Σ_{k<2048} adj[1024·(n/4)+p, 2048·j+k] · X[2048·j+k, q] + b[0,q],
  and the four runs of 2048 are the whole contracted axis: this is block n/4 of ONE function of the three arrays.
  Every row r of the result lies in the block written back at point 4·(r/1024)+3.
-/
import proofs.«158142_j13039520711025_2_alg».proof.Proof.IdealRegions
import proofs.«158142_j13039520711025_2_alg».proof.Proof.IdealPay1
import proofs.«158142_j13039520711025_2_alg».proof.Proof.IdealRuns
import Idealize.ShloMosaic.Lib.Pipeline.Value

noncomputable section

namespace Cert.KernelIdeal.Final

open Cert.KernelIdeal Cert.KernelIdeal.Gen Idealize.ShloMosaic Idealize.ShloMosaic.TcCoe Idealize.ShloMosaic.ValueIdx
open Idealize.SL.Sem
open Idealize.ShloMosaic.Pipeline (Dat)

/-- The layer as one function of the adjacency matrix A, the dense operand X and the bias row b. -/
def layer1Of (A : S8192x8192.Idx → EReal) (X : S8192x128.Idx → EReal) (b : S1x128.Idx → EReal) : S8192x128.Idx → EReal :=
  fun j => (∑ k : Fin 8192, A (ix2 (j 0) k) * X (ix2 k (j 1))) + b (ix2 (0 : Fin 1) (j 1))

theorem layer1Of_apply (A : S8192x8192.Idx → EReal) (X : S8192x128.Idx → EReal) (b : S1x128.Idx → EReal) (j : S8192x128.Idx) :
    layer1Of A X b j = (∑ k : Fin 8192, A (ix2 (j 0) k) * X (ix2 k (j 1))) + b (ix2 (0 : Fin 1) (j 1)) := rfl

/-- The grid's walk and the index maps, decided once over the 32 points: the adjacency's block index at point t is
    (t / 4, t % 4), the output's (t / 4, 0); the dense operand and the bias are staged whole; the body's row offset
    into the dense operand is 2048·(t % 4). -/
theorem idx_facts1 : ∀ t : Fin cfg1.N,
    win1_0.index t (0 : Fin 2) = t.val / 4 ∧ win1_0.index t (1 : Fin 2) = t.val % 4
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = 0
    ∧ k1_off1 (grid1.coords t) (0 : Fin 2) = 2048 * (t.val % 4) ∧ k1_off1 (grid1.coords t) (1 : Fin 2) = 0 :=
  (by decide +kernel : ∀ t : Fin grid1.N, _)

/-! ## The windows' blocks as functions of the arrays -/

/-- The adjacency's block at a point of row block i, column run j: entry (p, k) is adj[1024·i + p, 2048·j + k]. -/
theorem rdAdj1_eq (A : S8192x8192.Idx → EReal) (t : Fin cfg1.N) (i j : ℕ) (hi : i < 8) (hj : j < 4)
    (hti : t.val / 4 = i) (htj : t.val % 4 = j) :
    (((cfg1.win 0).blk t).view.read (Elt Ideal) A : Vec Ideal S1024x2048 .f32)
      = fun y => A (ix2 (rowAt i hi (y 0)) (colAt j hj (y 1))) := by
  obtain ⟨e0, e1, -⟩ := idx_facts1 t
  funext y
  show A (((cfg1.win 0).blk t).view.emb y) = _
  refine congrArg A (funext fun a => Fin.ext ?_)
  match a with
  | ⟨0, _⟩ =>
    show win1_0.index t (0 : Fin 2) * 1024 + 1 * (y 0).val = 1024 * i + (y 0).val
    rw [e0, hti]; omega
  | ⟨1, _⟩ =>
    show win1_0.index t (1 : Fin 2) * 2048 + 1 * (y 1).val = 2048 * j + (y 1).val
    rw [e1, htj]; omega

/-- The rows of the dense operand the body reads at a point of column run j: entry (k, q) is X[2048·j + k, q]. -/
theorem rdX1_eq (X : S8192x128.Idx → EReal) (t : Fin cfg1.N) (j : ℕ) (hj : j < 4) (htj : t.val % 4 = j) :
    (View.ld (((cfg1.win 1).blk t).view.read (Elt Ideal) X) (rdX1 (grid1.coords t)) : Vec Ideal S2048x128 .f32)
      = fun y => X (ix2 (colAt j hj (y 0)) (y 1)) := by
  obtain ⟨-, -, a0, a1, -, -, -, -, o0, o1⟩ := idx_facts1 t
  funext y
  show X (((cfg1.win 1).blk t).view.emb ((rdX1 (grid1.coords t)).idx y)) = _
  refine congrArg X (funext fun a => Fin.ext ?_)
  match a with
  | ⟨0, _⟩ =>
    show win1_1.index t (0 : Fin 2) * 8192 + 1 * (k1_off1 (grid1.coords t) (0 : Fin 2) + 1 * (y 0).val) = 2048 * j + (y 0).val
    rw [a0, o0, htj]; omega
  | ⟨1, _⟩ =>
    show win1_1.index t (1 : Fin 2) * 128 + 1 * (k1_off1 (grid1.coords t) (1 : Fin 2) + 1 * (y 1).val) = (y 1).val
    rw [a1, o1]; omega

/-- The bias window's block is the bias row itself. -/
theorem rdB1_eq (b : S1x128.Idx → EReal) (t : Fin cfg1.N) :
    (((cfg1.win 2).blk t).view.read (Elt Ideal) b : Vec Ideal S1x128 .f32) = b := by
  obtain ⟨-, -, -, -, b0, b1, -⟩ := idx_facts1 t
  funext y
  show b (((cfg1.win 2).blk t).view.emb y) = b y
  refine congrArg b (funext fun a => Fin.ext ?_)
  match a with
  | ⟨0, _⟩ =>
    show win1_2.index t (0 : Fin 2) * 1 + 1 * (y 0).val = (y 0).val
    rw [b0]; omega
  | ⟨1, _⟩ =>
    show win1_2.index t (1 : Fin 2) * 128 + 1 * (y 1).val = (y 1).val
    rw [b1]; omega

/-- The output's block at a point of row block i, read off a whole array G: entry (p, q) is G[1024·i + p, q]. -/
theorem rdOut1_eq (G : S8192x128.Idx → EReal) (t : Fin cfg1.N) (i : ℕ) (hi : i < 8) (hti : t.val / 4 = i) :
    (((cfg1.win 3).blk t).view.read (Elt Ideal) G : Vec Ideal S1024x128 .f32)
      = fun y => G (ix2 (rowAt i hi (y 0)) (y 1)) := by
  obtain ⟨-, -, -, -, -, -, c0, c1, -⟩ := idx_facts1 t
  funext y
  show G (((cfg1.win 3).blk t).view.emb y) = _
  refine congrArg G (funext fun a => Fin.ext ?_)
  match a with
  | ⟨0, _⟩ =>
    show win1_3.index t (0 : Fin 2) * 1024 + 1 * (y 0).val = 1024 * i + (y 0).val
    rw [c0, hti]; omega
  | ⟨1, _⟩ =>
    show win1_3.index t (1 : Fin 2) * 128 + 1 * (y 1).val = (y 1).val
    rw [c1]; omega

/-! ## The four steps of a row of the grid, at one entry -/

/-- Reset, four accumulation steps and the finishing step, at row p, column q: the four products' sums and the bias. -/
theorem chain1_at (a0 a1 a2 a3 : Vec Ideal S1024x2048 .f32) (x0 x1 x2 x3 : Vec Ideal S2048x128 .f32) (b : Vec Ideal S1x128 .f32)
    (p : Fin 1024) (q : Fin 128) :
    k1_pay3 (F := Ideal) (k1_pay2 a3 x3 (k1_pay2 a2 x2 (k1_pay2 a1 x1 (k1_pay2 a0 x0 (k1_pay1 (F := Ideal)))))) b (ix2 p q)
      = (∑ k : Fin 2048, a0 (ix2 p k) * x0 (ix2 k q)) + (∑ k : Fin 2048, a1 (ix2 p k) * x1 (ix2 k q)) + (∑ k : Fin 2048, a2 (ix2 p k) * x2 (ix2 k q)) + (∑ k : Fin 2048, a3 (ix2 p k) * x3 (ix2 k q)) + b (ix2 (0 : Fin 1) q) := by
  rw [k1_pay3_at, k1_pay2_at, k1_pay2_at, k1_pay2_at, k1_pay2_at, k1_pay1_at, zero_add]

/-- The block a row of the grid leaves, over arrays A, X, b: block n/4 of the layer of A, X, b. -/
theorem block1_eq (A : S8192x8192.Idx → EReal) (X : S8192x128.Idx → EReal) (b : S1x128.Idx → EReal)
    (n : ℕ) (h0 : n < cfg1.N) (h1 : n + 1 < cfg1.N) (h2 : n + 2 < cfg1.N) (h3 : n + 3 < cfg1.N) (hmod : n % 4 = 0) :
    k1_pay3 (F := Ideal)
        (k1_pay2 (((cfg1.win 0).blk ⟨n + 3, h3⟩).view.read (Elt Ideal) A) (View.ld (((cfg1.win 1).blk ⟨n + 3, h3⟩).view.read (Elt Ideal) X) (rdX1 (grid1.coords ⟨n + 3, h3⟩)))
        (k1_pay2 (((cfg1.win 0).blk ⟨n + 2, h2⟩).view.read (Elt Ideal) A) (View.ld (((cfg1.win 1).blk ⟨n + 2, h2⟩).view.read (Elt Ideal) X) (rdX1 (grid1.coords ⟨n + 2, h2⟩)))
        (k1_pay2 (((cfg1.win 0).blk ⟨n + 1, h1⟩).view.read (Elt Ideal) A) (View.ld (((cfg1.win 1).blk ⟨n + 1, h1⟩).view.read (Elt Ideal) X) (rdX1 (grid1.coords ⟨n + 1, h1⟩)))
        (k1_pay2 (((cfg1.win 0).blk ⟨n, h0⟩).view.read (Elt Ideal) A) (View.ld (((cfg1.win 1).blk ⟨n, h0⟩).view.read (Elt Ideal) X) (rdX1 (grid1.coords ⟨n, h0⟩)))
          (k1_pay1 (F := Ideal))))))
        (((cfg1.win 2).blk ⟨n + 3, h3⟩).view.read (Elt Ideal) b)
      = ((cfg1.win 3).blk ⟨n + 3, h3⟩).view.read (Elt Ideal) (layer1Of A X b) := by
  have hN : cfg1.N = 32 := N_1
  have hi : n / 4 < 8 := by omega
  rw [rdAdj1_eq A ⟨n + 3, h3⟩ (n / 4) 3 hi (by decide) (by dsimp only; omega) (by dsimp only; omega),
    rdAdj1_eq A ⟨n + 2, h2⟩ (n / 4) 2 hi (by decide) (by dsimp only; omega) (by dsimp only; omega),
    rdAdj1_eq A ⟨n + 1, h1⟩ (n / 4) 1 hi (by decide) (by dsimp only; omega) (by dsimp only; omega),
    rdAdj1_eq A ⟨n, h0⟩ (n / 4) 0 hi (by decide) (by dsimp only) (by dsimp only; omega),
    rdX1_eq X ⟨n + 3, h3⟩ 3 (by decide) (by dsimp only; omega),
    rdX1_eq X ⟨n + 2, h2⟩ 2 (by decide) (by dsimp only; omega),
    rdX1_eq X ⟨n + 1, h1⟩ 1 (by decide) (by dsimp only; omega),
    rdX1_eq X ⟨n, h0⟩ 0 (by decide) (by dsimp only; omega),
    rdB1_eq b ⟨n + 3, h3⟩,
    rdOut1_eq (layer1Of A X b) ⟨n + 3, h3⟩ (n / 4) hi (by dsimp only; omega)]
  funext y
  obtain ⟨p, q, rfl⟩ : ∃ (p : Fin 1024) (q : Fin 128), y = ix2 p q := ⟨y 0, y 1, eq_ix2 y⟩
  rw [chain1_at]
  show _ = (∑ k : Fin 8192, A (ix2 (rowAt (n / 4) hi p) k) * X (ix2 k q)) + b (ix2 (0 : Fin 1) q)
  rw [sum_four_runs (fun k => A (ix2 (rowAt (n / 4) hi p) k) * X (ix2 k q))]
  rfl

section
variable (V : (c : Dev nD) → (b : Ref sig .tc) → Buf (Elt Ideal) ((c : Thread nD τ).loc b))

/-- What the output's buffer holds after the last point of a row of the grid: the four steps unrolled. -/
theorem acc1_run (c : Dev nD) (n : ℕ) (h0 : n < cfg1.N) (h1 : n + 1 < cfg1.N) (h2 : n + 2 < cfg1.N) (h3 : n + 3 < cfg1.N)
    (hmod : n % 4 = 0) :
    acc1 V c (n + 3) h3
      = k1_pay3 (k1_pay2 (blk1 V c 0 ⟨n + 3, h3⟩) (View.ld (blk1 V c 1 ⟨n + 3, h3⟩) (rdX1 (grid1.coords ⟨n + 3, h3⟩)))
          (k1_pay2 (blk1 V c 0 ⟨n + 2, h2⟩) (View.ld (blk1 V c 1 ⟨n + 2, h2⟩) (rdX1 (grid1.coords ⟨n + 2, h2⟩)))
          (k1_pay2 (blk1 V c 0 ⟨n + 1, h1⟩) (View.ld (blk1 V c 1 ⟨n + 1, h1⟩) (rdX1 (grid1.coords ⟨n + 1, h1⟩)))
          (k1_pay2 (blk1 V c 0 ⟨n, h0⟩) (View.ld (blk1 V c 1 ⟨n, h0⟩) (rdX1 (grid1.coords ⟨n, h0⟩))) (k1_pay1 (F := Ideal))))))
          (blk1 V c 2 ⟨n + 3, h3⟩) := by
  have m10 : ¬(n + 1) % 4 = 0 := by omega
  have m13 : ¬(n + 1) % 4 = 3 := by omega
  have m20 : ¬(n + 1 + 1) % 4 = 0 := by omega
  have m23 : ¬(n + 1 + 1) % 4 = 3 := by omega
  have m30 : ¬(n + 2 + 1) % 4 = 0 := by omega
  have m33 : (n + 2 + 1) % 4 = 3 := by omega
  have e0 : acc1 V c n h0 = k1_pay2 (blk1 V c 0 ⟨n, h0⟩) (View.ld (blk1 V c 1 ⟨n, h0⟩) (rdX1 (grid1.coords ⟨n, h0⟩))) (k1_pay1 (F := Ideal)) :=
    acc1_first V c ⟨n, h0⟩ hmod
  have e1 : acc1 V c (n + 1) h1 = k1_pay2 (blk1 V c 0 ⟨n + 1, h1⟩) (View.ld (blk1 V c 1 ⟨n + 1, h1⟩) (rdX1 (grid1.coords ⟨n + 1, h1⟩))) (acc1 V c n h0) :=
    (if_neg m10).trans (if_neg m13)
  have e2 : acc1 V c (n + 2) h2 = k1_pay2 (blk1 V c 0 ⟨n + 2, h2⟩) (View.ld (blk1 V c 1 ⟨n + 2, h2⟩) (rdX1 (grid1.coords ⟨n + 2, h2⟩))) (acc1 V c (n + 1) h1) :=
    (if_neg m20).trans (if_neg m23)
  have e3 : acc1 V c (n + 3) h3 = k1_pay3 (k1_pay2 (blk1 V c 0 ⟨n + 3, h3⟩) (View.ld (blk1 V c 1 ⟨n + 3, h3⟩) (rdX1 (grid1.coords ⟨n + 3, h3⟩))) (acc1 V c (n + 2) h2)) (blk1 V c 2 ⟨n + 3, h3⟩) :=
    (if_neg m30).trans (if_pos m33)
  rw [e3, e2, e1, e0]

/-- What a last point writes back is its block of the layer of the arrays the region is entered with. -/
theorem flushed1_eq (c : Dev nD) (t : Fin cfg1.N) (hf : (cfg1.win 3).flush t = true) :
    (dat1 V c).flushed 3 t
      = ((cfg1.win 3).blk t).view.read (Elt Ideal) (layer1Of (V c main_arg0) (V c main_v3) (V c main_v4)) := by
  have hN : cfg1.N = 32 := N_1
  have hm : t.val % 4 = 3 := (flush1_3 t).mp hf
  obtain ⟨tv, ht⟩ := t
  obtain ⟨n, rfl⟩ : ∃ n, tv = n + 3 := ⟨tv - 3, by dsimp only at hm; omega⟩
  have hmod : n % 4 = 0 := by dsimp only at hm; omega
  show (cfg1.win 3).cut (grid1.coords ⟨n + 3, ht⟩) ((dat1 V c).after 3 ⟨n + 3, ht⟩) = _
  rw [after1_3]
  show acc1 V c (n + 3) ht = _
  rw [acc1_run V c n (by omega) (by omega) (by omega) ht hmod]
  exact block1_eq (V c main_arg0) (V c main_v3) (V c main_v4) n (by omega) (by omega) (by omega) ht hmod

/-- An entry of the result lies in point t's block when each coordinate lies in the block's range on its axis. -/
theorem mem_blk1 (t : Fin cfg1.N) (i : S8192x128.Idx) :
    i ∈ ((cfg1.win 3).blk t).view.set ↔ ∀ a : Fin 2, win1_3.index t a * S1024x128.size a ≤ (i a).val
      ∧ (i a).val < win1_3.index t a * S1024x128.size a + S1024x128.size a := by
  show i ∈ ((View.whole main_v5).slice (win1_3.rect t)).set ↔ _
  rw [View.set_slice_whole, Rect.mem_set_unit]
  exact Iff.rfl

/-- Row r lies in the block written back at point 4·(r / 1024) + 3. -/
theorem cover1 (i : S8192x128.Idx) :
    ∃ t : Fin cfg1.N, (cfg1.win 3).flush t = true ∧ i ∈ ((cfg1.win 3).blk t).view.set := by
  have h0 : (i 0).val < 8192 := (i 0).isLt
  have h1 : (i 1).val < 128 := (i 1).isLt
  have hN : cfg1.N = 32 := N_1
  have hlt : 4 * ((i 0).val / 1024) + 3 < cfg1.N := by rw [hN]; omega
  refine ⟨⟨4 * ((i 0).val / 1024) + 3, hlt⟩, (flush1_3 _).mpr (by dsimp only; omega), ?_⟩
  rw [mem_blk1]
  obtain ⟨-, -, -, -, -, -, c0, c1, -⟩ := idx_facts1 ⟨4 * ((i 0).val / 1024) + 3, hlt⟩
  intro a
  match a with
  | ⟨0, _⟩ =>
    show win1_3.index _ (0 : Fin 2) * 1024 ≤ (i 0).val ∧ (i 0).val < win1_3.index _ (0 : Fin 2) * 1024 + 1024
    rw [c0]; dsimp only; omega
  | ⟨1, _⟩ =>
    show win1_3.index _ (1 : Fin 2) * 128 ≤ (i 1).val ∧ (i 1).val < win1_3.index _ (1 : Fin 2) * 128 + 128
    rw [c1]; omega

/-- THE LAYER'S RESULT: after the region the result array holds the layer of the three arrays the region was
    entered with: at (r, q), Σ_k adj[r,k] · X[k,q] + b[0,q] with k over all 8192 positions. -/
theorem final1 (c : Dev nD) :
    (dat1 V c).arrAt 3 cfg1.N = layer1Of (V c main_arg0) (V c main_v3) (V c main_v4) :=
  (dat1 V c).arrAt_eq_of_cover 3 (layer1Of (V c main_arg0) (V c main_v3) (V c main_v4)) (flushed1_eq V c) cover1

end

end Cert.KernelIdeal.Final

end
-- ==== Proof.IdealPay2.lean ====
/-
  The decoder's arithmetic at one entry.

  At a grid point the decoder's body takes two blocks of 1024 rows of the embedding, a and b (each 1024 × 128), and
  stores logistic (a · bᵀ): the product contracts the second axis of both operands into the zero accumulator, so its
  entry at row p, column q is Σ_k a[p,k] · b[q,k]; on extended reals the two narrowings to bf16 and the two reshapes
  to the same shape are the identity.
-/
import proofs.«158142_j13039520711025_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Final

open Cert.KernelIdeal Cert.KernelIdeal.Gen Idealize.ShloMosaic Idealize.ShloMosaic.TcCoe Idealize.ShloMosaic.ValueIdx

/-- The decoder's product: both operands are contracted along their second axis. -/
abbrev decDot : DotDims S1024x128 S1024x128 S1024x1024 := dot_S1024x128_S1024x128_S1024x1024_1_1_0_0_n_n

/-- The left operand is read at the output's row … -/
theorem dec_lhs_0 (i : S1024x1024.Idx) (q : decDot.contr.Idx) : (decDot.lhsIdx i q 0).val = (i 0).val := by
  unfold DotDims.lhsIdx
  rw [dif_neg (show ¬(0 : Fin S1024x128.rank) ∈ decDot.lhsBatch by decide), dif_pos (show (0 : Fin S1024x128.rank) ∈ decDot.lhsNonContracting by decide)]
  rfl
/-- … and the contracted position; -/
theorem dec_lhs_1 (i : S1024x1024.Idx) (q : decDot.contr.Idx) : (decDot.lhsIdx i q 1).val = (q ⟨0, by decide⟩).val :=
  decDot.lhsIdx_val_of_single rfl i q
/-- the right operand at the output's COLUMN, as its row, … -/
theorem dec_rhs_0 (i : S1024x1024.Idx) (q : decDot.contr.Idx) : (decDot.rhsIdx i q 0).val = (i 1).val := by
  unfold DotDims.rhsIdx
  rw [dif_neg (show ¬(0 : Fin S1024x128.rank) ∈ decDot.rhsBatch by decide), dif_pos (show (0 : Fin S1024x128.rank) ∈ decDot.rhsNonContracting by decide)]
  rfl
/-- … and the contracted position. -/
theorem dec_rhs_1 (i : S1024x1024.Idx) (q : decDot.contr.Idx) : (decDot.rhsIdx i q 1).val = (q ⟨0, by decide⟩).val :=
  decDot.rhsIdx_val_of_single rfl i q

/-- The stored value at row p, column q: the logistic function of the inner product of row p of the first block and
    row q of the second. -/
theorem k2_pay1_at (a b : Vec Ideal S1024x128 .f32) (p q : Fin 1024) :
    k2_pay1 (F := Ideal) a b (ix2 p q) = Ideal.logistic (∑ k : Fin 128, a (ix2 p k) * b (ix2 q k)) := by
  unfold k2_pay1
  refine congrArg Ideal.logistic ?_
  refine (Ideal.matmul_constant_zero_apply decDot none _ _ (ix2 p q)).trans ?_
  rw [← Equiv.sum_comp (contrEquiv1 decDot 128 rfl rfl).symm]
  refine Finset.sum_congr rfl fun k _ => ?_
  have hk := contrEquiv1_symm_val decDot 128 rfl rfl k
  have el : decDot.lhsIdx (ix2 p q) ((contrEquiv1 decDot 128 rfl rfl).symm k) = ix2 p k := funext fun x => Fin.ext (by
    match x with
    | ⟨0, _⟩ => exact dec_lhs_0 _ _
    | ⟨1, _⟩ => exact (dec_lhs_1 _ _).trans hk)
  have er : decDot.rhsIdx (ix2 p q) ((contrEquiv1 decDot 128 rfl rfl).symm k) = ix2 q k := funext fun x => Fin.ext (by
    match x with
    | ⟨0, _⟩ => exact dec_rhs_0 _ _
    | ⟨1, _⟩ => exact (dec_rhs_1 _ _).trans hk)
  rw [el, er, truncf_apply, truncf_apply, shapeCast_self, shapeCast_self]

end Cert.KernelIdeal.Final

end
-- ==== Proof.IdealFinal2.lean ====
/-
  The decoder's result array, entry by entry.

  The grid has 8 × 8 points, walked row by row: point t has coordinates (t / 8, t % 8). At point t the body reads
  rows 1024·(t/8) … 1024·(t/8)+1023 of the embedding as its first block and rows 1024·(t%8) … 1024·(t%8)+1023 as its
  second (both operands are the whole embedding, staged once), and the 1024 × 1024 block it leaves is written back
  to block (t/8, t%8) of the result. So what point t writes at row y₀, column y₁ of its block is the logistic
  function of the inner product of rows 1024·(t/8)+y₀ and 1024·(t%8)+y₁ of the embedding — block (t/8, t%8) of ONE
  function of the embedding — and every entry (r, s) of the 8192 × 8192 result lies in the block of point
  8·(r/1024) + s/1024. Hence the result array is that function.
-/
import proofs.«158142_j13039520711025_2_alg».proof.Proof.IdealRegions
import proofs.«158142_j13039520711025_2_alg».proof.Proof.IdealPay2
import Idealize.ShloMosaic.Lib.Pipeline.Value

noncomputable section

namespace Cert.KernelIdeal.Final

open Cert.KernelIdeal Cert.KernelIdeal.Gen Idealize.ShloMosaic Idealize.ShloMosaic.TcCoe Idealize.ShloMosaic.ValueIdx
open Idealize.SL.Sem
open Idealize.ShloMosaic.Pipeline (Dat)

theorem hz2 : (![0, 0] : Fin 2 → Nat) = fun _ => 0 := funext fun a => by fin_cases a <;> rfl

/-- The scores as one function of an embedding E: entry (r, s) is the logistic function of ⟨E r, E s⟩. -/
def scoresOf (E : S8192x128.Idx → EReal) : S8192x8192.Idx → EReal :=
  fun j => Ideal.logistic (∑ k : Fin 128, E (ix2 (j 0) k) * E (ix2 (j 1) k))

theorem scoresOf_apply (E : S8192x128.Idx → EReal) (j : S8192x8192.Idx) :
    scoresOf E j = Ideal.logistic (∑ k : Fin 128, E (ix2 (j 0) k) * E (ix2 (j 1) k)) := rfl

/-- The body's stored block as a function of its two operand blocks. -/
theorem k2_pay1_fun (a b : Vec Ideal S1024x128 .f32) :
    k2_pay1 (F := Ideal) a b = fun y => Ideal.logistic (∑ k : Fin 128, a (ix2 (y 0) k) * b (ix2 (y 1) k)) := by
  funext y
  obtain ⟨p, q, rfl⟩ : ∃ (p q : Fin 1024), y = ix2 p q := ⟨y 0, y 1, eq_ix2 y⟩
  exact k2_pay1_at a b p q

/-- The grid's walk and the index maps, decided once over the 64 points: the result's block index at point t is
    (t / 8, t % 8); both operands are staged whole (block index (0, 0)); the body's two row offsets are
    1024·(t / 8) and 1024·(t % 8). -/
theorem idx_facts2 : ∀ t : Fin cfg2.N,
    win2_2.index t (0 : Fin 2) = t.val / 8 ∧ win2_2.index t (1 : Fin 2) = t.val % 8
    ∧ win2_0.index t (0 : Fin 2) = 0 ∧ win2_0.index t (1 : Fin 2) = 0
    ∧ win2_1.index t (0 : Fin 2) = 0 ∧ win2_1.index t (1 : Fin 2) = 0
    ∧ k2_off1 (grid2.coords t) (0 : Fin 2) = 1024 * (t.val / 8) ∧ k2_off1 (grid2.coords t) (1 : Fin 2) = 0
    ∧ k2_off2 (grid2.coords t) (0 : Fin 2) = 1024 * (t.val % 8) ∧ k2_off2 (grid2.coords t) (1 : Fin 2) = 0 :=
  (by decide +kernel : ∀ t : Fin grid2.N, _)

/-- What the body leaves at point t, from the two operands' windows over an embedding E, is block (t / 8, t % 8) of
    the scores of E. -/
theorem block2_eq (E : S8192x128.Idx → EReal) (t : Fin cfg2.N) :
    decodeOut (F := Ideal) (grid2.coords t) (((cfg2.win 0).blk t).view.read (Elt Ideal) E) (((cfg2.win 1).blk t).view.read (Elt Ideal) E)
      = ((cfg2.win 2).blk t).view.read (Elt Ideal) (scoresOf E) := by
  unfold decodeOut
  rw [View.canon_unit_zero hz2]
  refine (k2_pay1_fun _ _).trans ?_
  obtain ⟨e0, e1, a0, a1, b0, b1, o0, o1, p0, p1⟩ := idx_facts2 t
  funext y
  show Ideal.logistic (∑ k : Fin 128,
      E (((cfg2.win 0).blk t).view.emb ((rdA (grid2.coords t)).idx (ix2 (y 0) k)))
        * E (((cfg2.win 1).blk t).view.emb ((rdB (grid2.coords t)).idx (ix2 (y 1) k))))
    = Ideal.logistic (∑ k : Fin 128,
      E (ix2 ((((cfg2.win 2).blk t).view.emb y) 0) k) * E (ix2 ((((cfg2.win 2).blk t).view.emb y) 1) k))
  refine congrArg Ideal.logistic (Finset.sum_congr rfl fun k _ => ?_)
  have hA : ((cfg2.win 0).blk t).view.emb ((rdA (grid2.coords t)).idx (ix2 (y 0) k))
      = ix2 ((((cfg2.win 2).blk t).view.emb y) 0) k := by
    funext a; apply Fin.ext
    match a with
    | ⟨0, _⟩ =>
      show win2_0.index t (0 : Fin 2) * 8192 + 1 * (k2_off1 (grid2.coords t) (0 : Fin 2) + 1 * (y 0).val)
        = win2_2.index t (0 : Fin 2) * 1024 + 1 * (y 0).val
      rw [a0, o0, e0]; omega
    | ⟨1, _⟩ =>
      show win2_0.index t (1 : Fin 2) * 128 + 1 * (k2_off1 (grid2.coords t) (1 : Fin 2) + 1 * k.val) = k.val
      rw [a1, o1]; omega
  have hB : ((cfg2.win 1).blk t).view.emb ((rdB (grid2.coords t)).idx (ix2 (y 1) k))
      = ix2 ((((cfg2.win 2).blk t).view.emb y) 1) k := by
    funext a; apply Fin.ext
    match a with
    | ⟨0, _⟩ =>
      show win2_1.index t (0 : Fin 2) * 8192 + 1 * (k2_off2 (grid2.coords t) (0 : Fin 2) + 1 * (y 1).val)
        = win2_2.index t (1 : Fin 2) * 1024 + 1 * (y 1).val
      rw [b0, p0, e1]; omega
    | ⟨1, _⟩ =>
      show win2_1.index t (1 : Fin 2) * 128 + 1 * (k2_off2 (grid2.coords t) (1 : Fin 2) + 1 * k.val) = k.val
      rw [b1, p1]; omega
  exact congrArg₂ (fun u v : EReal => u * v) (congrArg E hA) (congrArg E hB)

/-- An entry of the result lies in point t's block when each coordinate lies in the block's range on its axis. -/
theorem mem_blk2 (t : Fin cfg2.N) (i : S8192x8192.Idx) :
    i ∈ ((cfg2.win 2).blk t).view.set ↔ ∀ a : Fin 2, win2_2.index t a * S1024x1024.size a ≤ (i a).val
      ∧ (i a).val < win2_2.index t a * S1024x1024.size a + S1024x1024.size a := by
  show i ∈ ((View.whole main_v6).slice (win2_2.rect t)).set ↔ _
  rw [View.set_slice_whole, Rect.mem_set_unit]
  exact Iff.rfl

/-- Entry (r, s) lies in the block of point 8·(r / 1024) + s / 1024. -/
theorem cover2 (i : S8192x8192.Idx) :
    ∃ t : Fin cfg2.N, (cfg2.win 2).flush t = true ∧ i ∈ ((cfg2.win 2).blk t).view.set := by
  have h0 : (i 0).val < 8192 := (i 0).isLt
  have h1 : (i 1).val < 8192 := (i 1).isLt
  have hN : cfg2.N = 64 := N_2
  have hlt : 8 * ((i 0).val / 1024) + (i 1).val / 1024 < cfg2.N := by rw [hN]; omega
  refine ⟨⟨8 * ((i 0).val / 1024) + (i 1).val / 1024, hlt⟩, flush2_2 _, ?_⟩
  rw [mem_blk2]
  obtain ⟨e0, e1, -⟩ := idx_facts2 ⟨8 * ((i 0).val / 1024) + (i 1).val / 1024, hlt⟩
  intro a
  match a with
  | ⟨0, _⟩ =>
    show win2_2.index _ (0 : Fin 2) * 1024 ≤ (i 0).val ∧ (i 0).val < win2_2.index _ (0 : Fin 2) * 1024 + 1024
    rw [e0]; dsimp only; omega
  | ⟨1, _⟩ =>
    show win2_2.index _ (1 : Fin 2) * 1024 ≤ (i 1).val ∧ (i 1).val < win2_2.index _ (1 : Fin 2) * 1024 + 1024
    rw [e1]; dsimp only; omega

section
variable (V : (c : Dev nD) → (b : Ref sig .tc) → Buf (Elt Ideal) ((c : Thread nD τ).loc b))

/-- What point t writes back is block (t / 8, t % 8) of the scores of the embedding the region is entered with. -/
theorem flushed2_eq (c : Dev nD) (t : Fin cfg2.N) :
    (dat2 V c).flushed 2 t = ((cfg2.win 2).blk t).view.read (Elt Ideal) (scoresOf (V c main_v5)) := by
  show (cfg2.win 2).cut (grid2.coords t) ((dat2 V c).after 2 t) = _
  rw [after2_2]
  exact block2_eq (V c main_v5) t

/-- THE DECODER'S RESULT: after the region the result array holds, at (r, s), the logistic function of the inner
    product of rows r and s of the embedding the region was entered with. -/
theorem final2 (c : Dev nD) : (dat2 V c).arrAt 2 cfg2.N = scoresOf (V c main_v5) :=
  (dat2 V c).arrAt_eq_of_cover 2 (scoresOf (V c main_v5)) (fun t _ => flushed2_eq V c t) cover2

end

end Cert.KernelIdeal.Final

end
-- ==== Proof.IdealValue.lean ====
/-
  The idealized kernel's two results as the network of Proof/Spec.lean of the launch memory's arguments: each
  region's result array (a function of the buffers the region is entered with) composed with the host stretches
  between the regions, read index by index.
-/
import proofs.«158142_j13039520711025_2_alg».proof.Proof.IdealHost
import proofs.«158142_j13039520711025_2_alg».proof.Proof.IdealFinal0
import proofs.«158142_j13039520711025_2_alg».proof.Proof.IdealFinal1
import proofs.«158142_j13039520711025_2_alg».proof.Proof.IdealFinal2
import proofs.«158142_j13039520711025_2_alg».proof.Proof.Spec

set_option maxRecDepth 16384

noncomputable section

namespace Cert.KernelIdeal.Gen

open Idealize.ShloMosaic Idealize.ShloMosaic.TcCoe Idealize.ShloMosaic.ValueIdx Idealize.SL.Sem Idealize.ShloMosaic.StableHlo
open Cert.KernelIdeal.Final

/-! ## The layers over typed arrays -/

/-- The first layer's array function is `hidden` when its dense operand is `feature · W1` and its bias row is `b1`. -/
theorem layer0_is_hidden (adj : Cert.Spec.Mat 8192 8192) (feature : Cert.Spec.Mat 8192 512) (W1 : Cert.Spec.Mat 512 256) (b1 : Cert.Spec.Row 256)
    (X : Cert.Spec.Mat 8192 256) (brow : Cert.Spec.Mat 1 256)
    (hX : ∀ r c, X (ix2 r c) = Cert.Spec.proj1 feature W1 r c) (hb : ∀ c, brow (ix2 (0 : Fin 1) c) = b1 (ix1 c))
    (r : Fin 8192) (c : Fin 256) : layer0Of adj X brow (ix2 r c) = Cert.Spec.hidden adj feature W1 b1 r c := by
  show max ((∑ k : Fin 8192, adj (ix2 r k) * X (ix2 k c)) + brow (ix2 (0 : Fin 1) c)) 0 = _
  unfold Cert.Spec.hidden
  simp only [hX, hb]

/-- The second layer's array function is `embed` when its dense operand is `hidden · W2` and its bias row is `b2`. -/
theorem layer1_is_embed (adj : Cert.Spec.Mat 8192 8192) (feature : Cert.Spec.Mat 8192 512) (W1 : Cert.Spec.Mat 512 256) (b1 : Cert.Spec.Row 256)
    (W2 : Cert.Spec.Mat 256 128) (b2 : Cert.Spec.Row 128) (X : Cert.Spec.Mat 8192 128) (brow : Cert.Spec.Mat 1 128)
    (hX : ∀ r c, X (ix2 r c) = Cert.Spec.proj2 adj feature W1 b1 W2 r c) (hb : ∀ c, brow (ix2 (0 : Fin 1) c) = b2 (ix1 c))
    (r : Fin 8192) (c : Fin 128) : layer1Of adj X brow (ix2 r c) = Cert.Spec.embed adj feature W1 b1 W2 b2 r c := by
  show (∑ k : Fin 8192, adj (ix2 r k) * X (ix2 k c)) + brow (ix2 (0 : Fin 1) c) = _
  unfold Cert.Spec.embed
  simp only [hX, hb]

variable (m : (ℓ : Loc nD τ sig) → Buf (Elt Ideal) ℓ) (ρ : Dev nD → PrngReg)

/-! ## The regions' results on the launch memory -/

/-- The first region leaves the hidden layer in `main_v2`. -/
theorem fin0_at (c : Dev nD) (r : Fin 8192) (q : Fin 256) :
    (fin0 m c : S8192x256.Idx → EReal) (ix2 r q)
      = Cert.Spec.hidden (m ((c : Thread nD τ).loc main_arg0)) (m ((c : Thread nD τ).loc main_arg1)) (m ((c : Thread nD τ).loc main_arg2))
          (m ((c : Thread nD τ).loc main_arg3)) r q := by
  unfold fin0
  rw [final0 (Vr1 m) c, show Vr1 m c main_arg0 = m ((c : Thread nD τ).loc main_arg0) from W1_of m c main_arg0 (by decide)]
  refine layer0_is_hidden _ _ _ _ _ _ (fun r' c' => ?_) (fun c' => ?_) r q
  · rw [show Vr1 m c main_v0 = W1 m c main_v0 from rfl, W1_v0]; exact hostDot1_at _ _ r' c'
  · rw [show Vr1 m c main_v1 = W1 m c main_v1 from rfl, W1_v1]; exact row256_at _ c'

/-- The second region leaves the embedding in `main_v5`. -/
theorem fin1_at (c : Dev nD) (r : Fin 8192) (q : Fin 128) :
    (fin1 m c : S8192x128.Idx → EReal) (ix2 r q)
      = Cert.Spec.embed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r q := by
  unfold fin1
  rw [final1 (Vr3 m) c, show Vr3 m c main_arg0 = m ((c : Thread nD τ).loc main_arg0) from
    (W3_of m c main_arg0 (by decide)).trans ((W2_of m c main_arg0 (by decide)).trans (W1_of m c main_arg0 (by decide)))]
  refine layer1_is_embed _ _ _ _ _ _ _ _ (fun r' c' => ?_) (fun c' => ?_) r q
  · rw [show Vr3 m c main_v3 = W3 m c main_v3 from rfl, W3_v3, hostDot2_at]
    unfold Cert.Spec.proj2
    refine Finset.sum_congr rfl fun k _ => ?_
    rw [show (W2 m c main_v2 : S8192x256.Idx → EReal) = fin0 m c from W2_at m c, fin0_at,
      show (W2 m c main_arg4 : S256x128.Idx → EReal) = m ((c : Thread nD τ).loc main_arg4) from
        (W2_of m c main_arg4 (by decide)).trans (W1_of m c main_arg4 (by decide))]
  · rw [show Vr3 m c main_v4 = W3 m c main_v4 from rfl, W3_v4, row128_at,
      show (W2 m c main_arg5 : S128.Idx → EReal) = m ((c : Thread nD τ).loc main_arg5) from
        (W2_of m c main_arg5 (by decide)).trans (W1_of m c main_arg5 (by decide))]

/-- So `main_v5` ends at the embedding array, -/
theorem embed_final (c : Dev nD) :
    (fin1 m c : S8192x128.Idx → EReal)
      = Cert.Spec.embedArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext j
  obtain ⟨r, q, rfl⟩ : ∃ (r : Fin 8192) (q : Fin 128), j = ix2 r q := ⟨j 0, j 1, eq_ix2 j⟩
  exact fin1_at m c r q

/-- and `main_v7` at the flattened scores. -/
theorem score_final (c : Dev nD) :
    (W6 m c main_v7 : S67108864.Idx → EReal)
      = Cert.Spec.scoreArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [W6_v7]
  funext j
  obtain ⟨j0, rfl⟩ : ∃ j0 : Fin 67108864, j = ix1 j0 := ⟨j 0, eq_ix1 j⟩
  rw [flat_at, show (W5 m c main_v6 : S8192x8192.Idx → EReal) = fin2 m c from W5_at m c]
  unfold fin2
  rw [final2 (Vr4 m) c, scoresOf_apply, show (Vr4 m c main_v5 : S8192x128.Idx → EReal) = fin1 m c from W4_at m c]
  simp only [fin1_at]
  rfl

/-! ## The run, read -/

/-- Every weakly fair execution of the idealized kernel ends with the flattened scores in `main_v7`, the embedding in
    `main_v5`, and the six arguments as launched. -/
theorem value_run : θ_run defs (onTc (τ := τ) (main (F := Ideal))) ⟨m, fun _ => 0, ρ⟩ (fun r => ∀ c : Dev nD,
      r.2.mem ((c.tc : Thread nD τ).loc main_v7)
        = Cert.Spec.scoreArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v5)
        = Cert.Spec.embedArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_unscoped main_v7 (by decide))).trans (score_final m c),
     (h c _ (mem_unscoped main_v5 (by decide))).trans ((W6_of m c main_v5 (by decide)).trans ((W5_of m c main_v5 (by decide)).trans
       ((W4_at m c).trans (embed_final m c)))),
     (h c _ (mem_unscoped main_arg0 (by decide))).trans (W6_kept m c main_arg0 (by decide) (by decide) (by decide) (by decide) (by decide) (by decide)),
     (h c _ (mem_unscoped main_arg1 (by decide))).trans (W6_kept m c main_arg1 (by decide) (by decide) (by decide) (by decide) (by decide) (by decide)),
     (h c _ (mem_unscoped main_arg2 (by decide))).trans (W6_kept m c main_arg2 (by decide) (by decide) (by decide) (by decide) (by decide) (by decide)),
     (h c _ (mem_unscoped main_arg3 (by decide))).trans (W6_kept m c main_arg3 (by decide) (by decide) (by decide) (by decide) (by decide) (by decide)),
     (h c _ (mem_unscoped main_arg4 (by decide))).trans (W6_kept m c main_arg4 (by decide) (by decide) (by decide) (by decide) (by decide) (by decide)),
     (h c _ (mem_unscoped main_arg5 (by decide))).trans (W6_kept m c main_arg5 (by decide) (by decide) (by decide) (by decide) (by decide) (by decide))⟩)
    (run_all m ρ)

end Cert.KernelIdeal.Gen

end
-- ==== Proof.lean ====
/-
  The certificate: the printed kernel and its idealization run to the end without a fault and leave their six argument
  arrays as launched; so does the reference; the idealization rewrote nothing; and at the ideal instance the
  idealized kernel and the idealized reference, run from memories that agree on the arguments, end with the same two
  results, element by element: the two-layer graph convolution `embed` and the logistic of its Gram matrix, flattened.

  Both programs compute the network of Proof/Spec.lean. The kernel tiles it: each adjacency product is accumulated
  over four column blocks of the adjacency matrix into a row block of the result, started from zero and finished
  with the bias (and, in the first layer, the clamp at zero); the decoder computes the Gram matrix block by block.
  Over the extended reals addition is commutative and associative and zero is neutral, so the four partial sums of a
  row are the one sum over the whole contracted axis; a change of float format is the identity; the logistic function
  is one function in both programs. No finiteness of the inputs is used.
-/
import proofs.«158142_j13039520711025_2_alg».proof.Defs
import proofs.«158142_j13039520711025_2_alg».proof.Proof.Gen.Kernel
import proofs.«158142_j13039520711025_2_alg».proof.Proof.Gen.KernelIdeal
import proofs.«158142_j13039520711025_2_alg».proof.Proof.Gen.ReferenceIdeal
import proofs.«158142_j13039520711025_2_alg».proof.Proof.Gen.Pre_finite_inputs
import proofs.«158142_j13039520711025_2_alg».proof.Proof.Gen.ReferenceIdeal.Run
import proofs.«158142_j13039520711025_2_alg».proof.Proof.Gen.ReferenceIdeal.Read
import proofs.«158142_j13039520711025_2_alg».proof.Proof.BitsFrame
import proofs.«158142_j13039520711025_2_alg».proof.Proof.IdealFrame
import proofs.«158142_j13039520711025_2_alg».proof.Proof.RefIsSpec
import proofs.«158142_j13039520711025_2_alg».proof.Proof.IdealValue
import Idealize.ShloMosaic.Adequacy
import Idealize.ShloMosaic.Init

noncomputable section

namespace Cert.Proof

open Idealize.ShloMosaic Idealize.SL.Sem

/-- The printed kernel's frame, at the word-level instance. -/
theorem frame_kernel : Cert.frame_Kernel := fun m ρ _ => Cert.Kernel.Gen.frame_all (F := Bits) m ρ
/-- The idealized kernel's frame, at the ideal instance. -/
theorem frame_kernelIdeal : Cert.frame_KernelIdeal := fun m ρ _ => Cert.KernelIdeal.Gen.frame_all (F := Ideal) m ρ
/-- The reference's frame: its run with the results dropped. -/
theorem frame_reference : Cert.frame_ReferenceIdeal := fun m ρ _ =>
  (θ_run Cert.ReferenceIdeal.defs _ _).mono (fun _ h c => (h c).2.2) (Cert.RefIsSpec.run m ρ)
/-- The idealization rewrote no operation. -/
theorem preserves : Cert.preserves_Kernel_KernelIdeal := trivial

/-- Both runs end at the network of Proof/Spec.lean of the (agreeing) arguments. -/
theorem algebraic : Cert.algebraic_KernelIdeal_ReferenceIdeal := by
  intro m ρ m' ρ' _ hagree
  refine ⟨_, _, Cert.KernelIdeal.Gen.value_run m ρ, ?_⟩
  refine (θ_run Cert.ReferenceIdeal.defs _ _).mono (fun _ h c => ⟨?_, ?_, (h c).2.2⟩) (Cert.RefIsSpec.run m' ρ')
  · rw [(h c).1, (hagree c).1, (hagree c).2.1, (hagree c).2.2.1, (hagree c).2.2.2.1, (hagree c).2.2.2.2.1, (hagree c).2.2.2.2.2]
  · rw [(h c).2.1, (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
